-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x768 : Shape := ⟨3, ![8, 2048, 768]⟩
abbrev S768x1024 : Shape := ⟨2, ![768, 1024]⟩
abbrev S768 : Shape := ⟨1, ![768]⟩
abbrev S768x768 : Shape := ⟨2, ![768, 768]⟩
abbrev S768x1536 : Shape := ⟨2, ![768, 1536]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x768 : S_.BroadcastsInDim S8x2048x768 (![] : Fin 0 → Fin S8x2048x768.rank)
  reducesTo_S8x2048x768_S_d0_1_2 : S8x2048x768.ReducesTo [0, 1, 2] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S768x1536 : S_.BroadcastsInDim S768x1536 (![] : Fin 0 → Fin S768x1536.rank)
  reducesTo_S768x1536_S_d0_1 : S768x1536.ReducesTo [0, 1] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S768x1536 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x1536 .f32 := Host.absf main_arg6
  let main_cst_10 : FVec F S_ .f32 := constant S_ .f32 0x7F800000#32
  let main_v30 : FVec F S768x1536 .f32 := broadcastInDim S768x1536 ![] bcast_S_S768x1536 main_cst_10
  let main_v31 : IVec S768x1536 1 := cmpf .olt main_v29 main_v30
  let main_c_11 : IVec S_ 1 := constantI S_ 1 1#1
  let main_v32 : IVec S_ 1 := (fun x v => Host.reduce IntOp.andi x v reducesTo_S768x1536_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S8x2048x768 .f32) (main_arg2 : FVec F S768x1024 .f32) (main_arg3 : FVec F S768 .f32) (main_arg4 : FVec F S768x768 .f32) (main_arg5 : FVec F S768 .f32) (main_arg6 : FVec F S768x1536 .f32) (main_arg7 : FVec F S768 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S8x2048x768 : Shape := ⟨3, ![8, 2048, 768]⟩
abbrev S768x1024 : Shape := ⟨2, ![768, 1024]⟩
abbrev S768 : Shape := ⟨1, ![768]⟩
abbrev S768x768 : Shape := ⟨2, ![768, 768]⟩
abbrev S768x1536 : Shape := ⟨2, ![768, 1536]⟩
abbrev S16384x1024 : Shape := ⟨2, ![16384, 1024]⟩
abbrev S16384x768 : Shape := ⟨2, ![16384, 768]⟩
abbrev S1x768 : Shape := ⟨2, ![1, 768]⟩
abbrev S1024x1024 : Shape := ⟨2, ![1024, 1024]⟩
abbrev S1024x768 : Shape := ⟨2, ![1024, 768]⟩
abbrev S8x2048x2048 : Shape := ⟨3, ![8, 2048, 2048]⟩
abbrev S8x256x768 : Shape := ⟨3, ![8, 256, 768]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 33
  | .vmem => 45
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S768x1024, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x1536, .f32⟩
  | .hbm, ⟨7, _⟩ => ⟨S768, .f32⟩
  | .hbm, ⟨8, _⟩ => ⟨S768x1024, .bf16⟩
  | .hbm, ⟨9, _⟩ => ⟨S768x768, .bf16⟩
  | .hbm, ⟨10, _⟩ => ⟨S16384x1024, .f32⟩
  | .hbm, ⟨11, _⟩ => ⟨S16384x768, .f32⟩
  | .hbm, ⟨12, _⟩ => ⟨S1x768, .f32⟩
  | .hbm, ⟨13, _⟩ => ⟨S16384x768, .bf16⟩
  | .hbm, ⟨14, _⟩ => ⟨S1x768, .f32⟩
  | .hbm, ⟨15, _⟩ => ⟨S16384x768, .bf16⟩
  | .hbm, ⟨16, _⟩ => ⟨S8x2048x768, .bf16⟩
  | .hbm, ⟨17, _⟩ => ⟨S8x2048x768, .bf16⟩
  | .hbm, ⟨18, _⟩ => ⟨S8x2048x2048, .f32⟩
  | .hbm, ⟨19, _⟩ => ⟨S8x2048x2048, .f32⟩
  | .hbm, ⟨20, _⟩ => ⟨S8x2048x2048, .bf16⟩
  | .hbm, ⟨21, _⟩ => ⟨S8x2048x768, .bf16⟩
  | .hbm, ⟨22, _⟩ => ⟨S8x2048x768, .bf16⟩
  | .hbm, ⟨23, _⟩ => ⟨S8x2048x768, .bf16⟩
  | .hbm, ⟨24, _⟩ => ⟨S16384x768, .bf16⟩
  | .hbm, ⟨25, _⟩ => ⟨S16384x768, .bf16⟩
  | .hbm, ⟨26, _⟩ => ⟨S768x768, .f32⟩
  | .hbm, ⟨27, _⟩ => ⟨S768x768, .bf16⟩
  | .hbm, ⟨28, _⟩ => ⟨S768x768, .f32⟩
  | .hbm, ⟨29, _⟩ => ⟨S768x768, .bf16⟩
  | .hbm, ⟨30, _⟩ => ⟨S1x768, .f32⟩
  | .hbm, ⟨31, _⟩ => ⟨S16384x768, .f32⟩
  | .hbm, ⟨32, _⟩ => ⟨S8x2048x768, .f32⟩
  | .local _ .vmem, ⟨0, _⟩ => ⟨S1024x1024, .f32⟩
  | .local _ .vmem, ⟨1, _⟩ => ⟨S1024x1024, .f32⟩
  | .local _ .vmem, ⟨2, _⟩ => ⟨S768x1024, .bf16⟩
  | .local _ .vmem, ⟨3, _⟩ => ⟨S1x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | .local _ .vmem, ⟨7, _⟩ => ⟨S1024x768, .f32⟩
  | .local _ .vmem, ⟨8, _⟩ => ⟨S768x768, .bf16⟩
  | .local _ .vmem, ⟨9, _⟩ => ⟨S1x768, .f32⟩
  | .local _ .vmem, ⟨10, _⟩ => ⟨S1024x768, .bf16⟩
  | .local _ .vmem, ⟨11, _⟩ => ⟨S1024x768, .bf16⟩
  | .local _ .vmem, ⟨12, _⟩ => ⟨S8x256x768, .bf16⟩
  | .local _ .vmem, ⟨13, _⟩ => ⟨S8x256x768, .bf16⟩
  | .local _ .vmem, ⟨14, _⟩ => ⟨S8x256x768, .bf16⟩
  | .local _ .vmem, ⟨15, _⟩ => ⟨S8x256x768, .bf16⟩
  | .local _ .vmem, ⟨16, _⟩ => ⟨S8x256x256, .f32⟩
  | .local _ .vmem, ⟨17, _⟩ => ⟨S8x256x256, .f32⟩
  | .local _ .vmem, ⟨18, _⟩ => ⟨S8x256x256, .f32⟩
  | .local _ .vmem, ⟨19, _⟩ => ⟨S8x256x256, .f32⟩
  | .local _ .vmem, ⟨20, _⟩ => ⟨S8x256x256, .bf16⟩
  | .local _ .vmem, ⟨21, _⟩ => ⟨S8x256x256, .bf16⟩
  | .local _ .vmem, ⟨22, _⟩ => ⟨S8x256x256, .bf16⟩
  | .local _ .vmem, ⟨23, _⟩ => ⟨S8x256x256, .bf16⟩
  | .local _ .vmem, ⟨24, _⟩ => ⟨S8x256x768, .bf16⟩
  | .local _ .vmem, ⟨25, _⟩ => ⟨S8x256x768, .bf16⟩
  | .local _ .vmem, ⟨26, _⟩ => ⟨S8x256x768, .bf16⟩
  | .local _ .vmem, ⟨27, _⟩ => ⟨S8x256x768, .bf16⟩
  | .local _ .vmem, ⟨28, _⟩ => ⟨S8x256x768, .f32⟩
  | .local _ .vmem, ⟨29, _⟩ => ⟨S8x256x256, .bf16⟩
  | .local _ .vmem, ⟨30, _⟩ => ⟨S8x256x256, .bf16⟩
  | .local _ .vmem, ⟨31, _⟩ => ⟨S8x256x768, .bf16⟩
  | .local _ .vmem, ⟨32, _⟩ => ⟨S8x256x768, .bf16⟩
  | .local _ .vmem, ⟨33, _⟩ => ⟨S8x256x768, .bf16⟩
  | .local _ .vmem, ⟨34, _⟩ => ⟨S8x256x768, .bf16⟩
  | .local _ .vmem, ⟨35, _⟩ => ⟨S8x256x768, .f32⟩
  | .local _ .vmem, ⟨36, _⟩ => ⟨S1024x768, .bf16⟩
  | .local _ .vmem, ⟨37, _⟩ => ⟨S1024x768, .bf16⟩
  | .local _ .vmem, ⟨38, _⟩ => ⟨S1024x768, .bf16⟩
  | .local _ .vmem, ⟨39, _⟩ => ⟨S1024x768, .bf16⟩
  | .local _ .vmem, ⟨40, _⟩ => ⟨S768x768, .bf16⟩
  | .local _ .vmem, ⟨41, _⟩ => ⟨S768x768, .bf16⟩
  | .local _ .vmem, ⟨42, _⟩ => ⟨S1x768, .f32⟩
  | .local _ .vmem, ⟨43, _⟩ => ⟨S1024x768, .f32⟩
  | .local _ .vmem, ⟨44, _⟩ => ⟨S1024x768, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem5_1 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 2 → Memref sig .tc .vmem S8x256x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x256x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x256x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_12 : BitVec 32 := 0#32
  let v15 : BitVec 1 := Scalar.cmpi .ne v14 c0_i32_12
  v15

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x256x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x256x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x256x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_12 : BitVec 32 := 0#32
  let v15 : BitVec 1 := Scalar.cmpi .ne v14 c0_i32_12
  v15

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S8x256x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8x256x768 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S8x256x768 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x768 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S768x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S768x768 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x768 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bitsLt_bf16_f32 : FTy.bits .bf16 < FTy.bits .f32
  shapeCasts_S8x2048x1024_S16384x1024 : S8x2048x1024.ShapeCasts S16384x1024
  shapeCasts_S8x2048x768_S16384x768 : S8x2048x768.ShapeCasts S16384x768
  shapeCasts_S768_S1x768 : S768.ShapeCasts S1x768
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  transposes_S768x1024_p1_0_S1024x768 : S768x1024.Transposes [1, 0] S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  transposes_S768x768_p1_0_S768x768 : S768x768.Transposes [1, 0] S768x768
  shapeCasts_S16384x768_S8x2048x768 : S16384x768.ShapeCasts S8x2048x768
  inb_S8x256x768_S8x256x768_0_0_0 : ∀ a, (![0, 0, 0] : Fin 3 → Nat) a + S8x256x768.size a ≤ S8x256x768.size a
  h_S8x256x768 : 0 < S8x256x768.numel
  shapeCasts_S8x256x768_S8x256x768 : S8x256x768.ShapeCasts S8x256x768
  reduces_S8x256x256_S256x256 : S8x256x256.Reduces [0] S256x256
  shapeCasts_S256x256_S1x256x256 : S256x256.ShapeCasts S1x256x256
  broadcasts_S1x256x256_S8x256x256 : S1x256x256.Broadcasts S8x256x256
  inb_S8x256x256_S8x256x256_0_0_0 : ∀ a, (![0, 0, 0] : Fin 3 → Nat) a + S8x256x256.size a ≤ S8x256x256.size a
  h_S8x256x256 : 0 < S8x256x256.numel
  transposes_S8x256x256_p0_2_1_S8x256x256 : S8x256x256.Transposes [0, 2, 1] S8x256x256
  packedbf16_S8x256x256_S8x256x256_0_0_0 : (Rect.unit (s := S8x256x256) ![0, 0, 0] S8x256x256.size inb_S8x256x256_S8x256x256_0_0_0).PackedRows (EltTy.packing .bf16)
  shapeCasts_S8x256x256_S8x256x256 : S8x256x256.ShapeCasts S8x256x256
  packedbf16_S8x256x768_S8x256x768_0_0_0 : (Rect.unit (s := S8x256x768) ![0, 0, 0] S8x256x768.size inb_S8x256x768_S8x256x768_0_0_0).PackedRows (EltTy.packing .bf16)
  slices_S768x1536_S768x768_0_0 : S768x1536.Slices ![0, 0] S768x768
  slices_S768x1536_S768x768_0_768 : S768x1536.Slices ![0, 768] S768x768
  dot_S1024x1024_S1024x768_S1024x768_1_0_0_1_n_n_wf : DotDims.WF S1024x1024 S1024x768 S1024x768 [1] [0] [0] [1] [] []
  dot_S1024x768_S768x768_S1024x768_1_0_0_1_n_n_wf : DotDims.WF S1024x768 S768x768 S1024x768 [1] [0] [0] [1] [] []
  dot_S8x256x768_S8x256x768_S8x256x256_2_2_1_1_0_0_wf : DotDims.WF S8x256x768 S8x256x768 S8x256x256 [2] [2] [1] [1] [0] [0]
  dot_S8x256x256_S8x256x768_S8x256x768_1_1_2_2_0_0_wf : DotDims.WF S8x256x256 S8x256x768 S8x256x768 [1] [1] [2] [2] [0] [0]
  dot_S8x256x256_S8x256x768_S8x256x768_2_1_1_2_0_0_wf : DotDims.WF S8x256x256 S8x256x768 S8x256x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S16384x768.size a
  hwx0_3 : ∀ i : grid0.Coords, EltTy.bits .bf16 = 32 ∨ (Rect.block (s := S16384x768) S1024x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S16384x768.size a
  hwx1_0 : ∀ i : grid1.Coords, EltTy.bits .f32 = 32 ∨ (Rect.block (s := S16384x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x768.size a ≤ S16384x768.size a
  hwx1_3 : ∀ i : grid1.Coords, EltTy.bits .bf16 = 32 ∨ (Rect.block (s := S16384x768) S1024x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x768.size a ≤ S8x2048x768.size a
  hwx2_0 : ∀ i : grid2.Coords, EltTy.bits .bf16 = 32 ∨ (Rect.block (s := S8x2048x768) S8x256x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256x768.size a ≤ S8x2048x768.size a
  hwx2_1 : ∀ i : grid2.Coords, EltTy.bits .bf16 = 32 ∨ (Rect.block (s := S8x2048x768) S8x256x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x256x256.size a ≤ S8x2048x2048.size a
  hwx2_2 : ∀ i : grid2.Coords, EltTy.bits .f32 = 32 ∨ (Rect.block (s := S8x2048x2048) S8x256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x256x256.size a ≤ S8x2048x2048.size a
  hwx2_3 : ∀ i : grid2.Coords, EltTy.bits .f32 = 32 ∨ (Rect.block (s := S8x2048x2048) S8x256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x256x256.size a ≤ S8x2048x2048.size a
  hwx2_4 : ∀ i : grid2.Coords, EltTy.bits .bf16 = 32 ∨ (Rect.block (s := S8x2048x2048) S8x256x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x256x256.size a ≤ S8x2048x2048.size a
  hwx3_0 : ∀ i : grid3.Coords, EltTy.bits .bf16 = 32 ∨ (Rect.block (s := S8x2048x2048) S8x256x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x256x768.size a ≤ S8x2048x768.size a
  hwx3_1 : ∀ i : grid3.Coords, EltTy.bits .bf16 = 32 ∨ (Rect.block (s := S8x2048x768) S8x256x768.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x256x768.size a ≤ S8x2048x768.size a
  hwx3_2 : ∀ i : grid3.Coords, EltTy.bits .bf16 = 32 ∨ (Rect.block (s := S8x2048x768) S8x256x768.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x256x256.size a ≤ S8x2048x2048.size a
  hwx4_0 : ∀ i : grid4.Coords, EltTy.bits .bf16 = 32 ∨ (Rect.block (s := S8x2048x2048) S8x256x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x256x768.size a ≤ S8x2048x768.size a
  hwx4_1 : ∀ i : grid4.Coords, EltTy.bits .bf16 = 32 ∨ (Rect.block (s := S8x2048x768) S8x256x768.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x256x768.size a ≤ S8x2048x768.size a
  hwx4_2 : ∀ i : grid4.Coords, EltTy.bits .bf16 = 32 ∨ (Rect.block (s := S8x2048x768) S8x256x768.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x768.size a ≤ S16384x768.size a
  hwx5_0 : ∀ i : grid5.Coords, EltTy.bits .bf16 = 32 ∨ (Rect.block (s := S16384x768) S1024x768.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x768.size a ≤ S16384x768.size a
  hwx5_1 : ∀ i : grid5.Coords, EltTy.bits .bf16 = 32 ∨ (Rect.block (s := S16384x768) S1024x768.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S768x768.size a ≤ S768x768.size a
  hwx5_2 : ∀ i : grid5.Coords, EltTy.bits .bf16 = 32 ∨ (Rect.block (s := S768x768) S768x768.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S768x768.size a ≤ S768x768.size a
  hwx5_3 : ∀ i : grid5.Coords, EltTy.bits .bf16 = 32 ∨ (Rect.block (s := S768x768) S768x768.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x768.size a ≤ S1x768.size a
  hwx5_4 : ∀ i : grid5.Coords, EltTy.bits .f32 = 32 ∨ (Rect.block (s := S1x768) S1x768.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x768.size a ≤ S16384x768.size a
  hwx5_5 : ∀ i : grid5.Coords, EltTy.bits .f32 = 32 ∨ (Rect.block (s := S16384x768) S1024x768.size (cc5_transform_5 i) (hinb5_5 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S8x256x768_S8x256x768_S8x256x256_2_2_1_1_0_0 : DotDims S8x256x768 S8x256x768 S8x256x256 where
  lhsContracting := [2]
  rhsContracting := [2]
  lhsNonContracting := [1]
  rhsNonContracting := [1]
  lhsBatch := [0]
  rhsBatch := [0]
  wf := dot_S8x256x768_S8x256x768_S8x256x256_2_2_1_1_0_0_wf
def dot_S8x256x256_S8x256x768_S8x256x768_1_1_2_2_0_0 : DotDims S8x256x256 S8x256x768 S8x256x768 where
  lhsContracting := [1]
  rhsContracting := [1]
  lhsNonContracting := [2]
  rhsNonContracting := [2]
  lhsBatch := [0]
  rhsBatch := [0]
  wf := dot_S8x256x256_S8x256x768_S8x256x768_1_1_2_2_0_0_wf
def dot_S8x256x256_S8x256x768_S8x256x768_2_1_1_2_0_0 : DotDims S8x256x256 S8x256x768 S8x256x768 where
  lhsContracting := [2]
  rhsContracting := [1]
  lhsNonContracting := [1]
  rhsNonContracting := [2]
  lhsBatch := [0]
  rhsBatch := [0]
  wf := dot_S8x256x256_S8x256x768_S8x256x768_2_1_1_2_0_0_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S8x256x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8x256x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10_0) S8x256x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10_1) S8x256x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10_2) S8x256x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v10_2) S8x256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S8x256x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S8x256x768.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v10_2) S8x256x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S8x256x768.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S8x256x768.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v14) S1024x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S1024x768.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17) S768x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S768x768.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v20) S1x768.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v21) S1024x768.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S8x2048x1024 : Shape := ⟨3, ![8, 2048, 1024]⟩
abbrev S8x2048x768 : Shape := ⟨3, ![8, 2048, 768]⟩
abbrev S768x1024 : Shape := ⟨2, ![768, 1024]⟩
abbrev S768 : Shape := ⟨1, ![768]⟩
abbrev S768x768 : Shape := ⟨2, ![768, 768]⟩
abbrev S768x1536 : Shape := ⟨2, ![768, 1536]⟩
abbrev S1x1x768 : Shape := ⟨3, ![1, 1, 768]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048x1536 : Shape := ⟨3, ![8, 2048, 1536]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S768x1024, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x1536, .f32⟩
  | .hbm, ⟨7, _⟩ => ⟨S768, .f32⟩
  | .hbm, ⟨8, _⟩ => ⟨S8x2048x768, .f32⟩
  | .hbm, ⟨9, _⟩ => ⟨S1x1x768, .f32⟩
  | .hbm, ⟨10, _⟩ => ⟨S8x2048x768, .f32⟩
  | .hbm, ⟨11, _⟩ => ⟨S8x2048x768, .f32⟩
  | .hbm, ⟨12, _⟩ => ⟨S8x2048x768, .f32⟩
  | .hbm, ⟨13, _⟩ => ⟨S1x1x768, .f32⟩
  | .hbm, ⟨14, _⟩ => ⟨S8x2048x768, .f32⟩
  | .hbm, ⟨15, _⟩ => ⟨S8x2048x768, .f32⟩
  | .hbm, ⟨16, _⟩ => ⟨S8x2048x2048, .f32⟩
  | .hbm, ⟨17, _⟩ => ⟨S_, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S1x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S2048x2048, .f32⟩
  | .hbm, ⟨28, _⟩ => ⟨S1x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S1x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S2048x2048, .f32⟩
  | .hbm, ⟨43, _⟩ => ⟨S1x2048x2048, .f32⟩
  | .hbm, ⟨44, _⟩ => ⟨S8x2048x2048, .f32⟩
  | .hbm, ⟨45, _⟩ => ⟨S8x2048x2048, .f32⟩
  | .hbm, ⟨46, _⟩ => ⟨S8x2048x768, .f32⟩
  | .hbm, ⟨47, _⟩ => ⟨S8x2048x768, .f32⟩
  | .hbm, ⟨48, _⟩ => ⟨S8x2048x1536, .f32⟩
  | .hbm, ⟨49, _⟩ => ⟨S8x2048x768, .f32⟩
  | .hbm, ⟨50, _⟩ => ⟨S1x1x768, .f32⟩
  | .hbm, ⟨51, _⟩ => ⟨S8x2048x768, .f32⟩
  | .hbm, ⟨52, _⟩ => ⟨S8x2048x768, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x2048_S2048x2048_d0 : S8x2048x2048.ReducesTo [0] S2048x2048
  h_S_ : 0 < S_.numel
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  concatenates_S8x2048x768_S8x2048x768_S8x2048x1536_d2 : Shape.Concatenates [S8x2048x768, S8x2048x768] S8x2048x1536 2
  dot_S8x2048x1024_S768x1024_S8x2048x768_2_1_01_0_n_n_wf : DotDims.WF S8x2048x1024 S768x1024 S8x2048x768 [2] [1] [0, 1] [0] [] []
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_1_1_2_2_0_0_wf : DotDims.WF S8x2048x2048 S8x2048x768 S8x2048x768 [1] [1] [2] [2] [0] [0]
  dot_S8x2048x1536_S768x1536_S8x2048x768_2_1_01_0_n_n_wf : DotDims.WF S8x2048x1536 S768x1536 S8x2048x768 [2] [1] [0, 1] [0] [] []

variable [Facts₀]

def dot_S8x2048x1024_S768x1024_S8x2048x768_2_1_01_0_n_n : DotDims S8x2048x1024 S768x1024 S8x2048x768 where
  lhsContracting := [2]
  rhsContracting := [1]
  lhsNonContracting := [0, 1]
  rhsNonContracting := [0]
  lhsBatch := []
  rhsBatch := []
  wf := dot_S8x2048x1024_S768x1024_S8x2048x768_2_1_01_0_n_n_wf
def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_1_1_2_2_0_0 : DotDims S8x2048x2048 S8x2048x768 S8x2048x768 where
  lhsContracting := [1]
  rhsContracting := [1]
  lhsNonContracting := [2]
  rhsNonContracting := [2]
  lhsBatch := [0]
  rhsBatch := [0]
  wf := dot_S8x2048x2048_S8x2048x768_S8x2048x768_1_1_2_2_0_0_wf
def dot_S8x2048x1536_S768x1536_S8x2048x768_2_1_01_0_n_n : DotDims S8x2048x1536 S768x1536 S8x2048x768 where
  lhsContracting := [2]
  rhsContracting := [1]
  lhsNonContracting := [0, 1]
  rhsNonContracting := [0]
  lhsBatch := []
  rhsBatch := []
  wf := dot_S8x2048x1536_S768x1536_S8x2048x768_2_1_01_0_n_n_wf

class Facts : Prop extends Facts₀ where

variable [Facts]
-- ==== Proof.KB.Reg0.lean ====
/- The class-A half of region 0 of @main (`cc0__linear_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S1024x1024 := Rect.unit (s := S1024x1024) ![0, 0] S1024x1024.size inb_S1024x1024_S1024x1024_0_0
abbrev r0_1 : Rect S768x1024 := Rect.unit (s := S768x1024) ![0, 0] S768x1024.size inb_S768x1024_S768x1024_0_0
abbrev r0_2 : Rect S1x768 := Rect.unit (s := S1x768) ![0, 0] S1x768.size inb_S1x768_S1x768_0_0
abbrev r0_3 : Rect S1024x768 := Rect.unit (s := S1024x768) ![0, 0] S1024x768.size inb_S1024x768_S1024x768_0_0

/-! ## What the body leaves in the output window's buffer -/

/-- Window 3's staging buffer after the body, from the input windows' blocks: its one store, of the payload
    computed from the whole input blocks, laid over the whole buffer. -/
def out0_3 (x0 : Vec F S1024x1024 .f32) (x1 : Vec F S768x1024 .bf16) (x2 : Vec F S1x768 .f32) : Vec F S1024x768 .bf16 :=
  View.canon [⟨r0_3, k0_pay1 (View.ld x0 r0_0) (View.ld x1 r0_1) (View.ld x2 r0_2)⟩]

/-- The one store's rectangle is the whole buffer, so it covers it. -/
theorem cover0_3 (p0 : Vec F S1024x768 .bf16) (y : S1024x768.Idx) :
    ∃ pc ∈ ([⟨r0_3, p0⟩] : List (View.Piece (Elt F) S1024x768 .bf16)), y ∈ pc.1.set :=
  View.cover_of_tiled [⟨r0_3, p0⟩] S1024x768.size (by rfl) y

/-! ## The body's triple -/

set_option maxHeartbeats 1000000 in
/-- The kernel body on whole staging memrefs, the inputs' at read contents `xW` and the output's at anything, runs to
    the continuation holding the inputs' as they were and the output's at `out0_3` of the inputs'. The body reads the
    output buffer once before storing to it and discards what it read, so the output's prior contents stay arbitrary. -/
theorem sound_kernel0 (c : Dev nD) (E : Set ℕ) (i : grid0.Coords) (arg1 : Memref sig .tc .vmem S1024x1024 .f32) (harg1 : arg1.IsWhole) (arg2 : Memref sig .tc .vmem S768x1024 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x1024 .f32) (x1 : Vec F S768x1024 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
/- The class-A half of region 1 of @main (`cc1__linear_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev r1_0 : Rect S1024x768 := Rect.unit (s := S1024x768) ![0, 0] S1024x768.size inb_S1024x768_S1024x768_0_0
abbrev r1_1 : Rect S768x768 := Rect.unit (s := S768x768) ![0, 0] S768x768.size inb_S768x768_S768x768_0_0
abbrev r1_2 : Rect S1x768 := Rect.unit (s := S1x768) ![0, 0] S1x768.size inb_S1x768_S1x768_0_0

/-! ## What the body leaves in the output window's buffer -/

/-- Window 3's staging buffer after the body, from the input windows' blocks: its one store, of the payload
    computed from the whole input blocks, laid over the whole buffer. -/
def out1_3 (x0 : Vec F S1024x768 .f32) (x1 : Vec F S768x768 .bf16) (x2 : Vec F S1x768 .f32) : Vec F S1024x768 .bf16 :=
  View.canon [⟨r1_0, k1_pay1 (View.ld x0 r1_0) (View.ld x1 r1_1) (View.ld x2 r1_2)⟩]

/-- The one store's rectangle is the whole buffer, so it covers it. -/
theorem cover1_3 (p0 : Vec F S1024x768 .bf16) (y : S1024x768.Idx) :
    ∃ pc ∈ ([⟨r1_0, p0⟩] : List (View.Piece (Elt F) S1024x768 .bf16)), y ∈ pc.1.set :=
  View.cover_of_tiled [⟨r1_0, p0⟩] S1024x768.size (by rfl) y

/-! ## The body's triple -/

set_option maxHeartbeats 1000000 in
/-- The kernel body on whole staging memrefs, the inputs' at read contents `xW` and the output's at anything, runs to
    the continuation holding the inputs' as they were and the output's at `out1_3` of the inputs'. The body reads the
    output buffer once before storing to it and discards what it read, so the output's prior contents stay arbitrary. -/
theorem sound_kernel1 (c : Dev nD) (E : Set ℕ) (i : grid1.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
/- The class-A half of region 2 of @main (custom_call 2, `cc2__amrw_kernel`, pipeline 2), stated at a
   PARAMETER `V` — the TensorCore's buffer contents when the region is entered — and at any float instance:
   each window's block at a point, what the body leaves in each of its three output buffers as a closed function
   of the two input blocks (its stores laid over the buffer), the body's triple, the pipeline's proof data and the
   body obligation at every point of the 8×8 grid. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. The window's block index follows the outer
    grid coordinate only, so it is fetched once per row of the grid; at a point where it is not fetched the index
    has not moved since the point before, and the buffer still holds that point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point (it is fetched at every point; the
    same lemma covers it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [8,256,768] input block. -/
abbrev r2_0 : Rect S8x256x768 := Rect.unit (s := S8x256x768) ![0, 0, 0] S8x256x768.size inb_S8x256x768_S8x256x768_0_0_0
/-- The whole [8,256,256] output block. -/
abbrev r2_1 : Rect S8x256x256 := Rect.unit (s := S8x256x256) ![0, 0, 0] S8x256x256.size inb_S8x256x256_S8x256x256_0_0_0

/-! ## What the body leaves in each output window's buffer -/

/-- Window 2's staging buffer after the body, from the two input blocks: its one store, of the normalized
    weights. -/
def out2_2 (x0 : Vec F S8x256x768 .bf16) (x1 : Vec F S8x256x768 .bf16) : Vec F S8x256x256 .f32 :=
  View.canon [⟨r2_1, k2_pay1 (View.ld x0 r2_0) (View.ld x1 r2_0)⟩]

/-- Its store is the whole buffer, so it covers it. -/
theorem cover2_2 (p0 : Vec F S8x256x256 .f32) (y : S8x256x256.Idx) :
    ∃ pc ∈ ([⟨r2_1, p0⟩] : List (View.Piece (Elt F) S8x256x256 .f32)), y ∈ pc.1.set :=
  View.cover_of_tiled [⟨r2_1, p0⟩] S8x256x256.size (by rfl) y

/-- Window 3's staging buffer after the body: its one store, of the weights with the last two axes exchanged. -/
def out2_3 (x0 : Vec F S8x256x768 .bf16) (x1 : Vec F S8x256x768 .bf16) : Vec F S8x256x256 .f32 :=
  View.canon [⟨r2_1, k2_pay2 (View.ld x0 r2_0) (View.ld x1 r2_0)⟩]

theorem cover2_3 (p0 : Vec F S8x256x256 .f32) (y : S8x256x256.Idx) :
    ∃ pc ∈ ([⟨r2_1, p0⟩] : List (View.Piece (Elt F) S8x256x256 .f32)), y ∈ pc.1.set :=
  View.cover_of_tiled [⟨r2_1, p0⟩] S8x256x256.size (by rfl) y

/-- Window 4's staging buffer after the body: its one store, of the weights narrowed to bf16. -/
def out2_4 (x0 : Vec F S8x256x768 .bf16) (x1 : Vec F S8x256x768 .bf16) : Vec F S8x256x256 .bf16 :=
  View.canon [⟨r2_1, k2_pay3 (View.ld x0 r2_0) (View.ld x1 r2_0)⟩]

theorem cover2_4 (p0 : Vec F S8x256x256 .bf16) (y : S8x256x256.Idx) :
    ∃ pc ∈ ([⟨r2_1, p0⟩] : List (View.Piece (Elt F) S8x256x256 .bf16)), y ∈ pc.1.set :=
  View.cover_of_tiled [⟨r2_1, p0⟩] S8x256x256.size (by rfl) y

/-! ## The body's triple -/

set_option maxHeartbeats 1000000 in
/-- The kernel body on whole staging memrefs, the inputs' at read contents `x0`, `x1` and the outputs' at anything
    (each output buffer is loaded once before it is stored, and the loaded value is never used), runs to the
    continuation holding the inputs' as they were and each output's at `out2_W` of the inputs. -/
theorem sound_kernel2 (c : Dev nD) (E : Set ℕ) (i : grid2.Coords)
    (arg2 : Memref sig .tc .vmem S8x256x768 .bf16) (harg2 : arg2.IsWhole) (arg3 : Memref sig .tc .vmem S8x256x768 .bf16) (harg3 : arg3.IsWhole)
    (arg4 : Memref sig .tc .vmem S8x256x256 .f32) (harg4 : arg4.IsWhole) (arg5 : Memref sig .tc .vmem S8x256x256 .f32) (harg5 : arg5.IsWhole)
    (arg6 : Memref sig .tc .vmem S8x256x256 .bf16) (harg6 : arg6.IsWhole)
    (x0 : Vec F S8x256x768 .bf16) (x1 : Vec F S8x256x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1)
            ∗ owns (c : Thread nD τ) arg6 fullShare (out2_4 x0 x1)) -∗ K ⟨⟩))
      ⊢ wp frame (wpE (defs₀ (F := F)) Variants.none c none) E (cc2__amrw_kernel i arg2 harg2 arg3 harg3 arg4 harg4 arg5 harg5 arg6 harg6) K := by
  simp only [cc2__amrw_kernel_eq_skeleton]; unfold cc2__amrw_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at point
    `t` each input's buffer at its block and each output's at `out2_W` of the two input blocks; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3Runs.lean ====
/- Region 3 of @main — a product blocked along its contraction axis, the partial sums accumulated in a scratch
   buffer the body carries from one grid point to the next, the output block written at the last inner point only —:
   what the three control cases share (the windows' blocks at the entry contents, the branch conditions in closed
   form, where the output window is idle) and the body's triple in each case. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is an input, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions -/

/-- The first conditional's condition (the inner coordinate is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's condition (the inner coordinate is the last, 7). -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the second condition fails the output window is idle (the body stores nothing into it), -/
theorem idleAt3_2 : ∀ t : Fin cfg3.N, ¬cond3_1 (grid3.coords t) → cfg3.idle 2 (grid3.coords t) = true := by decide +kernel
/-- and its block is not written back there; -/
theorem noFlush3_2 : ∀ t : Fin cfg3.N, ¬cond3_1 (grid3.coords t) → (cfg3.win 2).flush t = false :=
  fun t h => Bool.eq_false_iff.mpr fun hf => h ((hcond3_1 t).mpr ((flush3_2 t).mp hf))
/-- where it holds the window is live. -/
theorem liveAt3_2 : ∀ t : Fin cfg3.N, cond3_1 (grid3.coords t) → cfg3.idle 2 (grid3.coords t) = false := by decide +kernel

/-! ## The memrefs the body is called with -/

/-- One staging buffer of the output window, through which its contents are stated. -/
abbrev VO3_2 : View sig .tc .vmem S8x256x768 .bf16 := (Memref.whole cc3_stg2_0 : Memref sig .tc .vmem S8x256x768 .bf16).view
/-- Each window's current staging memref at point `t`, and its wholeness. -/
abbrev ms3_0 (t : Fin cfg3.N) : Memref sig .tc .vmem S8x256x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x256x768 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x256x768 .bf16 := win3_2.stage (cfg3.slots t 2)
abbrev hs3_2 (t : Fin cfg3.N) : (ms3_2 t).IsWhole := hstage3_2 ((cfg3.slots t 2).cast nbuf3_2)
/-- The scratch: a whole scoped buffer of the kernel's own, passed beside the windows, -/
abbrev scM3 : Memref sig .tc .vmem S8x256x768 .f32 := Memref.whole cc3_scratch0
/-- and as a view, through which what it holds is stated. -/
abbrev VS3 : View sig .tc .vmem S8x256x768 .f32 := scM3.view

/-! ## The body's triple, case by case

Each case is a pair of piece lists — what the body's stores leave in the output's staging memref and in the scratch,
last store first — with the proof that on whole memrefs, the inputs at their contents, the body runs to any
continuation that takes the inputs back as they were and the stored-into buffers with those pieces written. -/

set_option maxHeartbeats 1000000 in
/-- CASE A (inner coordinate 0): the scratch, found at anything, is zeroed and then holds the first partial product;
    the output's buffer, at any contents `xi2`, is handed back untouched. -/
noncomputable def kernelRun3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i)
    (x0 : Vec F S8x256x256 .bf16) (x1 : Vec F S8x256x768 .bf16) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨[], ?_, fun xi2 E K => ?run⟩
  case run =>
    simp only [cc3__att_amr_kernel_eq_skeleton]; unfold cc3__att_amr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (inner coordinate strictly between 0 and 7): the scratch, found at `xs0`, ends at `xs0` plus this point's
    partial product; the output's buffer is handed back untouched. -/
noncomputable def kernelRun3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨[], ?_, fun xi2 E K => ?run⟩
  case run =>
    simp only [cc3__att_amr_kernel_eq_skeleton]; unfold cc3__att_amr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (inner coordinate 7): the scratch, found at `xs0`, ends at `xs0` plus the last partial product, and the
    output's buffer, found at anything, is covered by that sum rounded to the output's element type. -/
noncomputable def kernelRun3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨?_, ?_, fun E K => ?run⟩
  case run =>
    simp only [cc3__att_amr_kernel_eq_skeleton]; unfold cc3__att_amr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Fr

end
-- ==== Proof.KB.Reg3.lean ====
/- Region 3 of @main, its half of the certificate at the entry contents `V`: what the scratch and the output's
   staging buffer hold after the body in each case and point by point (the accumulation), the pipeline's proof data
   (its invariant owns the scratch: at anything before the first point, then at what the point before left), the body
   obligation, and the invariant's entry and exit entailments (the scratch carved out of, and forgotten back into, the
   scoped buffers no window stages). -/
import proofs.«125380_j79173427134694_2_alg».proof.Proof.KB.Reg3Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## What each case leaves -/

/-- Case A's pieces for the scratch tile it, so they cover it. -/
theorem scover3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) (y : S8x256x768.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S8x256x768.size (by sl_kernel_rfl) y
/-- What case A leaves in the scratch: its pieces read back. -/
def sout3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) : Vec F S8x256x768 .f32 :=
  VS3.read (Elt F) (VS3.writes (Elt F) VS3.junk (kernelRun3_A c i arg2 harg2 arg3 harg3 arg4 harg4 arg5 harg5 hc0 hc1 x0 x1).2.1)
/-- Case A stores nothing into the output: a placeholder nothing consults (the window is idle and not written back). -/
def out3_A_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) : Vec F S8x256x768 .bf16 :=
  VO3_2.read (Elt F) (VO3_2.writes (Elt F) VO3_2.junk (kernelRun3_A c i arg2 harg2 arg3 harg3 arg4 harg4 arg5 harg5 hc0 hc1 x0 x1).1)

/-- Case B's pieces for the scratch tile it, so they cover it. -/
theorem scover3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) (y : S8x256x768.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S8x256x768.size (by sl_kernel_rfl) y
/-- What case B leaves in the scratch. -/
def sout3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) : Vec F S8x256x768 .f32 :=
  VS3.read (Elt F) (VS3.writes (Elt F) VS3.junk (kernelRun3_B c i arg2 harg2 arg3 harg3 arg4 harg4 arg5 harg5 hc0 hc1 x0 x1 xs0).2.1)
/-- Case B stores nothing into the output: a placeholder nothing consults. -/
def out3_B_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) : Vec F S8x256x768 .bf16 :=
  VO3_2.read (Elt F) (VO3_2.writes (Elt F) VO3_2.junk (kernelRun3_B c i arg2 harg2 arg3 harg3 arg4 harg4 arg5 harg5 hc0 hc1 x0 x1 xs0).1)

/-- Case C's pieces for the scratch tile it, so they cover it. -/
theorem scover3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) (y : S8x256x768.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S8x256x768.size (by sl_kernel_rfl) y
/-- What case C leaves in the scratch. -/
def sout3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) : Vec F S8x256x768 .f32 :=
  VS3.read (Elt F) (VS3.writes (Elt F) VS3.junk (kernelRun3_C c i arg2 harg2 arg3 harg3 arg4 harg4 arg5 harg5 hc0 hc1 x0 x1 xs0).2.1)
/-- Case C's pieces for the output tile its block, so they cover it. -/
theorem cover3_C_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) (y : S8x256x768.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S8x256x768.size (by sl_kernel_rfl) y
/-- What case C leaves in the output's staging buffer. -/
def out3_C_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) : Vec F S8x256x768 .bf16 :=
  VO3_2.read (Elt F) (VO3_2.writes (Elt F) VO3_2.junk (kernelRun3_C c i arg2 harg2 arg3 harg3 arg4 harg4 arg5 harg5 hc0 hc1 x0 x1 xs0).1)

/-! ## The accumulation, point by point -/

/-- What the output's staging buffer and the scratch hold after the body at a point `t` of case A (inner coordinate 0), -/
def stepA3 (c : Dev nD) (t : Fin cfg3.N) (h0 : t.val % 8 = 0) (h1 : ¬t.val % 8 = 7) : Vec F S8x256x768 .bf16 × Vec F S8x256x768 .f32 :=
  (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t),
   sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t))
/-- of case B (inner coordinate strictly between 0 and 7), the scratch found at `xs`, -/
def stepB3 (c : Dev nD) (t : Fin cfg3.N) (h0 : ¬t.val % 8 = 0) (h1 : ¬t.val % 8 = 7) (xs : Vec F S8x256x768 .f32) : Vec F S8x256x768 .bf16 × Vec F S8x256x768 .f32 :=
  (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) xs,
   sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) xs)
/-- and of case C (inner coordinate 7), the scratch found at `xs`. -/
def stepC3 (c : Dev nD) (t : Fin cfg3.N) (h0 : ¬t.val % 8 = 0) (h1 : t.val % 8 = 7) (xs : Vec F S8x256x768 .f32) : Vec F S8x256x768 .bf16 × Vec F S8x256x768 .f32 :=
  (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) xs,
   sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) xs)

/-- THE ACCUMULATION. What the output's staging buffer (first component) and the scratch (second) hold after the body
    at position `n`: the case the inner coordinate selects, run at the point's input blocks, the scratch at what
    position `n - 1` left in it. -/
def outsAt3 (c : Dev nD) : (n : ℕ) → n < cfg3.N → Vec F S8x256x768 .bf16 × Vec F S8x256x768 .f32
  | 0, hn => stepA3 V c ⟨0, hn⟩ (Nat.zero_mod _) (by show ¬(0 % 8 = 7); decide)
  | n + 1, hn =>
    if h0 : (n + 1) % 8 = 0 then stepA3 V c ⟨n + 1, hn⟩ h0 (by show ¬((n + 1) % 8 = 7); omega)
    else if h1 : (n + 1) % 8 = 7 then stepC3 V c ⟨n + 1, hn⟩ h0 h1 (outsAt3 c n (Nat.lt_of_succ_lt hn)).2
    else stepB3 V c ⟨n + 1, hn⟩ h0 h1 (outsAt3 c n (Nat.lt_of_succ_lt hn)).2

/-- `outsAt3` at a point of case A. -/
theorem outsAt3_A (c : Dev nD) (t : Fin cfg3.N) (h0 : t.val % 8 = 0) (h1 : ¬t.val % 8 = 7) :
    outsAt3 V c t.val t.isLt = stepA3 V c t h0 h1 := by
  obtain ⟨n, hn⟩ := t
  cases n with
  | zero => exact rfl
  | succ n => exact (dif_pos h0).trans rfl
/-- `outsAt3` at a point of case B: over what the point before left in the scratch. -/
theorem outsAt3_B (c : Dev nD) (t : Fin cfg3.N) (h0 : ¬t.val % 8 = 0) (h1 : ¬t.val % 8 = 7) :
    outsAt3 V c t.val t.isLt = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
/-- `outsAt3` at a point of case C: over what the point before left in the scratch. -/
theorem outsAt3_C (c : Dev nD) (t : Fin cfg3.N) (h0 : ¬t.val % 8 = 0) (h1 : t.val % 8 = 7) :
    outsAt3 V c t.val t.isLt = stepC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The scoped buffers no window stages, with the scratch carved out as a memref owned whole at some contents. -/
theorem carve3 (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ Pipeline.scopedRestBut (Ix := Unit) (Name := ℕ) (U := UR sig nD τ) (Lvl := ℕ) (Val := Elt F) spec3 c [cc3_scratch0]) := by
  rw [scopedRest3_split]; simp only [scM3, owns_whole]; rfl

/-- The region invariant before position `n`: the scratch — at anything before the first point, afterwards at what the
    point before left in it —, the other scoped buffers no window stages, and the generator register at some state. -/
def PhiS3 (c : Dev nD) : (n : ℕ) → n ≤ cfg3.N → sProp 𝕄
  | 0, _ => iprop((∃ d, owns (c : Thread nD τ) scM3 fullShare d) ∗ Pipeline.scopedRestBut (Ix := Unit) (Name := ℕ) (U := UR sig nD τ) (Lvl := ℕ) (Val := Elt F) spec3 c [cc3_scratch0] ∗ (∃ r, prngReg c r))
  | n + 1, hn => iprop(owns (c : Thread nD τ) scM3 fullShare ((outsAt3 V c n hn).2) ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) :
    PhiS3 V c n h = iprop((∃ d, owns (c : Thread nD τ) scM3 fullShare d) ∗ Pipeline.scopedRestBut (Ix := Unit) (Name := ℕ) (U := UR sig nD τ) (Lvl := ℕ) (Val := Elt F) spec3 c [cc3_scratch0] ∗ (∃ r, prngReg c r)) := by
  subst hz; rfl
theorem PhiS3_succ (c : Dev nD) (n : ℕ) (hn : n < cfg3.N) :
    PhiS3 V c (n + 1) hn = iprop(owns (c : Thread nD τ) scM3 fullShare ((outsAt3 V c n hn).2) ∗ Pipeline.scopedRestBut (Ix := Unit) (Name := ℕ) (U := UR sig nD τ) (Lvl := ℕ) (Val := Elt F) spec3 c [cc3_scratch0] ∗ (∃ r, prngReg c r)) := rfl
theorem PhiS3_pos (c : Dev nD) (n : ℕ) (h : n ≤ cfg3.N) (hz : n ≠ 0) :
    PhiS3 V c n h = iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the inner coordinate says which case the point is
    in; the invariant hands the body the scratch at what the point before left (at anything at the first point) and
    takes it back at this point's contents, its pieces covering it; where the output window is idle its buffer goes
    back as found, at the last inner point it goes back covered; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 64 := lt_of_lt_of_eq t.isLt (show cfg3.N = 64 from N_3)
  by_cases h0 : t.val % 8 = 0
  · have h1 : ¬t.val % 8 = 7 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold stepA3 sout3_A; (try dsimp only)
    by_cases hz : t.val = 0
    · rw [PhiS3_castSucc V c t, PhiS3_zero V c _ _ hz]
      iintro ⟨⟨HS0, HR, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_A c _ _ _ _ _ _ _ _ _ _ _ _ _ )
        isplitl [HR]; · iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨HS0, HR, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_A c _ _ _ _ _ _ _ _ _ _ _ _ _ )
        isplitl [HR]; · iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold stepC3 out3_C_2 sout3_C; (try dsimp only)
      rw [PhiS3_castSucc V c t, PhiS3_pos V c _ _ hz]
      iintro ⟨⟨HS0, HR, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover3_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold stepB3 sout3_B; (try dsimp only)
      rw [PhiS3_castSucc V c t, PhiS3_pos V c _ _ hz]
      iintro ⟨⟨HS0, HR, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_B c _ _ _ _ _ _ _ _ _ _ _ _ _ _ )
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the invariant -/

/-- ENTRY. The generator register, the (empty) prefetched tables and the scoped buffers no window stages make the
    invariant before the first point: the scratch is carved out of those buffers, at whatever it holds. -/
theorem hin3 (c : Dev nD) :
    iprop((∃ r, prngReg c r) ∗ Pipeline.prefHeld (pcfgs (F := F) 3).pre c (fun _ => fullShare) ((cfgs 3).toPCfg_adm).1 ∗ Pipeline.scopedRest (Ix := Unit) (Name := ℕ) (U := UR sig nD τ) (Lvl := ℕ) (Val := Elt F) spec3 c)
      ⊢ ((dat3 V c).Φ 0 : sProp 𝕄) := by
  rw [show (dat3 V c).Φ 0 = PhiS3 V c 0 (Nat.zero_le _) from rfl, PhiS3_zero V c 0 _ rfl, carve3]
  iintro ⟨Hg, -, HS0, HR⟩
  isplitl [HS0]; · iexact HS0
  isplitl [HR]; · iexact HR
  iexact Hg

/-- After any point but the first the invariant gives the register and those scoped buffers back: what the scratch
    holds is forgotten. -/
theorem Phi_out3 (c : Dev nD) (t : Fin (cfg3.N + 1)) (ht : t.val ≠ 0) :
    ((dat3 V c).Φ t : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec3 c) := by
  rw [Pipeline.ownSems0_none, show (dat3 V c).Φ t = PhiS3 V c t.val (Nat.le_of_lt_succ t.isLt) from rfl, PhiS3_pos V c _ _ ht, carve3]
  iintro ⟨HS0, HR, Hg⟩
  isplitl [Hg]; · iexact Hg
  isplitr; · iempintro
  isplitl [HS0]; · iexists _; iexact HS0
  iexact HR

/-- EXIT: the same after the last point. -/
theorem hout3 (c : Dev nD) :
    ((dat3 V c).Φ (Fin.last cfg3.N) : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec3 c) :=
  Phi_out3 V c _ (by rw [Fin.val_last]; have : cfg3.N = 64 := N_3; omega)

end Region3

end Cert.Kernel.Fr

end
-- ==== Proof.KB.Reg4Runs.lean ====
/- Region 4 of @main — a product blocked along its contraction axis, the partial sums accumulated in a scratch
   buffer the body carries from one grid point to the next, the output block written at the last inner point only —:
   what the three control cases share (the windows' blocks at the entry contents, the branch conditions in closed
   form, where the output window is idle) and the body's triple in each case. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place: the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The first conditional's condition (the inner coordinate is 0), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)

/-- The second conditional's condition (the inner coordinate is the last, 7). -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output window is idle (the body stores nothing into it), -/
theorem idleAt4_2 : ∀ t : Fin cfg4.N, ¬cond4_1 (grid4.coords t) → cfg4.idle 2 (grid4.coords t) = true := by decide +kernel
/-- and its block is not written back there; -/
theorem noFlush4_2 : ∀ t : Fin cfg4.N, ¬cond4_1 (grid4.coords t) → (cfg4.win 2).flush t = false :=
  fun t h => Bool.eq_false_iff.mpr fun hf => h ((hcond4_1 t).mpr ((flush4_2 t).mp hf))
/-- where it holds the window is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S8x256x768 .bf16 := (Memref.whole cc4_stg2_0 : Memref sig .tc .vmem S8x256x768 .bf16).view
/-- Each window's current staging memref at point `t`, and its wholeness. -/
abbrev ms4_0 (t : Fin cfg4.N) : Memref sig .tc .vmem S8x256x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x256x768 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x256x768 .bf16 := win4_2.stage (cfg4.slots t 2)
abbrev hs4_2 (t : Fin cfg4.N) : (ms4_2 t).IsWhole := hstage4_2 ((cfg4.slots t 2).cast nbuf4_2)
/-- The scratch: a whole scoped buffer of the kernel's own, passed beside the windows, -/
abbrev scM4 : Memref sig .tc .vmem S8x256x768 .f32 := Memref.whole cc4_scratch0
/-- and as a view, through which what it holds is stated. -/
abbrev VS4 : View sig .tc .vmem S8x256x768 .f32 := scM4.view

/-! ## The body's triple, case by case

Each case is a pair of piece lists — what the body's stores leave in the output's staging memref and in the scratch,
last store first — with the proof that on whole memrefs, the inputs at their contents, the body runs to any
continuation that takes the inputs back as they were and the stored-into buffers with those pieces written. -/

set_option maxHeartbeats 1000000 in
/-- CASE A (inner coordinate 0): the scratch, found at anything, is zeroed and then holds the first partial product;
    the output's buffer, at any contents `xi2`, is handed back untouched. -/
noncomputable def kernelRun4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i)
    (x0 : Vec F S8x256x256 .bf16) (x1 : Vec F S8x256x768 .bf16) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨[], ?_, fun xi2 E K => ?run⟩
  case run =>
    simp only [cc4__att_text_kernel_eq_skeleton]; unfold cc4__att_text_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (inner coordinate strictly between 0 and 7): the scratch, found at `xs0`, ends at `xs0` plus this point's
    partial product; the output's buffer is handed back untouched. -/
noncomputable def kernelRun4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨[], ?_, fun xi2 E K => ?run⟩
  case run =>
    simp only [cc4__att_text_kernel_eq_skeleton]; unfold cc4__att_text_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (inner coordinate 7): the scratch, found at `xs0`, ends at `xs0` plus the last partial product, and the
    output's buffer, found at anything, is covered by that sum rounded to the output's element type. -/
noncomputable def kernelRun4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨?_, ?_, fun E K => ?run⟩
  case run =>
    simp only [cc4__att_text_kernel_eq_skeleton]; unfold cc4__att_text_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Fr

end
-- ==== Proof.KB.Reg4.lean ====
/- Region 4 of @main, its half of the certificate at the entry contents `V`: what the scratch and the output's
   staging buffer hold after the body in each case and point by point (the accumulation), the pipeline's proof data
   (its invariant owns the scratch: at anything before the first point, then at what the point before left), the body
   obligation, and the invariant's entry and exit entailments (the scratch carved out of, and forgotten back into, the
   scoped buffers no window stages). -/
import proofs.«125380_j79173427134694_2_alg».proof.Proof.KB.Reg4Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## What each case leaves -/

/-- Case A's pieces for the scratch tile it, so they cover it. -/
theorem scover4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) (y : S8x256x768.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S8x256x768.size (by sl_kernel_rfl) y
/-- What case A leaves in the scratch: its pieces read back. -/
def sout4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) : Vec F S8x256x768 .f32 :=
  VS4.read (Elt F) (VS4.writes (Elt F) VS4.junk (kernelRun4_A c i arg2 harg2 arg3 harg3 arg4 harg4 arg5 harg5 hc0 hc1 x0 x1).2.1)
/-- Case A stores nothing into the output: a placeholder nothing consults (the window is idle and not written back). -/
def out4_A_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) : Vec F S8x256x768 .bf16 :=
  VO4_2.read (Elt F) (VO4_2.writes (Elt F) VO4_2.junk (kernelRun4_A c i arg2 harg2 arg3 harg3 arg4 harg4 arg5 harg5 hc0 hc1 x0 x1).1)

/-- Case B's pieces for the scratch tile it, so they cover it. -/
theorem scover4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) (y : S8x256x768.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S8x256x768.size (by sl_kernel_rfl) y
/-- What case B leaves in the scratch. -/
def sout4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) : Vec F S8x256x768 .f32 :=
  VS4.read (Elt F) (VS4.writes (Elt F) VS4.junk (kernelRun4_B c i arg2 harg2 arg3 harg3 arg4 harg4 arg5 harg5 hc0 hc1 x0 x1 xs0).2.1)
/-- Case B stores nothing into the output: a placeholder nothing consults. -/
def out4_B_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) : Vec F S8x256x768 .bf16 :=
  VO4_2.read (Elt F) (VO4_2.writes (Elt F) VO4_2.junk (kernelRun4_B c i arg2 harg2 arg3 harg3 arg4 harg4 arg5 harg5 hc0 hc1 x0 x1 xs0).1)

/-- Case C's pieces for the scratch tile it, so they cover it. -/
theorem scover4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) (y : S8x256x768.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S8x256x768.size (by sl_kernel_rfl) y
/-- What case C leaves in the scratch. -/
def sout4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) : Vec F S8x256x768 .f32 :=
  VS4.read (Elt F) (VS4.writes (Elt F) VS4.junk (kernelRun4_C c i arg2 harg2 arg3 harg3 arg4 harg4 arg5 harg5 hc0 hc1 x0 x1 xs0).2.1)
/-- Case C's pieces for the output tile its block, so they cover it. -/
theorem cover4_C_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) (y : S8x256x768.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S8x256x768.size (by sl_kernel_rfl) y
/-- What case C leaves in the output's staging buffer. -/
def out4_C_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) : Vec F S8x256x768 .bf16 :=
  VO4_2.read (Elt F) (VO4_2.writes (Elt F) VO4_2.junk (kernelRun4_C c i arg2 harg2 arg3 harg3 arg4 harg4 arg5 harg5 hc0 hc1 x0 x1 xs0).1)

/-! ## The accumulation, point by point -/

/-- What the output's staging buffer and the scratch hold after the body at a point `t` of case A (inner coordinate 0), -/
def stepA4 (c : Dev nD) (t : Fin cfg4.N) (h0 : t.val % 8 = 0) (h1 : ¬t.val % 8 = 7) : Vec F S8x256x768 .bf16 × Vec F S8x256x768 .f32 :=
  (out4_A_2 c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t),
   sout4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t))
/-- of case B (inner coordinate strictly between 0 and 7), the scratch found at `xs`, -/
def stepB4 (c : Dev nD) (t : Fin cfg4.N) (h0 : ¬t.val % 8 = 0) (h1 : ¬t.val % 8 = 7) (xs : Vec F S8x256x768 .f32) : Vec F S8x256x768 .bf16 × Vec F S8x256x768 .f32 :=
  (out4_B_2 c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs,
   sout4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs)
/-- and of case C (inner coordinate 7), the scratch found at `xs`. -/
def stepC4 (c : Dev nD) (t : Fin cfg4.N) (h0 : ¬t.val % 8 = 0) (h1 : t.val % 8 = 7) (xs : Vec F S8x256x768 .f32) : Vec F S8x256x768 .bf16 × Vec F S8x256x768 .f32 :=
  (out4_C_2 c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs,
   sout4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs)

/-- THE ACCUMULATION. What the output's staging buffer (first component) and the scratch (second) hold after the body
    at position `n`: the case the inner coordinate selects, run at the point's input blocks, the scratch at what
    position `n - 1` left in it. -/
def outsAt4 (c : Dev nD) : (n : ℕ) → n < cfg4.N → Vec F S8x256x768 .bf16 × Vec F S8x256x768 .f32
  | 0, hn => stepA4 V c ⟨0, hn⟩ (Nat.zero_mod _) (by show ¬(0 % 8 = 7); decide)
  | n + 1, hn =>
    if h0 : (n + 1) % 8 = 0 then stepA4 V c ⟨n + 1, hn⟩ h0 (by show ¬((n + 1) % 8 = 7); omega)
    else if h1 : (n + 1) % 8 = 7 then stepC4 V c ⟨n + 1, hn⟩ h0 h1 (outsAt4 c n (Nat.lt_of_succ_lt hn)).2
    else stepB4 V c ⟨n + 1, hn⟩ h0 h1 (outsAt4 c n (Nat.lt_of_succ_lt hn)).2

/-- `outsAt4` at a point of case A. -/
theorem outsAt4_A (c : Dev nD) (t : Fin cfg4.N) (h0 : t.val % 8 = 0) (h1 : ¬t.val % 8 = 7) :
    outsAt4 V c t.val t.isLt = stepA4 V c t h0 h1 := by
  obtain ⟨n, hn⟩ := t
  cases n with
  | zero => exact rfl
  | succ n => exact (dif_pos h0).trans rfl
/-- `outsAt4` at a point of case B: over what the point before left in the scratch. -/
theorem outsAt4_B (c : Dev nD) (t : Fin cfg4.N) (h0 : ¬t.val % 8 = 0) (h1 : ¬t.val % 8 = 7) :
    outsAt4 V c t.val t.isLt = stepB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
/-- `outsAt4` at a point of case C: over what the point before left in the scratch. -/
theorem outsAt4_C (c : Dev nD) (t : Fin cfg4.N) (h0 : ¬t.val % 8 = 0) (h1 : t.val % 8 = 7) :
    outsAt4 V c t.val t.isLt = stepC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The scoped buffers no window stages, with the scratch carved out as a memref owned whole at some contents. -/
theorem carve4 (c : Dev nD) :
    (Pipeline.scopedRest (Ix := Unit) (Name := ℕ) (U := UR sig nD τ) (Lvl := ℕ) (Val := Elt F) spec4 c : sProp 𝕄)
      = iprop((∃ d, owns (c : Thread nD τ) scM4 fullShare d) ∗ Pipeline.scopedRestBut (Ix := Unit) (Name := ℕ) (U := UR sig nD τ) (Lvl := ℕ) (Val := Elt F) spec4 c [cc4_scratch0]) := by
  rw [scopedRest4_split]; simp only [scM4, owns_whole]; rfl

/-- The region invariant before position `n`: the scratch — at anything before the first point, afterwards at what the
    point before left in it —, the other scoped buffers no window stages, and the generator register at some state. -/
def PhiS4 (c : Dev nD) : (n : ℕ) → n ≤ cfg4.N → sProp 𝕄
  | 0, _ => iprop((∃ d, owns (c : Thread nD τ) scM4 fullShare d) ∗ Pipeline.scopedRestBut (Ix := Unit) (Name := ℕ) (U := UR sig nD τ) (Lvl := ℕ) (Val := Elt F) spec4 c [cc4_scratch0] ∗ (∃ r, prngReg c r))
  | n + 1, hn => iprop(owns (c : Thread nD τ) scM4 fullShare ((outsAt4 V c n hn).2) ∗ Pipeline.scopedRestBut (Ix := Unit) (Name := ℕ) (U := UR sig nD τ) (Lvl := ℕ) (Val := Elt F) spec4 c [cc4_scratch0] ∗ (∃ r, prngReg c r))

theorem PhiS4_zero (c : Dev nD) (n : ℕ) (h : n ≤ cfg4.N) (hz : n = 0) :
    PhiS4 V c n h = iprop((∃ d, owns (c : Thread nD τ) scM4 fullShare d) ∗ Pipeline.scopedRestBut (Ix := Unit) (Name := ℕ) (U := UR sig nD τ) (Lvl := ℕ) (Val := Elt F) spec4 c [cc4_scratch0] ∗ (∃ r, prngReg c r)) := by
  subst hz; rfl
theorem PhiS4_succ (c : Dev nD) (n : ℕ) (hn : n < cfg4.N) :
    PhiS4 V c (n + 1) hn = iprop(owns (c : Thread nD τ) scM4 fullShare ((outsAt4 V c n hn).2) ∗ Pipeline.scopedRestBut (Ix := Unit) (Name := ℕ) (U := UR sig nD τ) (Lvl := ℕ) (Val := Elt F) spec4 c [cc4_scratch0] ∗ (∃ r, prngReg c r)) := rfl
theorem PhiS4_pos (c : Dev nD) (n : ℕ) (h : n ≤ cfg4.N) (hz : n ≠ 0) :
    PhiS4 V c n h = iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the inner coordinate says which case the point is
    in; the invariant hands the body the scratch at what the point before left (at anything at the first point) and
    takes it back at this point's contents, its pieces covering it; where the output window is idle its buffer goes
    back as found, at the last inner point it goes back covered; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 64 := lt_of_lt_of_eq t.isLt (show cfg4.N = 64 from N_4)
  by_cases h0 : t.val % 8 = 0
  · have h1 : ¬t.val % 8 = 7 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold stepA4 sout4_A; (try dsimp only)
    by_cases hz : t.val = 0
    · rw [PhiS4_castSucc V c t, PhiS4_zero V c _ _ hz]
      iintro ⟨⟨HS0, HR, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_A c _ _ _ _ _ _ _ _ _ _ _ _ _ )
        isplitl [HR]; · iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨HS0, HR, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_A c _ _ _ _ _ _ _ _ _ _ _ _ _ )
        isplitl [HR]; · iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold stepC4 out4_C_2 sout4_C; (try dsimp only)
      rw [PhiS4_castSucc V c t, PhiS4_pos V c _ _ hz]
      iintro ⟨⟨HS0, HR, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover4_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold stepB4 sout4_B; (try dsimp only)
      rw [PhiS4_castSucc V c t, PhiS4_pos V c _ _ hz]
      iintro ⟨⟨HS0, HR, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_B c _ _ _ _ _ _ _ _ _ _ _ _ _ _ )
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the invariant -/

/-- ENTRY. The generator register, the (empty) prefetched tables and the scoped buffers no window stages make the
    invariant before the first point: the scratch is carved out of those buffers, at whatever it holds. -/
theorem hin4 (c : Dev nD) :
    iprop((∃ r, prngReg c r) ∗ Pipeline.prefHeld (pcfgs (F := F) 4).pre c (fun _ => fullShare) ((cfgs 4).toPCfg_adm).1 ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 (Nat.zero_le _) from rfl, PhiS4_zero V c 0 _ rfl, carve4]
  iintro ⟨Hg, -, HS0, HR⟩
  isplitl [HS0]; · iexact HS0
  isplitl [HR]; · iexact HR
  iexact Hg

/-- After any point but the first the invariant gives the register and those scoped buffers back: what the scratch
    holds is forgotten. -/
theorem Phi_out4 (c : Dev nD) (t : Fin (cfg4.N + 1)) (ht : t.val ≠ 0) :
    ((dat4 V c).Φ t : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec4 c) := by
  rw [Pipeline.ownSems0_none, show (dat4 V c).Φ t = PhiS4 V c t.val (Nat.le_of_lt_succ t.isLt) from rfl, PhiS4_pos V c _ _ ht, carve4]
  iintro ⟨HS0, HR, Hg⟩
  isplitl [Hg]; · iexact Hg
  isplitr; · iempintro
  isplitl [HS0]; · iexists _; iexact HS0
  iexact HR

/-- EXIT: the same after the last point. -/
theorem hout4 (c : Dev nD) :
    ((dat4 V c).Φ (Fin.last cfg4.N) : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec4 c) :=
  Phi_out4 V c _ (by rw [Fin.val_last]; have : cfg4.N = 64 := N_4; omega)

end Region4

end Cert.Kernel.Fr

end
-- ==== Proof.KB.Reg5.lean ====
/- The class-A half of region 5 of @main (`cc5__out_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.Kernel.Launch
import proofs.«125380_j79173427134694_2_alg».proof.Proof.Gen.Kernel.Skeleton
import proofs.«125380_j79173427134694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: when the
    pipeline does not fetch at a point, the window's block index has not moved since the previous point, so the
    buffer still holds this point's block. Holds for any proof data whose array is `V`'s and whose body leaves
    the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: when the
    pipeline does not fetch at a point, the window's block index has not moved since the previous point, so the
    buffer still holds this point's block. Holds for any proof data whose array is `V`'s and whose body leaves
    the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole block -/

abbrev r5_0 : Rect S1024x768 := Rect.unit (s := S1024x768) ![0, 0] S1024x768.size inb_S1024x768_S1024x768_0_0
abbrev r5_1 : Rect S768x768 := Rect.unit (s := S768x768) ![0, 0] S768x768.size inb_S768x768_S768x768_0_0
abbrev r5_2 : Rect S1x768 := Rect.unit (s := S1x768) ![0, 0] S1x768.size inb_S1x768_S1x768_0_0

/-! ## What the body leaves in the output window's buffer -/

/-- Window 5's staging buffer after the body, from the input windows' blocks: its one store, of the payload
    computed from the whole input blocks, laid over the whole buffer. -/
def out5_5 (x0 : Vec F S1024x768 .bf16) (x1 : Vec F S1024x768 .bf16) (x2 : Vec F S768x768 .bf16) (x3 : Vec F S768x768 .bf16) (x4 : Vec F S1x768 .f32) : Vec F S1024x768 .f32 :=
  View.canon [⟨r5_0, k5_pay1 (View.ld x0 r5_0) (View.ld x1 r5_0) (View.ld x2 r5_1) (View.ld x3 r5_1) (View.ld x4 r5_2)⟩]

/-- The one store's rectangle is the whole buffer, so it covers it. -/
theorem cover5_5 (p0 : Vec F S1024x768 .f32) (y : S1024x768.Idx) :
    ∃ pc ∈ ([⟨r5_0, p0⟩] : List (View.Piece (Elt F) S1024x768 .f32)), y ∈ pc.1.set :=
  View.cover_of_tiled [⟨r5_0, p0⟩] S1024x768.size (by rfl) y

/-! ## The body's triple -/

set_option maxHeartbeats 1000000 in
/-- The kernel body on whole staging memrefs, the inputs' at read contents `xW` and the output's at anything, runs to
    the continuation holding the inputs' as they were and the output's at `out5_5` of the inputs'. The body reads the
    output buffer once before storing to it and discards what it read, so the output's prior contents stay arbitrary. -/
theorem sound_kernel5 (c : Dev nD) (E : Set ℕ) (i : grid5.Coords) (arg1 : Memref sig .tc .vmem S1024x768 .bf16) (harg1 : arg1.IsWhole) (arg2 : Memref sig .tc .vmem S1024x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1024x768 .f32) (harg6 : arg6.IsWhole)
    (x0 : Vec F S1024x768 .bf16) (x1 : Vec F S1024x768 .bf16) (x2 : Vec F S768x768 .bf16) (x3 : Vec F S768x768 .bf16) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__out_kernel i arg1 harg1 arg2 harg2 arg3 harg3 arg4 harg4 arg5 harg5 arg6 harg6) K := by
  simp only [cc5__out_kernel_eq_skeleton]; unfold cc5__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Run.lean ====
/- The run of the whole program: its six kernel regions among stretches of host operations, as the library's chain of
   segments. The contents of every buffer at each boundary between two items are a fold from the launch memory: a host
   stretch applies its operations, a region leaves each of its arrays at what its write-backs leave and every other
   buffer as it was. Each region is a segment entered from the thread state "every unscoped buffer at the boundary's
   contents, the generator register at some state, nothing owed" and left at the next boundary's. The run ends with every
   unscoped buffer at the last boundary's contents; since no item writes an argument, the frame follows. Generic in the
   float instance. -/
import proofs.«125380_j79173427134694_2_alg».proof.Proof.KB.Reg0
import proofs.«125380_j79173427134694_2_alg».proof.Proof.KB.Reg1
import proofs.«125380_j79173427134694_2_alg».proof.Proof.KB.Reg2
import proofs.«125380_j79173427134694_2_alg».proof.Proof.KB.Reg3
import proofs.«125380_j79173427134694_2_alg».proof.Proof.KB.Reg4
import proofs.«125380_j79173427134694_2_alg».proof.Proof.KB.Reg5
import proofs.«125380_j79173427134694_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each boundary between two items of @main: a fold from the launch memory.
    A host stretch applies its operations; a region leaves each of its arrays at what its write-backs leave and every
    other buffer as it was. `Wj` is the valuation after item j-1, `Uj` the same read at the TensorCore's references. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- At region 4's exit: its arrays at what the pipeline leaves, every other buffer as entered. -/
def W9 (c : Dev nD) : Valuation τ sig (Elt F) :=
  Pipeline.withArrays spec4 c (W8 m ρ c) fun w => (dat4 (U8 m ρ) c).arrAt w cfg4.N
theorem W9_arr (c : Dev nD) (w : Fin cfg4.W) :
    W9 m ρ c (Proc.devRef .tc (Pipeline.arrRef spec4 w)) = (dat4 (U8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev U9 : (c : Dev nD) → (b : Ref sig .tc) → Buf (Elt F) ((c : Thread nD τ).loc b) := fun c b => W9 m ρ c b
theorem hF4 (c : Dev nD) (w : Fin cfg4.W) : (dat4 (U8 m ρ) c).arrAt w cfg4.N = U9 m ρ c (Pipeline.arrRef spec4 w) :=
  (W9_arr m ρ c w).symm
theorem hrest4 (c : Dev nD) : ∀ b, b ∉ Finset.univ.image (Pipeline.arrRef spec4) → U9 m ρ c b = U8 m ρ c b :=
  fun b hb => W9_of_ne m ρ c b fun w e => hb (Finset.mem_image.mpr ⟨w, Finset.mem_univ _, e⟩)
/-- After the host stretch `hostOps5`. -/
abbrev W10 : Dev nD → Valuation τ sig (Elt F) := fun c => StableHlo.after hostOps5 (W9 m ρ c)
abbrev U10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (U10 m ρ) c).arrAt w cfg5.N
theorem W11_arr (c : Dev nD) (w : Fin cfg5.W) :
    W11 m ρ c (Proc.devRef .tc (Pipeline.arrRef spec5 w)) = (dat5 (U10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev U11 : (c : Dev nD) → (b : Ref sig .tc) → Buf (Elt F) ((c : Thread nD τ).loc b) := fun c b => W11 m ρ c b
theorem hF5 (c : Dev nD) (w : Fin cfg5.W) : (dat5 (U10 m ρ) c).arrAt w cfg5.N = U11 m ρ c (Pipeline.arrRef spec5 w) :=
  (W11_arr m ρ c w).symm
theorem hrest5 (c : Dev nD) : ∀ b, b ∉ Finset.univ.image (Pipeline.arrRef spec5) → U11 m ρ c b = U10 m ρ c b :=
  fun b hb => W11_of_ne m ρ c b fun w e => hb (Finset.mem_image.mpr ⟨w, Finset.mem_univ _, e⟩)
/-- After the host stretch `hostOps6`. -/
abbrev W12 : Dev nD → Valuation τ sig (Elt F) := fun c => StableHlo.after hostOps6 (W11 m ρ c)
abbrev U12 : (c : Dev nD) → (b : Ref sig .tc) → Buf (Elt F) ((c : Thread nD τ).loc b) := fun c b => W12 m ρ c b

/-! ## The proof data family and the thread state -/

/-- No pipeline has a prefetched table. -/
abbrev padm : (p : Fin 6) → (pcfgs (F := F) p).Adm := fun p => (cfgs p).toPCfg_adm
/-- Every pipeline's proof data, each at its region's entry contents: a literal match on the pipeline's number. -/
def pdats : (p : Fin 6) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U8 m ρ) c
  | ⟨5, _⟩ => fun c => dat5 (U10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of `hostOps0` allocates a buffer. -/
theorem hostOps0_nofresh : (hostOps0 : List (HloOp τ sig (Elt F))).Forall fun op => op.fresh = ∅ := by
  simp only [List.Forall]; repeat' constructor
/-- No operation of `hostOps1` allocates a buffer. -/
theorem hostOps1_nofresh : (hostOps1 : List (HloOp τ sig (Elt F))).Forall fun op => op.fresh = ∅ := by
  simp only [List.Forall]; repeat' constructor
/-- No operation of `hostOps2` allocates a buffer. -/
theorem hostOps2_nofresh : (hostOps2 : List (HloOp τ sig (Elt F))).Forall fun op => op.fresh = ∅ := by
  simp only [List.Forall]; repeat' constructor
/-- No operation of `hostOps3` allocates a buffer. -/
theorem hostOps3_nofresh : (hostOps3 : List (HloOp τ sig (Elt F))).Forall fun op => op.fresh = ∅ := by
  simp only [List.Forall]; repeat' constructor
/-- No operation of `hostOps5` allocates a buffer. -/
theorem hostOps5_nofresh : (hostOps5 : List (HloOp τ sig (Elt F))).Forall fun op => op.fresh = ∅ := by
  simp only [List.Forall]; repeat' constructor
/-- No operation of `hostOps6` allocates a buffer. -/
theorem hostOps6_nofresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes back; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes back; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes back; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the pipeline's invariant
    and comes back; so does the scratch accumulator, which the invariant owns between the points; nothing is owed; the kernel has no semaphore of its own. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (U7 m ρ) c
  hout c := hout3 (U7 m ρ) c
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split out
    of the unscoped buffers and put back at the exit contents; the generator register goes into the pipeline's invariant
    and comes back; so does the scratch accumulator, which the invariant owns between the points; nothing is owed; the kernel has no semaphore of its own. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (U8 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (U8 m ρ) c
  hout c := hout4 (U8 m ρ) c
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (U8 m ρ c) (U9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W10`, left at `W11`. Its arrays are split out
    of the unscoped buffers and put back at the exit contents; the generator register goes into the pipeline's invariant
    and comes back; nothing is owed; the kernel has no semaphore of its own. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (U10 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (U10 m ρ c) (U11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve items in order: a host segment per stretch from its boundary's contents, a region per kernel call. -/
abbrev psegs : List (Pipeline.Seg (pcfgs (F := F)) padm (pdats m ρ) () defs₀ 𝒱₀ L lv) :=
  [ .host (hseg hostOps0 hostOps0_sub hostOps0_nofresh (W0 m ρ)),
    .region (reg0 m ρ),
    .host (hseg hostOps1 hostOps1_sub hostOps1_nofresh (W2 m ρ)),
    .region (reg1 m ρ),
    .host (hseg hostOps2 hostOps2_sub hostOps2_nofresh (W4 m ρ)),
    .region (reg2 m ρ),
    .host (hseg hostOps3 hostOps3_sub hostOps3_nofresh (W6 m ρ)),
    .region (reg3 m ρ),
    .region (reg4 m ρ),
    .host (hseg hostOps5 hostOps5_sub hostOps5_nofresh (W9 m ρ)),
    .region (reg5 m ρ),
    .host (hseg hostOps6 hostOps6_sub hostOps6_nofresh (W11 m ρ)) ]
/-- @main IS the run of the segments. -/
theorem main_run (c : Dev nD) : main (F := F) c = Pipeline.Seg.run (psegs m ρ) := (main_chain c).trans (by chain_rfl)

set_option backward.isDefEq.respectTransparency.types false in
/-- THE RUN. From any memory with zero counters every weakly fair execution of @main on the TensorCores terminates,
    nothing faulting, and in every final state each unscoped buffer holds the last boundary's contents `W12`: the
    arguments (which no item writes) as launched, each result at the fold through the regions. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-! ## What no item writes stays as launched -/
theorem W1_of (c : Dev nD) (r : Ref sig .tc) (h : r ∉ Gen.hostOps0_W) : W1 m ρ c r = W0 m ρ c r :=
  StableHlo.after_of_writes_sub hostOps0 _ Gen.hostOps0_writes h
theorem W3_of (c : Dev nD) (r : Ref sig .tc) (h : r ∉ Gen.hostOps1_W) : W3 m ρ c r = W2 m ρ c r :=
  StableHlo.after_of_writes_sub hostOps1 _ Gen.hostOps1_writes h
theorem W5_of (c : Dev nD) (r : Ref sig .tc) (h : r ∉ Gen.hostOps2_W) : W5 m ρ c r = W4 m ρ c r :=
  StableHlo.after_of_writes_sub hostOps2 _ Gen.hostOps2_writes h
theorem W7_of (c : Dev nD) (r : Ref sig .tc) (h : r ∉ Gen.hostOps3_W) : W7 m ρ c r = W6 m ρ c r :=
  StableHlo.after_of_writes_sub hostOps3 _ Gen.hostOps3_writes h
theorem W10_of (c : Dev nD) (r : Ref sig .tc) (h : r ∉ Gen.hostOps5_W) : W10 m ρ c r = W9 m ρ c r :=
  StableHlo.after_of_writes_sub hostOps5 _ Gen.hostOps5_writes h
theorem W12_of (c : Dev nD) (r : Ref sig .tc) (h : r ∉ Gen.hostOps6_W) : W12 m ρ c r = W11 m ρ c r :=
  StableHlo.after_of_writes_sub hostOps6 _ Gen.hostOps6_writes h
/-- `main_arg0` reaches the end as launched: no host stretch writes it and it is no region's array. -/
theorem W12_main_arg0 (c : Dev nD) : W12 m ρ c (Proc.devRef .tc main_arg0) = m ((c : Thread nD τ).loc main_arg0) :=
  (W12_of m ρ c main_arg0 (by decide)).trans <| (W11_of_ne m ρ c main_arg0 (by decide)).trans <| (W10_of m ρ c main_arg0 (by decide)).trans <| (W9_of_ne m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
/-- `main_arg1` reaches the end as launched: no host stretch writes it and it is no region's array. -/
theorem W12_main_arg1 (c : Dev nD) : W12 m ρ c (Proc.devRef .tc main_arg1) = m ((c : Thread nD τ).loc main_arg1) :=
  (W12_of m ρ c main_arg1 (by decide)).trans <| (W11_of_ne m ρ c main_arg1 (by decide)).trans <| (W10_of m ρ c main_arg1 (by decide)).trans <| (W9_of_ne m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
/-- `main_arg2` reaches the end as launched: no host stretch writes it and it is no region's array. -/
theorem W12_main_arg2 (c : Dev nD) : W12 m ρ c (Proc.devRef .tc main_arg2) = m ((c : Thread nD τ).loc main_arg2) :=
  (W12_of m ρ c main_arg2 (by decide)).trans <| (W11_of_ne m ρ c main_arg2 (by decide)).trans <| (W10_of m ρ c main_arg2 (by decide)).trans <| (W9_of_ne m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
/-- `main_arg3` reaches the end as launched: no host stretch writes it and it is no region's array. -/
theorem W12_main_arg3 (c : Dev nD) : W12 m ρ c (Proc.devRef .tc main_arg3) = m ((c : Thread nD τ).loc main_arg3) :=
  (W12_of m ρ c main_arg3 (by decide)).trans <| (W11_of_ne m ρ c main_arg3 (by decide)).trans <| (W10_of m ρ c main_arg3 (by decide)).trans <| (W9_of_ne m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
/-- `main_arg4` reaches the end as launched: no host stretch writes it and it is no region's array. -/
theorem W12_main_arg4 (c : Dev nD) : W12 m ρ c (Proc.devRef .tc main_arg4) = m ((c : Thread nD τ).loc main_arg4) :=
  (W12_of m ρ c main_arg4 (by decide)).trans <| (W11_of_ne m ρ c main_arg4 (by decide)).trans <| (W10_of m ρ c main_arg4 (by decide)).trans <| (W9_of_ne m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
/-- `main_arg5` reaches the end as launched: no host stretch writes it and it is no region's array. -/
theorem W12_main_arg5 (c : Dev nD) : W12 m ρ c (Proc.devRef .tc main_arg5) = m ((c : Thread nD τ).loc main_arg5) :=
  (W12_of m ρ c main_arg5 (by decide)).trans <| (W11_of_ne m ρ c main_arg5 (by decide)).trans <| (W10_of m ρ c main_arg5 (by decide)).trans <| (W9_of_ne m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
/-- `main_arg6` reaches the end as launched: no host stretch writes it and it is no region's array. -/
theorem W12_main_arg6 (c : Dev nD) : W12 m ρ c (Proc.devRef .tc main_arg6) = m ((c : Thread nD τ).loc main_arg6) :=
  (W12_of m ρ c main_arg6 (by decide)).trans <| (W11_of_ne m ρ c main_arg6 (by decide)).trans <| (W10_of m ρ c main_arg6 (by decide)).trans <| (W9_of_ne m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
/-- `main_arg7` reaches the end as launched: no host stretch writes it and it is no region's array. -/
theorem W12_main_arg7 (c : Dev nD) : W12 m ρ c (Proc.devRef .tc main_arg7) = m ((c : Thread nD τ).loc main_arg7) :=
  (W12_of m ρ c main_arg7 (by decide)).trans <| (W11_of_ne m ρ c main_arg7 (by decide)).trans <| (W10_of m ρ c main_arg7 (by decide)).trans <| (W9_of_ne m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl

/-- THE FRAME, at any float instance: every weakly fair execution of @main terminates, nothing faulting, and the argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c)⟩) (run m ρ)

end Cert.Kernel.Fr

end
-- ==== Proof.KI.Reg0.lean ====
/- The class-A half of region 0 of @main (`cc0__linear_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S1024x1024 := Rect.unit (s := S1024x1024) ![0, 0] S1024x1024.size inb_S1024x1024_S1024x1024_0_0
abbrev r0_1 : Rect S768x1024 := Rect.unit (s := S768x1024) ![0, 0] S768x1024.size inb_S768x1024_S768x1024_0_0
abbrev r0_2 : Rect S1x768 := Rect.unit (s := S1x768) ![0, 0] S1x768.size inb_S1x768_S1x768_0_0
abbrev r0_3 : Rect S1024x768 := Rect.unit (s := S1024x768) ![0, 0] S1024x768.size inb_S1024x768_S1024x768_0_0

/-! ## What the body leaves in the output window's buffer -/

/-- Window 3's staging buffer after the body, from the input windows' blocks: its one store, of the payload
    computed from the whole input blocks, laid over the whole buffer. -/
def out0_3 (x0 : Vec F S1024x1024 .f32) (x1 : Vec F S768x1024 .bf16) (x2 : Vec F S1x768 .f32) : Vec F S1024x768 .bf16 :=
  View.canon [⟨r0_3, k0_pay1 (View.ld x0 r0_0) (View.ld x1 r0_1) (View.ld x2 r0_2)⟩]

/-- The one store's rectangle is the whole buffer, so it covers it. -/
theorem cover0_3 (p0 : Vec F S1024x768 .bf16) (y : S1024x768.Idx) :
    ∃ pc ∈ ([⟨r0_3, p0⟩] : List (View.Piece (Elt F) S1024x768 .bf16)), y ∈ pc.1.set :=
  View.cover_of_tiled [⟨r0_3, p0⟩] S1024x768.size (by rfl) y

/-! ## The body's triple -/

set_option maxHeartbeats 1000000 in
/-- The kernel body on whole staging memrefs, the inputs' at read contents `xW` and the output's at anything, runs to
    the continuation holding the inputs' as they were and the output's at `out0_3` of the inputs'. The body reads the
    output buffer once before storing to it and discards what it read, so the output's prior contents stay arbitrary. -/
theorem sound_kernel0 (c : Dev nD) (E : Set ℕ) (i : grid0.Coords) (arg1 : Memref sig .tc .vmem S1024x1024 .f32) (harg1 : arg1.IsWhole) (arg2 : Memref sig .tc .vmem S768x1024 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x1024 .f32) (x1 : Vec F S768x1024 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/- The class-A half of region 1 of @main (`cc1__linear_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole block -/

abbrev r1_0 : Rect S1024x768 := Rect.unit (s := S1024x768) ![0, 0] S1024x768.size inb_S1024x768_S1024x768_0_0
abbrev r1_1 : Rect S768x768 := Rect.unit (s := S768x768) ![0, 0] S768x768.size inb_S768x768_S768x768_0_0
abbrev r1_2 : Rect S1x768 := Rect.unit (s := S1x768) ![0, 0] S1x768.size inb_S1x768_S1x768_0_0

/-! ## What the body leaves in the output window's buffer -/

/-- Window 3's staging buffer after the body, from the input windows' blocks: its one store, of the payload
    computed from the whole input blocks, laid over the whole buffer. -/
def out1_3 (x0 : Vec F S1024x768 .f32) (x1 : Vec F S768x768 .bf16) (x2 : Vec F S1x768 .f32) : Vec F S1024x768 .bf16 :=
  View.canon [⟨r1_0, k1_pay1 (View.ld x0 r1_0) (View.ld x1 r1_1) (View.ld x2 r1_2)⟩]

/-- The one store's rectangle is the whole buffer, so it covers it. -/
theorem cover1_3 (p0 : Vec F S1024x768 .bf16) (y : S1024x768.Idx) :
    ∃ pc ∈ ([⟨r1_0, p0⟩] : List (View.Piece (Elt F) S1024x768 .bf16)), y ∈ pc.1.set :=
  View.cover_of_tiled [⟨r1_0, p0⟩] S1024x768.size (by rfl) y

/-! ## The body's triple -/

set_option maxHeartbeats 1000000 in
/-- The kernel body on whole staging memrefs, the inputs' at read contents `xW` and the output's at anything, runs to
    the continuation holding the inputs' as they were and the output's at `out1_3` of the inputs'. The body reads the
    output buffer once before storing to it and discards what it read, so the output's prior contents stay arbitrary. -/
theorem sound_kernel1 (c : Dev nD) (E : Set ℕ) (i : grid1.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/- The class-A half of region 2 of @main (custom_call 2, `cc2__amrw_kernel`, pipeline 2), stated at a
   PARAMETER `V` — the TensorCore's buffer contents when the region is entered — and at any float instance:
   each window's block at a point, what the body leaves in each of its three output buffers as a closed function
   of the two input blocks (its stores laid over the buffer), the body's triple, the pipeline's proof data and the
   body obligation at every point of the 8×8 grid. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. The window's block index follows the outer
    grid coordinate only, so it is fetched once per row of the grid; at a point where it is not fetched the index
    has not moved since the point before, and the buffer still holds that point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point (it is fetched at every point; the
    same lemma covers it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [8,256,768] input block. -/
abbrev r2_0 : Rect S8x256x768 := Rect.unit (s := S8x256x768) ![0, 0, 0] S8x256x768.size inb_S8x256x768_S8x256x768_0_0_0
/-- The whole [8,256,256] output block. -/
abbrev r2_1 : Rect S8x256x256 := Rect.unit (s := S8x256x256) ![0, 0, 0] S8x256x256.size inb_S8x256x256_S8x256x256_0_0_0

/-! ## What the body leaves in each output window's buffer -/

/-- Window 2's staging buffer after the body, from the two input blocks: its one store, of the normalized
    weights. -/
def out2_2 (x0 : Vec F S8x256x768 .bf16) (x1 : Vec F S8x256x768 .bf16) : Vec F S8x256x256 .f32 :=
  View.canon [⟨r2_1, k2_pay1 (View.ld x0 r2_0) (View.ld x1 r2_0)⟩]

/-- Its store is the whole buffer, so it covers it. -/
theorem cover2_2 (p0 : Vec F S8x256x256 .f32) (y : S8x256x256.Idx) :
    ∃ pc ∈ ([⟨r2_1, p0⟩] : List (View.Piece (Elt F) S8x256x256 .f32)), y ∈ pc.1.set :=
  View.cover_of_tiled [⟨r2_1, p0⟩] S8x256x256.size (by rfl) y

/-- Window 3's staging buffer after the body: its one store, of the weights with the last two axes exchanged. -/
def out2_3 (x0 : Vec F S8x256x768 .bf16) (x1 : Vec F S8x256x768 .bf16) : Vec F S8x256x256 .f32 :=
  View.canon [⟨r2_1, k2_pay2 (View.ld x0 r2_0) (View.ld x1 r2_0)⟩]

theorem cover2_3 (p0 : Vec F S8x256x256 .f32) (y : S8x256x256.Idx) :
    ∃ pc ∈ ([⟨r2_1, p0⟩] : List (View.Piece (Elt F) S8x256x256 .f32)), y ∈ pc.1.set :=
  View.cover_of_tiled [⟨r2_1, p0⟩] S8x256x256.size (by rfl) y

/-- Window 4's staging buffer after the body: its one store, of the weights narrowed to bf16. -/
def out2_4 (x0 : Vec F S8x256x768 .bf16) (x1 : Vec F S8x256x768 .bf16) : Vec F S8x256x256 .bf16 :=
  View.canon [⟨r2_1, k2_pay3 (View.ld x0 r2_0) (View.ld x1 r2_0)⟩]

theorem cover2_4 (p0 : Vec F S8x256x256 .bf16) (y : S8x256x256.Idx) :
    ∃ pc ∈ ([⟨r2_1, p0⟩] : List (View.Piece (Elt F) S8x256x256 .bf16)), y ∈ pc.1.set :=
  View.cover_of_tiled [⟨r2_1, p0⟩] S8x256x256.size (by rfl) y

/-! ## The body's triple -/

set_option maxHeartbeats 1000000 in
/-- The kernel body on whole staging memrefs, the inputs' at read contents `x0`, `x1` and the outputs' at anything
    (each output buffer is loaded once before it is stored, and the loaded value is never used), runs to the
    continuation holding the inputs' as they were and each output's at `out2_W` of the inputs. -/
theorem sound_kernel2 (c : Dev nD) (E : Set ℕ) (i : grid2.Coords)
    (arg2 : Memref sig .tc .vmem S8x256x768 .bf16) (harg2 : arg2.IsWhole) (arg3 : Memref sig .tc .vmem S8x256x768 .bf16) (harg3 : arg3.IsWhole)
    (arg4 : Memref sig .tc .vmem S8x256x256 .f32) (harg4 : arg4.IsWhole) (arg5 : Memref sig .tc .vmem S8x256x256 .f32) (harg5 : arg5.IsWhole)
    (arg6 : Memref sig .tc .vmem S8x256x256 .bf16) (harg6 : arg6.IsWhole)
    (x0 : Vec F S8x256x768 .bf16) (x1 : Vec F S8x256x768 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out2_2 x0 x1) ∗ owns (c : Thread nD τ) arg5 fullShare (out2_3 x0 x1)
            ∗ owns (c : Thread nD τ) arg6 fullShare (out2_4 x0 x1)) -∗ K ⟨⟩))
      ⊢ wp frame (wpE (defs₀ (F := F)) Variants.none c none) E (cc2__amrw_kernel i arg2 harg2 arg3 harg3 arg4 harg4 arg5 harg5 arg6 harg6) K := by
  simp only [cc2__amrw_kernel_eq_skeleton]; unfold cc2__amrw_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at point
    `t` each input's buffer at its block and each output's at `out2_W` of the two input blocks; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3Runs.lean ====
/- Region 3 of @main — a product blocked along its contraction axis, the partial sums accumulated in a scratch
   buffer the body carries from one grid point to the next, the output block written at the last inner point only —:
   what the three control cases share (the windows' blocks at the entry contents, the branch conditions in closed
   form, where the output window is idle) and the body's triple in each case. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: the window is an input, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's branch conditions -/

/-- The first conditional's condition (the inner coordinate is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's condition (the inner coordinate is the last, 7). -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
/-- Where the second condition fails the output window is idle (the body stores nothing into it), -/
theorem idleAt3_2 : ∀ t : Fin cfg3.N, ¬cond3_1 (grid3.coords t) → cfg3.idle 2 (grid3.coords t) = true := by decide +kernel
/-- and its block is not written back there; -/
theorem noFlush3_2 : ∀ t : Fin cfg3.N, ¬cond3_1 (grid3.coords t) → (cfg3.win 2).flush t = false :=
  fun t h => Bool.eq_false_iff.mpr fun hf => h ((hcond3_1 t).mpr ((flush3_2 t).mp hf))
/-- where it holds the window is live. -/
theorem liveAt3_2 : ∀ t : Fin cfg3.N, cond3_1 (grid3.coords t) → cfg3.idle 2 (grid3.coords t) = false := by decide +kernel

/-! ## The memrefs the body is called with -/

/-- One staging buffer of the output window, through which its contents are stated. -/
abbrev VO3_2 : View sig .tc .vmem S8x256x768 .bf16 := (Memref.whole cc3_stg2_0 : Memref sig .tc .vmem S8x256x768 .bf16).view
/-- Each window's current staging memref at point `t`, and its wholeness. -/
abbrev ms3_0 (t : Fin cfg3.N) : Memref sig .tc .vmem S8x256x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x256x768 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x256x768 .bf16 := win3_2.stage (cfg3.slots t 2)
abbrev hs3_2 (t : Fin cfg3.N) : (ms3_2 t).IsWhole := hstage3_2 ((cfg3.slots t 2).cast nbuf3_2)
/-- The scratch: a whole scoped buffer of the kernel's own, passed beside the windows, -/
abbrev scM3 : Memref sig .tc .vmem S8x256x768 .f32 := Memref.whole cc3_scratch0
/-- and as a view, through which what it holds is stated. -/
abbrev VS3 : View sig .tc .vmem S8x256x768 .f32 := scM3.view

/-! ## The body's triple, case by case

Each case is a pair of piece lists — what the body's stores leave in the output's staging memref and in the scratch,
last store first — with the proof that on whole memrefs, the inputs at their contents, the body runs to any
continuation that takes the inputs back as they were and the stored-into buffers with those pieces written. -/

set_option maxHeartbeats 1000000 in
/-- CASE A (inner coordinate 0): the scratch, found at anything, is zeroed and then holds the first partial product;
    the output's buffer, at any contents `xi2`, is handed back untouched. -/
noncomputable def kernelRun3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i)
    (x0 : Vec F S8x256x256 .bf16) (x1 : Vec F S8x256x768 .bf16) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨[], ?_, fun xi2 E K => ?run⟩
  case run =>
    simp only [cc3__att_amr_kernel_eq_skeleton]; unfold cc3__att_amr_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (inner coordinate strictly between 0 and 7): the scratch, found at `xs0`, ends at `xs0` plus this point's
    partial product; the output's buffer is handed back untouched. -/
noncomputable def kernelRun3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨[], ?_, fun xi2 E K => ?run⟩
  case run =>
    simp only [cc3__att_amr_kernel_eq_skeleton]; unfold cc3__att_amr_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (inner coordinate 7): the scratch, found at `xs0`, ends at `xs0` plus the last partial product, and the
    output's buffer, found at anything, is covered by that sum rounded to the output's element type. -/
noncomputable def kernelRun3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__att_amr_kernel i arg2 harg2 arg3 harg3 arg4 harg4 arg5 harg5) K } := by
  refine ⟨?_, ?_, fun E K => ?run⟩
  case run =>
    simp only [cc3__att_amr_kernel_eq_skeleton]; unfold cc3__att_amr_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Fr

end
-- ==== Proof.KI.Reg3.lean ====
/- Region 3 of @main, its half of the certificate at the entry contents `V`: what the scratch and the output's
   staging buffer hold after the body in each case and point by point (the accumulation), the pipeline's proof data
   (its invariant owns the scratch: at anything before the first point, then at what the point before left), the body
   obligation, and the invariant's entry and exit entailments (the scratch carved out of, and forgotten back into, the
   scoped buffers no window stages). -/
import proofs.«125380_j79173427134694_2_alg».proof.Proof.KI.Reg3Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## What each case leaves -/

/-- Case A's pieces for the scratch tile it, so they cover it. -/
theorem scover3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) (y : S8x256x768.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S8x256x768.size (by sl_kernel_rfl) y
/-- What case A leaves in the scratch: its pieces read back. -/
def sout3_A (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) : Vec F S8x256x768 .f32 :=
  VS3.read (Elt F) (VS3.writes (Elt F) VS3.junk (kernelRun3_A c i arg2 harg2 arg3 harg3 arg4 harg4 arg5 harg5 hc0 hc1 x0 x1).2.1)
/-- Case A stores nothing into the output: a placeholder nothing consults (the window is idle and not written back). -/
def out3_A_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) : Vec F S8x256x768 .bf16 :=
  VO3_2.read (Elt F) (VO3_2.writes (Elt F) VO3_2.junk (kernelRun3_A c i arg2 harg2 arg3 harg3 arg4 harg4 arg5 harg5 hc0 hc1 x0 x1).1)

/-- Case B's pieces for the scratch tile it, so they cover it. -/
theorem scover3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) (y : S8x256x768.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S8x256x768.size (by sl_kernel_rfl) y
/-- What case B leaves in the scratch. -/
def sout3_B (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) : Vec F S8x256x768 .f32 :=
  VS3.read (Elt F) (VS3.writes (Elt F) VS3.junk (kernelRun3_B c i arg2 harg2 arg3 harg3 arg4 harg4 arg5 harg5 hc0 hc1 x0 x1 xs0).2.1)
/-- Case B stores nothing into the output: a placeholder nothing consults. -/
def out3_B_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) : Vec F S8x256x768 .bf16 :=
  VO3_2.read (Elt F) (VO3_2.writes (Elt F) VO3_2.junk (kernelRun3_B c i arg2 harg2 arg3 harg3 arg4 harg4 arg5 harg5 hc0 hc1 x0 x1 xs0).1)

/-- Case C's pieces for the scratch tile it, so they cover it. -/
theorem scover3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) (y : S8x256x768.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S8x256x768.size (by sl_kernel_rfl) y
/-- What case C leaves in the scratch. -/
def sout3_C (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) : Vec F S8x256x768 .f32 :=
  VS3.read (Elt F) (VS3.writes (Elt F) VS3.junk (kernelRun3_C c i arg2 harg2 arg3 harg3 arg4 harg4 arg5 harg5 hc0 hc1 x0 x1 xs0).2.1)
/-- Case C's pieces for the output tile its block, so they cover it. -/
theorem cover3_C_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) (y : S8x256x768.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S8x256x768.size (by sl_kernel_rfl) y
/-- What case C leaves in the output's staging buffer. -/
def out3_C_2 (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) : Vec F S8x256x768 .bf16 :=
  VO3_2.read (Elt F) (VO3_2.writes (Elt F) VO3_2.junk (kernelRun3_C c i arg2 harg2 arg3 harg3 arg4 harg4 arg5 harg5 hc0 hc1 x0 x1 xs0).1)

/-! ## The accumulation, point by point -/

/-- What the output's staging buffer and the scratch hold after the body at a point `t` of case A (inner coordinate 0), -/
def stepA3 (c : Dev nD) (t : Fin cfg3.N) (h0 : t.val % 8 = 0) (h1 : ¬t.val % 8 = 7) : Vec F S8x256x768 .bf16 × Vec F S8x256x768 .f32 :=
  (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t),
   sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t))
/-- of case B (inner coordinate strictly between 0 and 7), the scratch found at `xs`, -/
def stepB3 (c : Dev nD) (t : Fin cfg3.N) (h0 : ¬t.val % 8 = 0) (h1 : ¬t.val % 8 = 7) (xs : Vec F S8x256x768 .f32) : Vec F S8x256x768 .bf16 × Vec F S8x256x768 .f32 :=
  (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) xs,
   sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) xs)
/-- and of case C (inner coordinate 7), the scratch found at `xs`. -/
def stepC3 (c : Dev nD) (t : Fin cfg3.N) (h0 : ¬t.val % 8 = 0) (h1 : t.val % 8 = 7) (xs : Vec F S8x256x768 .f32) : Vec F S8x256x768 .bf16 × Vec F S8x256x768 .f32 :=
  (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) xs,
   sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) xs)

/-- THE ACCUMULATION. What the output's staging buffer (first component) and the scratch (second) hold after the body
    at position `n`: the case the inner coordinate selects, run at the point's input blocks, the scratch at what
    position `n - 1` left in it. -/
def outsAt3 (c : Dev nD) : (n : ℕ) → n < cfg3.N → Vec F S8x256x768 .bf16 × Vec F S8x256x768 .f32
  | 0, hn => stepA3 V c ⟨0, hn⟩ (Nat.zero_mod _) (by show ¬(0 % 8 = 7); decide)
  | n + 1, hn =>
    if h0 : (n + 1) % 8 = 0 then stepA3 V c ⟨n + 1, hn⟩ h0 (by show ¬((n + 1) % 8 = 7); omega)
    else if h1 : (n + 1) % 8 = 7 then stepC3 V c ⟨n + 1, hn⟩ h0 h1 (outsAt3 c n (Nat.lt_of_succ_lt hn)).2
    else stepB3 V c ⟨n + 1, hn⟩ h0 h1 (outsAt3 c n (Nat.lt_of_succ_lt hn)).2

/-- `outsAt3` at a point of case A. -/
theorem outsAt3_A (c : Dev nD) (t : Fin cfg3.N) (h0 : t.val % 8 = 0) (h1 : ¬t.val % 8 = 7) :
    outsAt3 V c t.val t.isLt = stepA3 V c t h0 h1 := by
  obtain ⟨n, hn⟩ := t
  cases n with
  | zero => exact rfl
  | succ n => exact (dif_pos h0).trans rfl
/-- `outsAt3` at a point of case B: over what the point before left in the scratch. -/
theorem outsAt3_B (c : Dev nD) (t : Fin cfg3.N) (h0 : ¬t.val % 8 = 0) (h1 : ¬t.val % 8 = 7) :
    outsAt3 V c t.val t.isLt = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
/-- `outsAt3` at a point of case C: over what the point before left in the scratch. -/
theorem outsAt3_C (c : Dev nD) (t : Fin cfg3.N) (h0 : ¬t.val % 8 = 0) (h1 : t.val % 8 = 7) :
    outsAt3 V c t.val t.isLt = stepC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The scoped buffers no window stages, with the scratch carved out as a memref owned whole at some contents. -/
theorem carve3 (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ Pipeline.scopedRestBut (Ix := Unit) (Name := ℕ) (U := UR sig nD τ) (Lvl := ℕ) (Val := Elt F) spec3 c [cc3_scratch0]) := by
  rw [scopedRest3_split]; simp only [scM3, owns_whole]; rfl

/-- The region invariant before position `n`: the scratch — at anything before the first point, afterwards at what the
    point before left in it —, the other scoped buffers no window stages, and the generator register at some state. -/
def PhiS3 (c : Dev nD) : (n : ℕ) → n ≤ cfg3.N → sProp 𝕄
  | 0, _ => iprop((∃ d, owns (c : Thread nD τ) scM3 fullShare d) ∗ Pipeline.scopedRestBut (Ix := Unit) (Name := ℕ) (U := UR sig nD τ) (Lvl := ℕ) (Val := Elt F) spec3 c [cc3_scratch0] ∗ (∃ r, prngReg c r))
  | n + 1, hn => iprop(owns (c : Thread nD τ) scM3 fullShare ((outsAt3 V c n hn).2) ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) :
    PhiS3 V c n h = iprop((∃ d, owns (c : Thread nD τ) scM3 fullShare d) ∗ Pipeline.scopedRestBut (Ix := Unit) (Name := ℕ) (U := UR sig nD τ) (Lvl := ℕ) (Val := Elt F) spec3 c [cc3_scratch0] ∗ (∃ r, prngReg c r)) := by
  subst hz; rfl
theorem PhiS3_succ (c : Dev nD) (n : ℕ) (hn : n < cfg3.N) :
    PhiS3 V c (n + 1) hn = iprop(owns (c : Thread nD τ) scM3 fullShare ((outsAt3 V c n hn).2) ∗ Pipeline.scopedRestBut (Ix := Unit) (Name := ℕ) (U := UR sig nD τ) (Lvl := ℕ) (Val := Elt F) spec3 c [cc3_scratch0] ∗ (∃ r, prngReg c r)) := rfl
theorem PhiS3_pos (c : Dev nD) (n : ℕ) (h : n ≤ cfg3.N) (hz : n ≠ 0) :
    PhiS3 V c n h = iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the inner coordinate says which case the point is
    in; the invariant hands the body the scratch at what the point before left (at anything at the first point) and
    takes it back at this point's contents, its pieces covering it; where the output window is idle its buffer goes
    back as found, at the last inner point it goes back covered; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 64 := lt_of_lt_of_eq t.isLt (show cfg3.N = 64 from N_3)
  by_cases h0 : t.val % 8 = 0
  · have h1 : ¬t.val % 8 = 7 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold stepA3 sout3_A; (try dsimp only)
    by_cases hz : t.val = 0
    · rw [PhiS3_castSucc V c t, PhiS3_zero V c _ _ hz]
      iintro ⟨⟨HS0, HR, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_A c _ _ _ _ _ _ _ _ _ _ _ _ _ )
        isplitl [HR]; · iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨HS0, HR, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_A c _ _ _ _ _ _ _ _ _ _ _ _ _ )
        isplitl [HR]; · iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold stepC3 out3_C_2 sout3_C; (try dsimp only)
      rw [PhiS3_castSucc V c t, PhiS3_pos V c _ _ hz]
      iintro ⟨⟨HS0, HR, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover3_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold stepB3 sout3_B; (try dsimp only)
      rw [PhiS3_castSucc V c t, PhiS3_pos V c _ _ hz]
      iintro ⟨⟨HS0, HR, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover3_B c _ _ _ _ _ _ _ _ _ _ _ _ _ _ )
        isplitl [HR]; · iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the invariant -/

/-- ENTRY. The generator register, the (empty) prefetched tables and the scoped buffers no window stages make the
    invariant before the first point: the scratch is carved out of those buffers, at whatever it holds. -/
theorem hin3 (c : Dev nD) :
    iprop((∃ r, prngReg c r) ∗ Pipeline.prefHeld (pcfgs (F := F) 3).pre c (fun _ => fullShare) ((cfgs 3).toPCfg_adm).1 ∗ Pipeline.scopedRest (Ix := Unit) (Name := ℕ) (U := UR sig nD τ) (Lvl := ℕ) (Val := Elt F) spec3 c)
      ⊢ ((dat3 V c).Φ 0 : sProp 𝕄) := by
  rw [show (dat3 V c).Φ 0 = PhiS3 V c 0 (Nat.zero_le _) from rfl, PhiS3_zero V c 0 _ rfl, carve3]
  iintro ⟨Hg, -, HS0, HR⟩
  isplitl [HS0]; · iexact HS0
  isplitl [HR]; · iexact HR
  iexact Hg

/-- After any point but the first the invariant gives the register and those scoped buffers back: what the scratch
    holds is forgotten. -/
theorem Phi_out3 (c : Dev nD) (t : Fin (cfg3.N + 1)) (ht : t.val ≠ 0) :
    ((dat3 V c).Φ t : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec3 c) := by
  rw [Pipeline.ownSems0_none, show (dat3 V c).Φ t = PhiS3 V c t.val (Nat.le_of_lt_succ t.isLt) from rfl, PhiS3_pos V c _ _ ht, carve3]
  iintro ⟨HS0, HR, Hg⟩
  isplitl [Hg]; · iexact Hg
  isplitr; · iempintro
  isplitl [HS0]; · iexists _; iexact HS0
  iexact HR

/-- EXIT: the same after the last point. -/
theorem hout3 (c : Dev nD) :
    ((dat3 V c).Φ (Fin.last cfg3.N) : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec3 c) :=
  Phi_out3 V c _ (by rw [Fin.val_last]; have : cfg3.N = 64 := N_3; omega)

end Region3

end Cert.KernelIdeal.Fr

end
-- ==== Proof.KI.Reg4Runs.lean ====
/- Region 4 of @main — a product blocked along its contraction axis, the partial sums accumulated in a scratch
   buffer the body carries from one grid point to the next, the output block written at the last inner point only —:
   what the three control cases share (the windows' blocks at the entry contents, the branch conditions in closed
   form, where the output window is idle) and the body's triple in each case. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place: the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The first conditional's condition (the inner coordinate is 0), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)

/-- The second conditional's condition (the inner coordinate is the last, 7). -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output window is idle (the body stores nothing into it), -/
theorem idleAt4_2 : ∀ t : Fin cfg4.N, ¬cond4_1 (grid4.coords t) → cfg4.idle 2 (grid4.coords t) = true := by decide +kernel
/-- and its block is not written back there; -/
theorem noFlush4_2 : ∀ t : Fin cfg4.N, ¬cond4_1 (grid4.coords t) → (cfg4.win 2).flush t = false :=
  fun t h => Bool.eq_false_iff.mpr fun hf => h ((hcond4_1 t).mpr ((flush4_2 t).mp hf))
/-- where it holds the window is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S8x256x768 .bf16 := (Memref.whole cc4_stg2_0 : Memref sig .tc .vmem S8x256x768 .bf16).view
/-- Each window's current staging memref at point `t`, and its wholeness. -/
abbrev ms4_0 (t : Fin cfg4.N) : Memref sig .tc .vmem S8x256x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x256x768 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x256x768 .bf16 := win4_2.stage (cfg4.slots t 2)
abbrev hs4_2 (t : Fin cfg4.N) : (ms4_2 t).IsWhole := hstage4_2 ((cfg4.slots t 2).cast nbuf4_2)
/-- The scratch: a whole scoped buffer of the kernel's own, passed beside the windows, -/
abbrev scM4 : Memref sig .tc .vmem S8x256x768 .f32 := Memref.whole cc4_scratch0
/-- and as a view, through which what it holds is stated. -/
abbrev VS4 : View sig .tc .vmem S8x256x768 .f32 := scM4.view

/-! ## The body's triple, case by case

Each case is a pair of piece lists — what the body's stores leave in the output's staging memref and in the scratch,
last store first — with the proof that on whole memrefs, the inputs at their contents, the body runs to any
continuation that takes the inputs back as they were and the stored-into buffers with those pieces written. -/

set_option maxHeartbeats 1000000 in
/-- CASE A (inner coordinate 0): the scratch, found at anything, is zeroed and then holds the first partial product;
    the output's buffer, at any contents `xi2`, is handed back untouched. -/
noncomputable def kernelRun4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i)
    (x0 : Vec F S8x256x256 .bf16) (x1 : Vec F S8x256x768 .bf16) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨[], ?_, fun xi2 E K => ?run⟩
  case run =>
    simp only [cc4__att_text_kernel_eq_skeleton]; unfold cc4__att_text_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (inner coordinate strictly between 0 and 7): the scratch, found at `xs0`, ends at `xs0` plus this point's
    partial product; the output's buffer is handed back untouched. -/
noncomputable def kernelRun4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (xi2 : Vec F S8x256x768 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨[], ?_, fun xi2 E K => ?run⟩
  case run =>
    simp only [cc4__att_text_kernel_eq_skeleton]; unfold cc4__att_text_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (inner coordinate 7): the scratch, found at `xs0`, ends at `xs0` plus the last partial product, and the
    output's buffer, found at anything, is covered by that sum rounded to the output's element type. -/
noncomputable def kernelRun4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i)
    (x0 : Vec F S8x256x256 .bf16) (x1 : Vec F S8x256x768 .bf16) (xs0 : Vec F S8x256x768 .f32) :
    Σ' (L2 : List (View.Piece (Elt F) S8x256x768 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__att_text_kernel i arg2 harg2 arg3 harg3 arg4 harg4 arg5 harg5) K } := by
  refine ⟨?_, ?_, fun E K => ?run⟩
  case run =>
    simp only [cc4__att_text_kernel_eq_skeleton]; unfold cc4__att_text_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Fr

end
-- ==== Proof.KI.Reg4.lean ====
/- Region 4 of @main, its half of the certificate at the entry contents `V`: what the scratch and the output's
   staging buffer hold after the body in each case and point by point (the accumulation), the pipeline's proof data
   (its invariant owns the scratch: at anything before the first point, then at what the point before left), the body
   obligation, and the invariant's entry and exit entailments (the scratch carved out of, and forgotten back into, the
   scoped buffers no window stages). -/
import proofs.«125380_j79173427134694_2_alg».proof.Proof.KI.Reg4Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## What each case leaves -/

/-- Case A's pieces for the scratch tile it, so they cover it. -/
theorem scover4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) (y : S8x256x768.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S8x256x768.size (by sl_kernel_rfl) y
/-- What case A leaves in the scratch: its pieces read back. -/
def sout4_A (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) : Vec F S8x256x768 .f32 :=
  VS4.read (Elt F) (VS4.writes (Elt F) VS4.junk (kernelRun4_A c i arg2 harg2 arg3 harg3 arg4 harg4 arg5 harg5 hc0 hc1 x0 x1).2.1)
/-- Case A stores nothing into the output: a placeholder nothing consults (the window is idle and not written back). -/
def out4_A_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) : Vec F S8x256x768 .bf16 :=
  VO4_2.read (Elt F) (VO4_2.writes (Elt F) VO4_2.junk (kernelRun4_A c i arg2 harg2 arg3 harg3 arg4 harg4 arg5 harg5 hc0 hc1 x0 x1).1)

/-- Case B's pieces for the scratch tile it, so they cover it. -/
theorem scover4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) (y : S8x256x768.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S8x256x768.size (by sl_kernel_rfl) y
/-- What case B leaves in the scratch. -/
def sout4_B (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) : Vec F S8x256x768 .f32 :=
  VS4.read (Elt F) (VS4.writes (Elt F) VS4.junk (kernelRun4_B c i arg2 harg2 arg3 harg3 arg4 harg4 arg5 harg5 hc0 hc1 x0 x1 xs0).2.1)
/-- Case B stores nothing into the output: a placeholder nothing consults. -/
def out4_B_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) : Vec F S8x256x768 .bf16 :=
  VO4_2.read (Elt F) (VO4_2.writes (Elt F) VO4_2.junk (kernelRun4_B c i arg2 harg2 arg3 harg3 arg4 harg4 arg5 harg5 hc0 hc1 x0 x1 xs0).1)

/-- Case C's pieces for the scratch tile it, so they cover it. -/
theorem scover4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) (y : S8x256x768.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S8x256x768.size (by sl_kernel_rfl) y
/-- What case C leaves in the scratch. -/
def sout4_C (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) : Vec F S8x256x768 .f32 :=
  VS4.read (Elt F) (VS4.writes (Elt F) VS4.junk (kernelRun4_C c i arg2 harg2 arg3 harg3 arg4 harg4 arg5 harg5 hc0 hc1 x0 x1 xs0).2.1)
/-- Case C's pieces for the output tile its block, so they cover it. -/
theorem cover4_C_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) (y : S8x256x768.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S8x256x768.size (by sl_kernel_rfl) y
/-- What case C leaves in the output's staging buffer. -/
def out4_C_2 (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) : Vec F S8x256x768 .bf16 :=
  VO4_2.read (Elt F) (VO4_2.writes (Elt F) VO4_2.junk (kernelRun4_C c i arg2 harg2 arg3 harg3 arg4 harg4 arg5 harg5 hc0 hc1 x0 x1 xs0).1)

/-! ## The accumulation, point by point -/

/-- What the output's staging buffer and the scratch hold after the body at a point `t` of case A (inner coordinate 0), -/
def stepA4 (c : Dev nD) (t : Fin cfg4.N) (h0 : t.val % 8 = 0) (h1 : ¬t.val % 8 = 7) : Vec F S8x256x768 .bf16 × Vec F S8x256x768 .f32 :=
  (out4_A_2 c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t),
   sout4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t))
/-- of case B (inner coordinate strictly between 0 and 7), the scratch found at `xs`, -/
def stepB4 (c : Dev nD) (t : Fin cfg4.N) (h0 : ¬t.val % 8 = 0) (h1 : ¬t.val % 8 = 7) (xs : Vec F S8x256x768 .f32) : Vec F S8x256x768 .bf16 × Vec F S8x256x768 .f32 :=
  (out4_B_2 c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs,
   sout4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs)
/-- and of case C (inner coordinate 7), the scratch found at `xs`. -/
def stepC4 (c : Dev nD) (t : Fin cfg4.N) (h0 : ¬t.val % 8 = 0) (h1 : t.val % 8 = 7) (xs : Vec F S8x256x768 .f32) : Vec F S8x256x768 .bf16 × Vec F S8x256x768 .f32 :=
  (out4_C_2 c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs,
   sout4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs)

/-- THE ACCUMULATION. What the output's staging buffer (first component) and the scratch (second) hold after the body
    at position `n`: the case the inner coordinate selects, run at the point's input blocks, the scratch at what
    position `n - 1` left in it. -/
def outsAt4 (c : Dev nD) : (n : ℕ) → n < cfg4.N → Vec F S8x256x768 .bf16 × Vec F S8x256x768 .f32
  | 0, hn => stepA4 V c ⟨0, hn⟩ (Nat.zero_mod _) (by show ¬(0 % 8 = 7); decide)
  | n + 1, hn =>
    if h0 : (n + 1) % 8 = 0 then stepA4 V c ⟨n + 1, hn⟩ h0 (by show ¬((n + 1) % 8 = 7); omega)
    else if h1 : (n + 1) % 8 = 7 then stepC4 V c ⟨n + 1, hn⟩ h0 h1 (outsAt4 c n (Nat.lt_of_succ_lt hn)).2
    else stepB4 V c ⟨n + 1, hn⟩ h0 h1 (outsAt4 c n (Nat.lt_of_succ_lt hn)).2

/-- `outsAt4` at a point of case A. -/
theorem outsAt4_A (c : Dev nD) (t : Fin cfg4.N) (h0 : t.val % 8 = 0) (h1 : ¬t.val % 8 = 7) :
    outsAt4 V c t.val t.isLt = stepA4 V c t h0 h1 := by
  obtain ⟨n, hn⟩ := t
  cases n with
  | zero => exact rfl
  | succ n => exact (dif_pos h0).trans rfl
/-- `outsAt4` at a point of case B: over what the point before left in the scratch. -/
theorem outsAt4_B (c : Dev nD) (t : Fin cfg4.N) (h0 : ¬t.val % 8 = 0) (h1 : ¬t.val % 8 = 7) :
    outsAt4 V c t.val t.isLt = stepB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
/-- `outsAt4` at a point of case C: over what the point before left in the scratch. -/
theorem outsAt4_C (c : Dev nD) (t : Fin cfg4.N) (h0 : ¬t.val % 8 = 0) (h1 : t.val % 8 = 7) :
    outsAt4 V c t.val t.isLt = stepC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The scoped buffers no window stages, with the scratch carved out as a memref owned whole at some contents. -/
theorem carve4 (c : Dev nD) :
    (Pipeline.scopedRest (Ix := Unit) (Name := ℕ) (U := UR sig nD τ) (Lvl := ℕ) (Val := Elt F) spec4 c : sProp 𝕄)
      = iprop((∃ d, owns (c : Thread nD τ) scM4 fullShare d) ∗ Pipeline.scopedRestBut (Ix := Unit) (Name := ℕ) (U := UR sig nD τ) (Lvl := ℕ) (Val := Elt F) spec4 c [cc4_scratch0]) := by
  rw [scopedRest4_split]; simp only [scM4, owns_whole]; rfl

/-- The region invariant before position `n`: the scratch — at anything before the first point, afterwards at what the
    point before left in it —, the other scoped buffers no window stages, and the generator register at some state. -/
def PhiS4 (c : Dev nD) : (n : ℕ) → n ≤ cfg4.N → sProp 𝕄
  | 0, _ => iprop((∃ d, owns (c : Thread nD τ) scM4 fullShare d) ∗ Pipeline.scopedRestBut (Ix := Unit) (Name := ℕ) (U := UR sig nD τ) (Lvl := ℕ) (Val := Elt F) spec4 c [cc4_scratch0] ∗ (∃ r, prngReg c r))
  | n + 1, hn => iprop(owns (c : Thread nD τ) scM4 fullShare ((outsAt4 V c n hn).2) ∗ Pipeline.scopedRestBut (Ix := Unit) (Name := ℕ) (U := UR sig nD τ) (Lvl := ℕ) (Val := Elt F) spec4 c [cc4_scratch0] ∗ (∃ r, prngReg c r))

theorem PhiS4_zero (c : Dev nD) (n : ℕ) (h : n ≤ cfg4.N) (hz : n = 0) :
    PhiS4 V c n h = iprop((∃ d, owns (c : Thread nD τ) scM4 fullShare d) ∗ Pipeline.scopedRestBut (Ix := Unit) (Name := ℕ) (U := UR sig nD τ) (Lvl := ℕ) (Val := Elt F) spec4 c [cc4_scratch0] ∗ (∃ r, prngReg c r)) := by
  subst hz; rfl
theorem PhiS4_succ (c : Dev nD) (n : ℕ) (hn : n < cfg4.N) :
    PhiS4 V c (n + 1) hn = iprop(owns (c : Thread nD τ) scM4 fullShare ((outsAt4 V c n hn).2) ∗ Pipeline.scopedRestBut (Ix := Unit) (Name := ℕ) (U := UR sig nD τ) (Lvl := ℕ) (Val := Elt F) spec4 c [cc4_scratch0] ∗ (∃ r, prngReg c r)) := rfl
theorem PhiS4_pos (c : Dev nD) (n : ℕ) (h : n ≤ cfg4.N) (hz : n ≠ 0) :
    PhiS4 V c n h = iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0] ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the inner coordinate says which case the point is
    in; the invariant hands the body the scratch at what the point before left (at anything at the first point) and
    takes it back at this point's contents, its pieces covering it; where the output window is idle its buffer goes
    back as found, at the last inner point it goes back covered; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 64 := lt_of_lt_of_eq t.isLt (show cfg4.N = 64 from N_4)
  by_cases h0 : t.val % 8 = 0
  · have h1 : ¬t.val % 8 = 7 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold stepA4 sout4_A; (try dsimp only)
    by_cases hz : t.val = 0
    · rw [PhiS4_castSucc V c t, PhiS4_zero V c _ _ hz]
      iintro ⟨⟨HS0, HR, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_A c _ _ _ _ _ _ _ _ _ _ _ _ _ )
        isplitl [HR]; · iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨HS0, HR, Hg⟩, Ho, ⟨%d0, H0⟩, ⟨%d1, H1⟩, ⟨%d2, H2⟩⟩
      iapply ((kernelRun4_A c (grid4.coords t) _ _ _ _ _ _ _ _ ((hcond4_0 t).mpr h0) (fun h => h1 ((hcond4_1 t).mp h)) (iblk4 V c 0 t) (iblk4 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_A c _ _ _ _ _ _ _ _ _ _ _ _ _ )
        isplitl [HR]; · iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold stepC4 out4_C_2 sout4_C; (try dsimp only)
      rw [PhiS4_castSucc V c t, PhiS4_pos V c _ _ hz]
      iintro ⟨⟨HS0, HR, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0]
        · unfold owns; iexists _; isplitr
          swap; · iexact HS0
          ipureintro; exact View.read_writes_of_cover _ _ _ _ _ (scover4_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold stepB4 sout4_B; (try dsimp only)
      rw [PhiS4_castSucc V c t, PhiS4_pos V c _ _ hz]
      iintro ⟨⟨HS0, HR, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0]
        · unfold owns; iexists _; isplitr
          swap; · iexact HS0
          ipureintro; exact View.read_writes_of_cover _ _ _ _ _ (scover4_B c _ _ _ _ _ _ _ _ _ _ _ _ _ _ )
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the invariant -/

/-- ENTRY. The generator register, the (empty) prefetched tables and the scoped buffers no window stages make the
    invariant before the first point: the scratch is carved out of those buffers, at whatever it holds. -/
theorem hin4 (c : Dev nD) :
    iprop((∃ r, prngReg c r) ∗ Pipeline.prefHeld (pcfgs (F := F) 4).pre c (fun _ => fullShare) ((cfgs 4).toPCfg_adm).1 ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 (Nat.zero_le _) from rfl, PhiS4_zero V c 0 _ rfl, carve4]
  iintro ⟨Hg, -, HS0, HR⟩
  isplitl [HS0]; · iexact HS0
  isplitl [HR]; · iexact HR
  iexact Hg

/-- After any point but the first the invariant gives the register and those scoped buffers back: what the scratch
    holds is forgotten. -/
theorem Phi_out4 (c : Dev nD) (t : Fin (cfg4.N + 1)) (ht : t.val ≠ 0) :
    ((dat4 V c).Φ t : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec4 c) := by
  rw [Pipeline.ownSems0_none, show (dat4 V c).Φ t = PhiS4 V c t.val (Nat.le_of_lt_succ t.isLt) from rfl, PhiS4_pos V c _ _ ht, carve4]
  iintro ⟨HS0, HR, Hg⟩
  isplitl [Hg]; · iexact Hg
  isplitr; · iempintro
  isplitl [HS0]; · iexists _; iexact HS0
  iexact HR

/-- EXIT: the same after the last point. -/
theorem hout4 (c : Dev nD) :
    ((dat4 V c).Φ (Fin.last cfg4.N) : sProp 𝕄) ⊢ iprop((∃ r, prngReg c r) ∗ Pipeline.ownSems0 (fun k : PEmpty => k.elim) c ∗ Pipeline.scopedRest (Ix := Unit) (Name := ℕ) (U := UR sig nD τ) (Lvl := ℕ) (Val := Elt F) spec4 c) :=
  Phi_out4 V c _ (by rw [Fin.val_last]; have : cfg4.N = 64 := N_4; omega)

end Region4

end Cert.KernelIdeal.Fr

end
-- ==== Proof.KI.Reg5.lean ====
/- The class-A half of region 5 of @main (`cc5__out_kernel`), at a parameter `V`: the buffer contents when the region is
   entered. Each window's block at a point, what the body leaves in the output window's buffer as a closed function of
   the input blocks, the body's triple, the pipeline's proof data and the body obligation at every point. Generic in
   the float instance. -/
import proofs.«125380_j79173427134694_2_alg».proof.Proof.Gen.KernelIdeal.Launch
import proofs.«125380_j79173427134694_2_alg».proof.Proof.Gen.KernelIdeal.Skeleton
import proofs.«125380_j79173427134694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: when the
    pipeline does not fetch at a point, the window's block index has not moved since the previous point, so the
    buffer still holds this point's block. Holds for any proof data whose array is `V`'s and whose body leaves
    the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: when the
    pipeline does not fetch at a point, the window's block index has not moved since the previous point, so the
    buffer still holds this point's block. Holds for any proof data whose array is `V`'s and whose body leaves
    the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: when the
    pipeline does not fetch at a point, the window's block index has not moved since the previous point, so the
    buffer still holds this point's block. Holds for any proof data whose array is `V`'s and whose body leaves
    the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: when the
    pipeline does not fetch at a point, the window's block index has not moved since the previous point, so the
    buffer still holds this point's block. Holds for any proof data whose array is `V`'s and whose body leaves
    the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: when the
    pipeline does not fetch at a point, the window's block index has not moved since the previous point, so the
    buffer still holds this point's block. Holds for any proof data whose array is `V`'s and whose body leaves
    the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole block -/

abbrev r5_0 : Rect S1024x768 := Rect.unit (s := S1024x768) ![0, 0] S1024x768.size inb_S1024x768_S1024x768_0_0
abbrev r5_1 : Rect S768x768 := Rect.unit (s := S768x768) ![0, 0] S768x768.size inb_S768x768_S768x768_0_0
abbrev r5_2 : Rect S1x768 := Rect.unit (s := S1x768) ![0, 0] S1x768.size inb_S1x768_S1x768_0_0

/-! ## What the body leaves in the output window's buffer -/

/-- Window 5's staging buffer after the body, from the input windows' blocks: its one store, of the payload
    computed from the whole input blocks, laid over the whole buffer. -/
def out5_5 (x0 : Vec F S1024x768 .bf16) (x1 : Vec F S1024x768 .bf16) (x2 : Vec F S768x768 .bf16) (x3 : Vec F S768x768 .bf16) (x4 : Vec F S1x768 .f32) : Vec F S1024x768 .f32 :=
  View.canon [⟨r5_0, k5_pay1 (View.ld x0 r5_0) (View.ld x1 r5_0) (View.ld x2 r5_1) (View.ld x3 r5_1) (View.ld x4 r5_2)⟩]

/-- The one store's rectangle is the whole buffer, so it covers it. -/
theorem cover5_5 (p0 : Vec F S1024x768 .f32) (y : S1024x768.Idx) :
    ∃ pc ∈ ([⟨r5_0, p0⟩] : List (View.Piece (Elt F) S1024x768 .f32)), y ∈ pc.1.set :=
  View.cover_of_tiled [⟨r5_0, p0⟩] S1024x768.size (by rfl) y

/-! ## The body's triple -/

set_option maxHeartbeats 1000000 in
/-- The kernel body on whole staging memrefs, the inputs' at read contents `xW` and the output's at anything, runs to
    the continuation holding the inputs' as they were and the output's at `out5_5` of the inputs'. The body reads the
    output buffer once before storing to it and discards what it read, so the output's prior contents stay arbitrary. -/
theorem sound_kernel5 (c : Dev nD) (E : Set ℕ) (i : grid5.Coords) (arg1 : Memref sig .tc .vmem S1024x768 .bf16) (harg1 : arg1.IsWhole) (arg2 : Memref sig .tc .vmem S1024x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1024x768 .f32) (harg6 : arg6.IsWhole)
    (x0 : Vec F S1024x768 .bf16) (x1 : Vec F S1024x768 .bf16) (x2 : Vec F S768x768 .bf16) (x3 : Vec F S768x768 .bf16) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__out_kernel i arg1 harg1 arg2 harg2 arg3 harg3 arg4 harg4 arg5 harg5 arg6 harg6) K := by
  simp only [cc5__out_kernel_eq_skeleton]; unfold cc5__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant is the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Run.lean ====
/- The run of the whole program: its six kernel regions among stretches of host operations, as the library's chain of
   segments. The contents of every buffer at each boundary between two items are a fold from the launch memory: a host
   stretch applies its operations, a region leaves each of its arrays at what its write-backs leave and every other
   buffer as it was. Each region is a segment entered from the thread state "every unscoped buffer at the boundary's
   contents, the generator register at some state, nothing owed" and left at the next boundary's. The run ends with every
   unscoped buffer at the last boundary's contents; since no item writes an argument, the frame follows. Generic in the
   float instance. -/
import proofs.«125380_j79173427134694_2_alg».proof.Proof.KI.Reg0
import proofs.«125380_j79173427134694_2_alg».proof.Proof.KI.Reg1
import proofs.«125380_j79173427134694_2_alg».proof.Proof.KI.Reg2
import proofs.«125380_j79173427134694_2_alg».proof.Proof.KI.Reg3
import proofs.«125380_j79173427134694_2_alg».proof.Proof.KI.Reg4
import proofs.«125380_j79173427134694_2_alg».proof.Proof.KI.Reg5
import proofs.«125380_j79173427134694_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each boundary between two items of @main: a fold from the launch memory.
    A host stretch applies its operations; a region leaves each of its arrays at what its write-backs leave and every
    other buffer as it was. `Wj` is the valuation after item j-1, `Uj` the same read at the TensorCore's references. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- At region 4's exit: its arrays at what the pipeline leaves, every other buffer as entered. -/
def W9 (c : Dev nD) : Valuation τ sig (Elt F) :=
  Pipeline.withArrays spec4 c (W8 m ρ c) fun w => (dat4 (U8 m ρ) c).arrAt w cfg4.N
theorem W9_arr (c : Dev nD) (w : Fin cfg4.W) :
    W9 m ρ c (Proc.devRef .tc (Pipeline.arrRef spec4 w)) = (dat4 (U8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev U9 : (c : Dev nD) → (b : Ref sig .tc) → Buf (Elt F) ((c : Thread nD τ).loc b) := fun c b => W9 m ρ c b
theorem hF4 (c : Dev nD) (w : Fin cfg4.W) : (dat4 (U8 m ρ) c).arrAt w cfg4.N = U9 m ρ c (Pipeline.arrRef spec4 w) :=
  (W9_arr m ρ c w).symm
theorem hrest4 (c : Dev nD) : ∀ b, b ∉ Finset.univ.image (Pipeline.arrRef spec4) → U9 m ρ c b = U8 m ρ c b :=
  fun b hb => W9_of_ne m ρ c b fun w e => hb (Finset.mem_image.mpr ⟨w, Finset.mem_univ _, e⟩)
/-- After the host stretch `hostOps5`. -/
abbrev W10 : Dev nD → Valuation τ sig (Elt F) := fun c => StableHlo.after hostOps5 (W9 m ρ c)
abbrev U10 : (c : Dev nD) → (b : Ref sig .tc) → Buf (Elt F) ((c : Thread nD τ).loc b) := fun c b => W10 m ρ c b
/-- At region 5's exit: its arrays at what the pipeline leaves, every other buffer as entered. -/
def W11 (c : Dev nD) : Valuation τ sig (Elt F) :=
  Pipeline.withArrays spec5 c (W10 m ρ c) fun w => (dat5 (U10 m ρ) c).arrAt w cfg5.N
theorem W11_arr (c : Dev nD) (w : Fin cfg5.W) :
    W11 m ρ c (Proc.devRef .tc (Pipeline.arrRef spec5 w)) = (dat5 (U10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev U11 : (c : Dev nD) → (b : Ref sig .tc) → Buf (Elt F) ((c : Thread nD τ).loc b) := fun c b => W11 m ρ c b
theorem hF5 (c : Dev nD) (w : Fin cfg5.W) : (dat5 (U10 m ρ) c).arrAt w cfg5.N = U11 m ρ c (Pipeline.arrRef spec5 w) :=
  (W11_arr m ρ c w).symm
theorem hrest5 (c : Dev nD) : ∀ b, b ∉ Finset.univ.image (Pipeline.arrRef spec5) → U11 m ρ c b = U10 m ρ c b :=
  fun b hb => W11_of_ne m ρ c b fun w e => hb (Finset.mem_image.mpr ⟨w, Finset.mem_univ _, e⟩)
/-- After the host stretch `hostOps6`. -/
abbrev W12 : Dev nD → Valuation τ sig (Elt F) := fun c => StableHlo.after hostOps6 (W11 m ρ c)
abbrev U12 : (c : Dev nD) → (b : Ref sig .tc) → Buf (Elt F) ((c : Thread nD τ).loc b) := fun c b => W12 m ρ c b

/-! ## The proof data family and the thread state -/

/-- No pipeline has a prefetched table. -/
abbrev padm : (p : Fin 6) → (pcfgs (F := F) p).Adm := fun p => (cfgs p).toPCfg_adm
/-- Every pipeline's proof data, each at its region's entry contents: a literal match on the pipeline's number. -/
def pdats : (p : Fin 6) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
  | ⟨4, _⟩ => fun c => dat4 (U8 m ρ) c
  | ⟨5, _⟩ => fun c => dat5 (U10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of `hostOps0` allocates a buffer. -/
theorem hostOps0_nofresh : (hostOps0 : List (HloOp τ sig (Elt F))).Forall fun op => op.fresh = ∅ := by
  simp only [List.Forall]; repeat' constructor
/-- No operation of `hostOps1` allocates a buffer. -/
theorem hostOps1_nofresh : (hostOps1 : List (HloOp τ sig (Elt F))).Forall fun op => op.fresh = ∅ := by
  simp only [List.Forall]; repeat' constructor
/-- No operation of `hostOps2` allocates a buffer. -/
theorem hostOps2_nofresh : (hostOps2 : List (HloOp τ sig (Elt F))).Forall fun op => op.fresh = ∅ := by
  simp only [List.Forall]; repeat' constructor
/-- No operation of `hostOps3` allocates a buffer. -/
theorem hostOps3_nofresh : (hostOps3 : List (HloOp τ sig (Elt F))).Forall fun op => op.fresh = ∅ := by
  simp only [List.Forall]; repeat' constructor
/-- No operation of `hostOps5` allocates a buffer. -/
theorem hostOps5_nofresh : (hostOps5 : List (HloOp τ sig (Elt F))).Forall fun op => op.fresh = ∅ := by
  simp only [List.Forall]; repeat' constructor
/-- No operation of `hostOps6` allocates a buffer. -/
theorem hostOps6_nofresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes back; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes back; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes back; nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the pipeline's invariant
    and comes back; so does the scratch accumulator, which the invariant owns between the points; nothing is owed; the kernel has no semaphore of its own. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (U7 m ρ) c
  hout c := hout3 (U7 m ρ) c
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. Its arrays are split out
    of the unscoped buffers and put back at the exit contents; the generator register goes into the pipeline's invariant
    and comes back; so does the scratch accumulator, which the invariant owns between the points; nothing is owed; the kernel has no semaphore of its own. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (U8 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (U8 m ρ) c
  hout c := hout4 (U8 m ρ) c
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (U8 m ρ c) (U9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W10`, left at `W11`. Its arrays are split out
    of the unscoped buffers and put back at the exit contents; the generator register goes into the pipeline's invariant
    and comes back; nothing is owed; the kernel has no semaphore of its own. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (U10 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (U10 m ρ c) (U11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve items in order: a host segment per stretch from its boundary's contents, a region per kernel call. -/
abbrev psegs : List (Pipeline.Seg (pcfgs (F := F)) padm (pdats m ρ) () defs₀ 𝒱₀ L lv) :=
  [ .host (hseg hostOps0 hostOps0_sub hostOps0_nofresh (W0 m ρ)),
    .region (reg0 m ρ),
    .host (hseg hostOps1 hostOps1_sub hostOps1_nofresh (W2 m ρ)),
    .region (reg1 m ρ),
    .host (hseg hostOps2 hostOps2_sub hostOps2_nofresh (W4 m ρ)),
    .region (reg2 m ρ),
    .host (hseg hostOps3 hostOps3_sub hostOps3_nofresh (W6 m ρ)),
    .region (reg3 m ρ),
    .region (reg4 m ρ),
    .host (hseg hostOps5 hostOps5_sub hostOps5_nofresh (W9 m ρ)),
    .region (reg5 m ρ),
    .host (hseg hostOps6 hostOps6_sub hostOps6_nofresh (W11 m ρ)) ]
/-- @main IS the run of the segments. -/
theorem main_run (c : Dev nD) : main (F := F) c = Pipeline.Seg.run (psegs m ρ) := (main_chain c).trans (by chain_rfl)

set_option backward.isDefEq.respectTransparency.types false in
/-- THE RUN. From any memory with zero counters every weakly fair execution of @main on the TensorCores terminates,
    nothing faulting, and in every final state each unscoped buffer holds the last boundary's contents `W12`: the
    arguments (which no item writes) as launched, each result at the fold through the regions. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-! ## What no item writes stays as launched -/
theorem W1_of (c : Dev nD) (r : Ref sig .tc) (h : r ∉ Gen.hostOps0_W) : W1 m ρ c r = W0 m ρ c r :=
  StableHlo.after_of_writes_sub hostOps0 _ Gen.hostOps0_writes h
theorem W3_of (c : Dev nD) (r : Ref sig .tc) (h : r ∉ Gen.hostOps1_W) : W3 m ρ c r = W2 m ρ c r :=
  StableHlo.after_of_writes_sub hostOps1 _ Gen.hostOps1_writes h
theorem W5_of (c : Dev nD) (r : Ref sig .tc) (h : r ∉ Gen.hostOps2_W) : W5 m ρ c r = W4 m ρ c r :=
  StableHlo.after_of_writes_sub hostOps2 _ Gen.hostOps2_writes h
theorem W7_of (c : Dev nD) (r : Ref sig .tc) (h : r ∉ Gen.hostOps3_W) : W7 m ρ c r = W6 m ρ c r :=
  StableHlo.after_of_writes_sub hostOps3 _ Gen.hostOps3_writes h
theorem W10_of (c : Dev nD) (r : Ref sig .tc) (h : r ∉ Gen.hostOps5_W) : W10 m ρ c r = W9 m ρ c r :=
  StableHlo.after_of_writes_sub hostOps5 _ Gen.hostOps5_writes h
theorem W12_of (c : Dev nD) (r : Ref sig .tc) (h : r ∉ Gen.hostOps6_W) : W12 m ρ c r = W11 m ρ c r :=
  StableHlo.after_of_writes_sub hostOps6 _ Gen.hostOps6_writes h
/-- `main_arg0` reaches the end as launched: no host stretch writes it and it is no region's array. -/
theorem W12_main_arg0 (c : Dev nD) : W12 m ρ c (Proc.devRef .tc main_arg0) = m ((c : Thread nD τ).loc main_arg0) :=
  (W12_of m ρ c main_arg0 (by decide)).trans <| (W11_of_ne m ρ c main_arg0 (by decide)).trans <| (W10_of m ρ c main_arg0 (by decide)).trans <| (W9_of_ne m ρ c main_arg0 (by decide)).trans <| (W8_of_ne m ρ c main_arg0 (by decide)).trans <| (W7_of m ρ c main_arg0 (by decide)).trans <| (W6_of_ne m ρ c main_arg0 (by decide)).trans <| (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
/-- `main_arg1` reaches the end as launched: no host stretch writes it and it is no region's array. -/
theorem W12_main_arg1 (c : Dev nD) : W12 m ρ c (Proc.devRef .tc main_arg1) = m ((c : Thread nD τ).loc main_arg1) :=
  (W12_of m ρ c main_arg1 (by decide)).trans <| (W11_of_ne m ρ c main_arg1 (by decide)).trans <| (W10_of m ρ c main_arg1 (by decide)).trans <| (W9_of_ne m ρ c main_arg1 (by decide)).trans <| (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
/-- `main_arg2` reaches the end as launched: no host stretch writes it and it is no region's array. -/
theorem W12_main_arg2 (c : Dev nD) : W12 m ρ c (Proc.devRef .tc main_arg2) = m ((c : Thread nD τ).loc main_arg2) :=
  (W12_of m ρ c main_arg2 (by decide)).trans <| (W11_of_ne m ρ c main_arg2 (by decide)).trans <| (W10_of m ρ c main_arg2 (by decide)).trans <| (W9_of_ne m ρ c main_arg2 (by decide)).trans <| (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
/-- `main_arg3` reaches the end as launched: no host stretch writes it and it is no region's array. -/
theorem W12_main_arg3 (c : Dev nD) : W12 m ρ c (Proc.devRef .tc main_arg3) = m ((c : Thread nD τ).loc main_arg3) :=
  (W12_of m ρ c main_arg3 (by decide)).trans <| (W11_of_ne m ρ c main_arg3 (by decide)).trans <| (W10_of m ρ c main_arg3 (by decide)).trans <| (W9_of_ne m ρ c main_arg3 (by decide)).trans <| (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
/-- `main_arg4` reaches the end as launched: no host stretch writes it and it is no region's array. -/
theorem W12_main_arg4 (c : Dev nD) : W12 m ρ c (Proc.devRef .tc main_arg4) = m ((c : Thread nD τ).loc main_arg4) :=
  (W12_of m ρ c main_arg4 (by decide)).trans <| (W11_of_ne m ρ c main_arg4 (by decide)).trans <| (W10_of m ρ c main_arg4 (by decide)).trans <| (W9_of_ne m ρ c main_arg4 (by decide)).trans <| (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
/-- `main_arg5` reaches the end as launched: no host stretch writes it and it is no region's array. -/
theorem W12_main_arg5 (c : Dev nD) : W12 m ρ c (Proc.devRef .tc main_arg5) = m ((c : Thread nD τ).loc main_arg5) :=
  (W12_of m ρ c main_arg5 (by decide)).trans <| (W11_of_ne m ρ c main_arg5 (by decide)).trans <| (W10_of m ρ c main_arg5 (by decide)).trans <| (W9_of_ne m ρ c main_arg5 (by decide)).trans <| (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
/-- `main_arg6` reaches the end as launched: no host stretch writes it and it is no region's array. -/
theorem W12_main_arg6 (c : Dev nD) : W12 m ρ c (Proc.devRef .tc main_arg6) = m ((c : Thread nD τ).loc main_arg6) :=
  (W12_of m ρ c main_arg6 (by decide)).trans <| (W11_of_ne m ρ c main_arg6 (by decide)).trans <| (W10_of m ρ c main_arg6 (by decide)).trans <| (W9_of_ne m ρ c main_arg6 (by decide)).trans <| (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
/-- `main_arg7` reaches the end as launched: no host stretch writes it and it is no region's array. -/
theorem W12_main_arg7 (c : Dev nD) : W12 m ρ c (Proc.devRef .tc main_arg7) = m ((c : Thread nD τ).loc main_arg7) :=
  (W12_of m ρ c main_arg7 (by decide)).trans <| (W11_of_ne m ρ c main_arg7 (by decide)).trans <| (W10_of m ρ c main_arg7 (by decide)).trans <| (W9_of_ne m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl

/-- THE FRAME, at any float instance: every weakly fair execution of @main terminates, nothing faulting, and the argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c)⟩) (run m ρ)

end Cert.KernelIdeal.Fr

end
-- ==== Proof.KI.Val0.lean ====
/- Region 0's output block at an index, at the ideal values: row r, column h of the projection is the dot product of the input row with the weight row, plus the bias. -/
import proofs.«125380_j79173427134694_2_alg».proof.Proof.KI.Reg0
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Fr

open Cert.KernelIdeal Cert.KernelIdeal.Gen
open Idealize.ShloMosaic Idealize.ShloMosaic.TcCoe Idealize.SL.Sem
open Idealize.ShloMosaic.ValueIdx

/-- The two zero offsets, however spelt. -/
theorem zeros2_0 : (![0, 0] : Fin 2 → Nat) = fun _ => 0 := funext fun a => by fin_cases a <;> rfl

theorem lhs0_c0 (i : S1024x768.Idx) (q : dot_S1024x1024_S1024x768_S1024x768_1_0_0_1_n_n.contr.Idx) : (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
theorem lhs0_c1 (i : S1024x768.Idx) (q : dot_S1024x1024_S1024x768_S1024x768_1_0_0_1_n_n.contr.Idx) : (dot_S1024x1024_S1024x768_S1024x768_1_0_0_1_n_n.lhsIdx i q 1).val = (q ⟨0, by decide⟩).val :=
  dot_S1024x1024_S1024x768_S1024x768_1_0_0_1_n_n.lhsIdx_val_of_single rfl i q
theorem rhs0_c0 (i : S1024x768.Idx) (q : dot_S1024x1024_S1024x768_S1024x768_1_0_0_1_n_n.contr.Idx) : (dot_S1024x1024_S1024x768_S1024x768_1_0_0_1_n_n.rhsIdx i q 0).val = (q ⟨0, by decide⟩).val :=
  dot_S1024x1024_S1024x768_S1024x768_1_0_0_1_n_n.rhsIdx_val_of_single rfl i q
theorem rhs0_c1 (i : S1024x768.Idx) (q : dot_S1024x1024_S1024x768_S1024x768_1_0_0_1_n_n.contr.Idx) : (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

/-- The matmul's left operand index at output (r, h) and contraction index d is (r, d). -/
theorem lhs0 (r : Fin 1024) (h : Fin 768) (d : Fin 1024) :
    dot_S1024x1024_S1024x768_S1024x768_1_0_0_1_n_n.lhsIdx (ix2 r h) ((contrEquiv1 dot_S1024x1024_S1024x768_S1024x768_1_0_0_1_n_n 1024 rfl rfl).symm d) = ix2 r d :=
  funext fun a => Fin.ext (by
    have hk := contrEquiv1_symm_val dot_S1024x1024_S1024x768_S1024x768_1_0_0_1_n_n 1024 rfl rfl d
    match a with
    | ⟨0, _⟩ => exact lhs0_c0 _ _
    | ⟨1, _⟩ => exact (lhs0_c1 _ _).trans hk)

/-- The right operand index there is (d, h). -/
theorem rhs0 (r : Fin 1024) (h : Fin 768) (d : Fin 1024) :
    dot_S1024x1024_S1024x768_S1024x768_1_0_0_1_n_n.rhsIdx (ix2 r h) ((contrEquiv1 dot_S1024x1024_S1024x768_S1024x768_1_0_0_1_n_n 1024 rfl rfl).symm d) = ix2 d h :=
  funext fun a => Fin.ext (by
    have hk := contrEquiv1_symm_val dot_S1024x1024_S1024x768_S1024x768_1_0_0_1_n_n 1024 rfl rfl d
    match a with
    | ⟨0, _⟩ => exact (rhs0_c0 _ _).trans hk
    | ⟨1, _⟩ => exact rhs0_c1 _ _)

/-- A matmul into the zero splat, of x against the transpose of w, at (r, h): the dot product of row r of x with row h of w. -/
theorem mm0_apply (x : FVec Ideal S1024x1024 .bf16) (w : FVec Ideal S768x1024 .bf16) (r : Fin 1024) (h : Fin 768) :
    matmul (F := Ideal) dot_S1024x1024_S1024x768_S1024x768_1_0_0_1_n_n none x (transpose S1024x768 [1, 0] w transposes_S768x1024_p1_0_S1024x768) (constant (F := Ideal) S1024x768 .f32 0x00000000#32) (ix2 r h)
      = ∑ d : Fin 1024, x (ix2 r d) * w (ix2 h d) := by
  refine (Ideal.matmul_constant_zero_apply dot_S1024x1024_S1024x768_S1024x768_1_0_0_1_n_n none x _ (ix2 r h)).trans ?_
  rw [← Equiv.sum_comp (contrEquiv1 dot_S1024x1024_S1024x768_S1024x768_1_0_0_1_n_n 1024 rfl rfl).symm]
  refine Finset.sum_congr rfl fun d _ => ?_
  rw [lhs0, rhs0, transpose_ix2_apply]

/-- The bias row broadcast down the rows, at (r, h). -/
theorem bias0_apply (b : FVec Ideal S1x768 .f32) (r : Fin 1024) (h : Fin 768) :
    broadcastTo S1024x768 b broadcasts_S1x768_S1024x768 (ix2 r h) = b (ix2 0 h) :=
  broadcastTo_apply _ _ _ _ fun a => match a with
    | ⟨0, _⟩ => rfl
    | ⟨1, _⟩ => rfl

/-- The body's payload at (r, h): the sum over the contraction axis of input times transposed weight, plus the
    broadcast bias; the roundings are the identity at the ideal values. -/
theorem k0_pay1_apply (x : Vec Ideal S1024x1024 .f32) (w : Vec Ideal S768x1024 .bf16) (b : Vec Ideal S1x768 .f32) (r : Fin 1024) (h : Fin 768) :
    k0_pay1 (F := Ideal) x w b (ix2 r h) = (∑ d : Fin 1024, x (ix2 r d) * w (ix2 h d)) + b (ix2 0 h) := by
  unfold k0_pay1
  rw [truncf_apply, addf_apply, shapeCast_self, shapeCast_self, shapeCast_self, mm0_apply, bias0_apply]
  rfl

/-- The output block at (r, h). -/
theorem out0_3_apply (x : Vec Ideal S1024x1024 .f32) (w : Vec Ideal S768x1024 .bf16) (b : Vec Ideal S1x768 .f32) (r : Fin 1024) (h : Fin 768) :
    out0_3 (F := Ideal) x w b (ix2 r h) = (∑ d : Fin 1024, x (ix2 r d) * w (ix2 h d)) + b (ix2 0 h) := by
  unfold out0_3
  rw [View.canon_unit_zero (S := S1024x768) zeros2_0]
  simp only [View.ld_unit_zero (S := S1024x1024) zeros2_0, View.ld_unit_zero (S := S768x1024) zeros2_0, View.ld_unit_zero (S := S1x768) zeros2_0]
  exact k0_pay1_apply x w b r h

end Cert.KernelIdeal.Fr

end
-- ==== Proof.KI.Fin0.lean ====
/- Region 0 from blocks to the array, at the ideal values and at the entry contents `V`: the output array ends as ONE function of the three input arrays, row r column h the dot product of input row r with weight row h plus the bias; the input arrays end as entered. -/
import proofs.«125380_j79173427134694_2_alg».proof.Proof.KI.Reg0
import proofs.«125380_j79173427134694_2_alg».proof.Proof.KI.Val0
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The projection of the whole array: row r, column h is the dot product of row r of X with row h of W, plus B's entry h. -/
def G0 (X : Vec Ideal S16384x1024 .f32) (W : Vec Ideal S768x1024 .bf16) (B : Vec Ideal S1x768 .f32) : Vec Ideal S16384x768 .bf16 :=
  fun j => (∑ d : Fin 1024, X (ix2 (j 0) d) * W (ix2 (j 1) d)) + B (ix2 0 (j 1))

/-- `G0` at row R, column h. -/
theorem G0_apply (X : Vec Ideal S16384x1024 .f32) (W : Vec Ideal S768x1024 .bf16) (B : Vec Ideal S1x768 .f32) (R : Fin 16384) (h : Fin 768) :
    G0 X W B (ix2 R h) = (∑ d : Fin 1024, X (ix2 R d) * W (ix2 h d)) + B (ix2 0 h) := rfl

/-- The block index maps over the grid: the row windows sit at block row t, the weight and the bias at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the block at point t is row 1024 t + r of the array. -/
def row0 (t : Fin cfg0.N) (r : Fin 1024) : Fin 16384 :=
  ⟨1024 * t.val + r.val, by have hN : cfg0.N = 16 := N_0; have := t.isLt; have := r.isLt; omega⟩

/-- Where an element of each window's block at point t sits in its array. -/
theorem emb0_0 (t : Fin cfg0.N) (r : Fin 1024) (d : Fin 1024) :
    ((cfg0.win 0).blk t).view.emb (ix2 r d) = (ix2 (row0 t r) d : S16384x1024.Idx) := by
  obtain ⟨e0, e1, -⟩ := idx_facts0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * d.val = d.val; omega
theorem emb0_1 (t : Fin cfg0.N) (h : Fin 768) (d : Fin 1024) :
    ((cfg0.win 1).blk t).view.emb (ix2 h d) = (ix2 h d : S768x1024.Idx) := by
  obtain ⟨-, -, e0, e1, -⟩ := idx_facts0 t
  funext a; apply Fin.ext
  match a with
  | ⟨0, _⟩ => show win0_1.index t (0 : Fin 2) * 768 + 1 * h.val = h.val; omega
  | ⟨1, _⟩ => show win0_1.index t (1 : Fin 2) * 1024 + 1 * d.val = d.val; omega
theorem emb0_2 (t : Fin cfg0.N) (z : Fin 1) (h : Fin 768) :
    ((cfg0.win 2).blk t).view.emb (ix2 z h) = (ix2 z h : S1x768.Idx) := by
  obtain ⟨-, -, -, -, e0, e1, -⟩ := idx_facts0 t
  funext a; apply Fin.ext
  match a with
  | ⟨0, _⟩ => show win0_2.index t (0 : Fin 2) * 1 + 1 * z.val = z.val; omega
  | ⟨1, _⟩ => show win0_2.index t (1 : Fin 2) * 768 + 1 * h.val = h.val; omega
theorem emb0_3 (t : Fin cfg0.N) (r : Fin 1024) (h : Fin 768) :
    ((cfg0.win 3).blk t).view.emb (ix2 r h) = (ix2 (row0 t r) h : S16384x768.Idx) := by
  obtain ⟨-, -, -, -, -, -, e0, e1⟩ := idx_facts0 t
  funext a; apply Fin.ext
  match a with
  | ⟨0, _⟩ => show win0_3.index t (0 : Fin 2) * 1024 + 1 * r.val = 1024 * t.val + r.val; omega
  | ⟨1, _⟩ => show win0_3.index t (1 : Fin 2) * 768 + 1 * h.val = h.val; omega

/-- Each input block at an index, read off its array. -/
theorem iblk0_0_apply (c : Dev nD) (t : Fin cfg0.N) (r : Fin 1024) (d : Fin 1024) :
    (iblk0 V c 0 t : Vec Ideal S1024x1024 .f32) (ix2 r d) = (V c (Pipeline.arrRef spec0 0) : Vec Ideal S16384x1024 .f32) (ix2 (row0 t r) d) := by
  show (V c (Pipeline.arrRef spec0 0) : Vec Ideal S16384x1024 .f32) (((cfg0.win 0).blk t).view.emb (ix2 r d)) = _
  exact congrArg _ (emb0_0 t r d)
theorem iblk0_1_apply (c : Dev nD) (t : Fin cfg0.N) (h : Fin 768) (d : Fin 1024) :
    (iblk0 V c 1 t : Vec Ideal S768x1024 .bf16) (ix2 h d) = (V c (Pipeline.arrRef spec0 1) : Vec Ideal S768x1024 .bf16) (ix2 h d) := by
  show (V c (Pipeline.arrRef spec0 1) : Vec Ideal S768x1024 .bf16) (((cfg0.win 1).blk t).view.emb (ix2 h d)) = _
  exact congrArg _ (emb0_1 t h d)
theorem iblk0_2_apply (c : Dev nD) (t : Fin cfg0.N) (z : Fin 1) (h : Fin 768) :
    (iblk0 V c 2 t : Vec Ideal S1x768 .f32) (ix2 z h) = (V c (Pipeline.arrRef spec0 2) : Vec Ideal S1x768 .f32) (ix2 z h) := by
  show (V c (Pipeline.arrRef spec0 2) : Vec Ideal S1x768 .f32) (((cfg0.win 2).blk t).view.emb (ix2 z h)) = _
  exact congrArg _ (emb0_2 t z h)

/-- What point t writes back is block t of `G0` of the arrays as the region finds them. -/
theorem flushed0_eq (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  funext y
  obtain ⟨r, h, rfl⟩ : ∃ (r : Fin 1024) (h : Fin 768), y = ix2 r h := ⟨y 0, y 1, eq_ix2 y⟩
  refine (out0_3_apply _ _ _ r h).trans ?_
  show _ = G0 _ _ _ (((cfg0.win 3).blk t).view.emb (ix2 r h))
  rw [emb0_3, G0_apply]
  simp only [iblk0_0_apply V, iblk0_1_apply V, iblk0_2_apply V]

/-- An index of the array is in point t's block iff each coordinate is in the block's range on its axis. -/
theorem mem_blk0 (t : Fin cfg0.N) (i : S16384x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v5).slice (win0_3.rect t)).set ↔ _
  rw [View.set_slice_whole, Rect.mem_set_unit]
  exact Iff.rfl

/-- Every index of the output array is in some point's block: row r in the block of point r / 1024. -/
theorem cover0 (i : S16384x768.Idx) : ∃ t : Fin cfg0.N, (cfg0.win 3).flush t = true ∧ i ∈ ((cfg0.win 3).blk t).view.set := by
  have h0 : (i 0).val < 16384 := (i 0).isLt
  have h1 : (i 1).val < 768 := (i 1).isLt
  have hN : cfg0.N = 16 := N_0
  let t : Fin cfg0.N := ⟨(i 0).val / 1024, by omega⟩
  obtain ⟨-, -, -, -, -, -, e0, e1⟩ := idx_facts0 t
  have q0 : win0_3.index t (0 : Fin 2) = (i 0).val / 1024 := e0
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 768 ≤ (i 1).val ∧ (i 1).val < win0_3.index t (1 : Fin 2) * 768 + 768; omega

/-- The output array after the region: `G0` of the input arrays as the region finds them. -/
theorem final0 (c : Dev nD) : (dat0 (F := Ideal) V c).arrAt 3 cfg0.N
    = G0 (V c (Pipeline.arrRef spec0 0)) (V c (Pipeline.arrRef spec0 1)) (V c (Pipeline.arrRef spec0 2)) :=
  (dat0 V c).arrAt_eq_of_cover 3 _ (fun t _ => flushed0_eq V c t) cover0

/-- The input arrays end as entered. -/
theorem kept0 (c : Dev nD) (w : Fin cfg0.W) (hw : w ≠ 3) : (dat0 (F := Ideal) V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, h => exact absurd rfl h
  exact ((dat0 V c).arrAt_in w hin cfg0.N).trans (A_eq0 V c w)

end Cert.KernelIdeal.Fr

end
-- ==== Proof.KI.Val1.lean ====
/- Region 1's output block at an index, at the ideal values: row r, column h of the projection is the dot product of the input row with the weight row, plus the bias. -/
import proofs.«125380_j79173427134694_2_alg».proof.Proof.KI.Reg1
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Fr

open Cert.KernelIdeal Cert.KernelIdeal.Gen
open Idealize.ShloMosaic Idealize.ShloMosaic.TcCoe Idealize.SL.Sem
open Idealize.ShloMosaic.ValueIdx

/-- The two zero offsets, however spelt. -/
theorem zeros2_1 : (![0, 0] : Fin 2 → Nat) = fun _ => 0 := funext fun a => by fin_cases a <;> rfl

theorem lhs1_c0 (i : S1024x768.Idx) (q : dot_S1024x768_S768x768_S1024x768_1_0_0_1_n_n.contr.Idx) : (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs1_c1 (i : S1024x768.Idx) (q : dot_S1024x768_S768x768_S1024x768_1_0_0_1_n_n.contr.Idx) : (dot_S1024x768_S768x768_S1024x768_1_0_0_1_n_n.lhsIdx i q 1).val = (q ⟨0, by decide⟩).val :=
  dot_S1024x768_S768x768_S1024x768_1_0_0_1_n_n.lhsIdx_val_of_single rfl i q
theorem rhs1_c0 (i : S1024x768.Idx) (q : dot_S1024x768_S768x768_S1024x768_1_0_0_1_n_n.contr.Idx) : (dot_S1024x768_S768x768_S1024x768_1_0_0_1_n_n.rhsIdx i q 0).val = (q ⟨0, by decide⟩).val :=
  dot_S1024x768_S768x768_S1024x768_1_0_0_1_n_n.rhsIdx_val_of_single rfl i q
theorem rhs1_c1 (i : S1024x768.Idx) (q : dot_S1024x768_S768x768_S1024x768_1_0_0_1_n_n.contr.Idx) : (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The matmul's left operand index at output (r, h) and contraction index d is (r, d). -/
theorem lhs1 (r : Fin 1024) (h : Fin 768) (d : Fin 768) :
    dot_S1024x768_S768x768_S1024x768_1_0_0_1_n_n.lhsIdx (ix2 r h) ((contrEquiv1 dot_S1024x768_S768x768_S1024x768_1_0_0_1_n_n 768 rfl rfl).symm d) = ix2 r d :=
  funext fun a => Fin.ext (by
    have hk := contrEquiv1_symm_val dot_S1024x768_S768x768_S1024x768_1_0_0_1_n_n 768 rfl rfl d
    match a with
    | ⟨0, _⟩ => exact lhs1_c0 _ _
    | ⟨1, _⟩ => exact (lhs1_c1 _ _).trans hk)

/-- The right operand index there is (d, h). -/
theorem rhs1 (r : Fin 1024) (h : Fin 768) (d : Fin 768) :
    dot_S1024x768_S768x768_S1024x768_1_0_0_1_n_n.rhsIdx (ix2 r h) ((contrEquiv1 dot_S1024x768_S768x768_S1024x768_1_0_0_1_n_n 768 rfl rfl).symm d) = ix2 d h :=
  funext fun a => Fin.ext (by
    have hk := contrEquiv1_symm_val dot_S1024x768_S768x768_S1024x768_1_0_0_1_n_n 768 rfl rfl d
    match a with
    | ⟨0, _⟩ => exact (rhs1_c0 _ _).trans hk
    | ⟨1, _⟩ => exact rhs1_c1 _ _)

/-- A matmul into the zero splat, of x against the transpose of w, at (r, h): the dot product of row r of x with row h of w. -/
theorem mm1_apply (x : FVec Ideal S1024x768 .bf16) (w : FVec Ideal S768x768 .bf16) (r : Fin 1024) (h : Fin 768) :
    matmul (F := Ideal) dot_S1024x768_S768x768_S1024x768_1_0_0_1_n_n none x (transpose S768x768 [1, 0] w transposes_S768x768_p1_0_S768x768) (constant (F := Ideal) S1024x768 .f32 0x00000000#32) (ix2 r h)
      = ∑ d : Fin 768, x (ix2 r d) * w (ix2 h d) := by
  refine (Ideal.matmul_constant_zero_apply dot_S1024x768_S768x768_S1024x768_1_0_0_1_n_n none x _ (ix2 r h)).trans ?_
  rw [← Equiv.sum_comp (contrEquiv1 dot_S1024x768_S768x768_S1024x768_1_0_0_1_n_n 768 rfl rfl).symm]
  refine Finset.sum_congr rfl fun d _ => ?_
  rw [lhs1, rhs1, transpose_ix2_apply]

/-- The bias row broadcast down the rows, at (r, h). -/
theorem bias1_apply (b : FVec Ideal S1x768 .f32) (r : Fin 1024) (h : Fin 768) :
    broadcastTo S1024x768 b broadcasts_S1x768_S1024x768 (ix2 r h) = b (ix2 0 h) :=
  broadcastTo_apply _ _ _ _ fun a => match a with
    | ⟨0, _⟩ => rfl
    | ⟨1, _⟩ => rfl

/-- The body's payload at (r, h): the sum over the contraction axis of input times transposed weight, plus the
    broadcast bias; the roundings are the identity at the ideal values. -/
theorem k1_pay1_apply (x : Vec Ideal S1024x768 .f32) (w : Vec Ideal S768x768 .bf16) (b : Vec Ideal S1x768 .f32) (r : Fin 1024) (h : Fin 768) :
    k1_pay1 (F := Ideal) x w b (ix2 r h) = (∑ d : Fin 768, x (ix2 r d) * w (ix2 h d)) + b (ix2 0 h) := by
  unfold k1_pay1
  rw [truncf_apply, addf_apply, shapeCast_self, shapeCast_self, shapeCast_self, mm1_apply, bias1_apply]
  rfl

/-- The output block at (r, h). -/
theorem out1_3_apply (x : Vec Ideal S1024x768 .f32) (w : Vec Ideal S768x768 .bf16) (b : Vec Ideal S1x768 .f32) (r : Fin 1024) (h : Fin 768) :
    out1_3 (F := Ideal) x w b (ix2 r h) = (∑ d : Fin 768, x (ix2 r d) * w (ix2 h d)) + b (ix2 0 h) := by
  unfold out1_3
  rw [View.canon_unit_zero (S := S1024x768) zeros2_1]
  simp only [View.ld_unit_zero (S := S1024x768) zeros2_1, View.ld_unit_zero (S := S768x768) zeros2_1, View.ld_unit_zero (S := S1x768) zeros2_1]
  exact k1_pay1_apply x w b r h

end Cert.KernelIdeal.Fr

end
-- ==== Proof.KI.Fin1.lean ====
/- Region 1 from blocks to the array, at the ideal values and at the entry contents `V`: the output array ends as ONE function of the three input arrays, row r column h the dot product of input row r with weight row h plus the bias; the input arrays end as entered. -/
import proofs.«125380_j79173427134694_2_alg».proof.Proof.KI.Reg1
import proofs.«125380_j79173427134694_2_alg».proof.Proof.KI.Val1
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The projection of the whole array: row r, column h is the dot product of row r of X with row h of W, plus B's entry h. -/
def G1 (X : Vec Ideal S16384x768 .f32) (W : Vec Ideal S768x768 .bf16) (B : Vec Ideal S1x768 .f32) : Vec Ideal S16384x768 .bf16 :=
  fun j => (∑ d : Fin 768, X (ix2 (j 0) d) * W (ix2 (j 1) d)) + B (ix2 0 (j 1))

/-- `G1` at row R, column h. -/
theorem G1_apply (X : Vec Ideal S16384x768 .f32) (W : Vec Ideal S768x768 .bf16) (B : Vec Ideal S1x768 .f32) (R : Fin 16384) (h : Fin 768) :
    G1 X W B (ix2 R h) = (∑ d : Fin 768, X (ix2 R d) * W (ix2 h d)) + B (ix2 0 h) := rfl

/-- The block index maps over the grid: the row windows sit at block row t, the weight and the bias at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the block at point t is row 1024 t + r of the array. -/
def row1 (t : Fin cfg1.N) (r : Fin 1024) : Fin 16384 :=
  ⟨1024 * t.val + r.val, by have hN : cfg1.N = 16 := N_1; have := t.isLt; have := r.isLt; omega⟩

/-- Where an element of each window's block at point t sits in its array. -/
theorem emb1_0 (t : Fin cfg1.N) (r : Fin 1024) (d : Fin 768) :
    ((cfg1.win 0).blk t).view.emb (ix2 r d) = (ix2 (row1 t r) d : S16384x768.Idx) := by
  obtain ⟨e0, e1, -⟩ := idx_facts1 t
  funext a; apply Fin.ext
  match a with
  | ⟨0, _⟩ => show win1_0.index t (0 : Fin 2) * 1024 + 1 * r.val = 1024 * t.val + r.val; omega
  | ⟨1, _⟩ => show win1_0.index t (1 : Fin 2) * 768 + 1 * d.val = d.val; omega
theorem emb1_1 (t : Fin cfg1.N) (h : Fin 768) (d : Fin 768) :
    ((cfg1.win 1).blk t).view.emb (ix2 h d) = (ix2 h d : S768x768.Idx) := by
  obtain ⟨-, -, e0, e1, -⟩ := idx_facts1 t
  funext a; apply Fin.ext
  match a with
  | ⟨0, _⟩ => show win1_1.index t (0 : Fin 2) * 768 + 1 * h.val = h.val; omega
  | ⟨1, _⟩ => show win1_1.index t (1 : Fin 2) * 768 + 1 * d.val = d.val; omega
theorem emb1_2 (t : Fin cfg1.N) (z : Fin 1) (h : Fin 768) :
    ((cfg1.win 2).blk t).view.emb (ix2 z h) = (ix2 z h : S1x768.Idx) := by
  obtain ⟨-, -, -, -, e0, e1, -⟩ := idx_facts1 t
  funext a; apply Fin.ext
  match a with
  | ⟨0, _⟩ => show win1_2.index t (0 : Fin 2) * 1 + 1 * z.val = z.val; omega
  | ⟨1, _⟩ => show win1_2.index t (1 : Fin 2) * 768 + 1 * h.val = h.val; omega
theorem emb1_3 (t : Fin cfg1.N) (r : Fin 1024) (h : Fin 768) :
    ((cfg1.win 3).blk t).view.emb (ix2 r h) = (ix2 (row1 t r) h : S16384x768.Idx) := by
  obtain ⟨-, -, -, -, -, -, e0, e1⟩ := idx_facts1 t
  funext a; apply Fin.ext
  match a with
  | ⟨0, _⟩ => show win1_3.index t (0 : Fin 2) * 1024 + 1 * r.val = 1024 * t.val + r.val; omega
  | ⟨1, _⟩ => show win1_3.index t (1 : Fin 2) * 768 + 1 * h.val = h.val; omega

/-- Each input block at an index, read off its array. -/
theorem iblk1_0_apply (c : Dev nD) (t : Fin cfg1.N) (r : Fin 1024) (d : Fin 768) :
    (iblk1 V c 0 t : Vec Ideal S1024x768 .f32) (ix2 r d) = (V c (Pipeline.arrRef spec1 0) : Vec Ideal S16384x768 .f32) (ix2 (row1 t r) d) := by
  show (V c (Pipeline.arrRef spec1 0) : Vec Ideal S16384x768 .f32) (((cfg1.win 0).blk t).view.emb (ix2 r d)) = _
  exact congrArg _ (emb1_0 t r d)
theorem iblk1_1_apply (c : Dev nD) (t : Fin cfg1.N) (h : Fin 768) (d : Fin 768) :
    (iblk1 V c 1 t : Vec Ideal S768x768 .bf16) (ix2 h d) = (V c (Pipeline.arrRef spec1 1) : Vec Ideal S768x768 .bf16) (ix2 h d) := by
  show (V c (Pipeline.arrRef spec1 1) : Vec Ideal S768x768 .bf16) (((cfg1.win 1).blk t).view.emb (ix2 h d)) = _
  exact congrArg _ (emb1_1 t h d)
theorem iblk1_2_apply (c : Dev nD) (t : Fin cfg1.N) (z : Fin 1) (h : Fin 768) :
    (iblk1 V c 2 t : Vec Ideal S1x768 .f32) (ix2 z h) = (V c (Pipeline.arrRef spec1 2) : Vec Ideal S1x768 .f32) (ix2 z h) := by
  show (V c (Pipeline.arrRef spec1 2) : Vec Ideal S1x768 .f32) (((cfg1.win 2).blk t).view.emb (ix2 z h)) = _
  exact congrArg _ (emb1_2 t z h)

/-- What point t writes back is block t of `G1` of the arrays as the region finds them. -/
theorem flushed1_eq (c : Dev nD) (t : Fin cfg1.N) :
    (dat1 V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 V c).after 3 t) = _
  rw [after1_3]
  funext y
  obtain ⟨r, h, rfl⟩ : ∃ (r : Fin 1024) (h : Fin 768), y = ix2 r h := ⟨y 0, y 1, eq_ix2 y⟩
  refine (out1_3_apply _ _ _ r h).trans ?_
  show _ = G1 _ _ _ (((cfg1.win 3).blk t).view.emb (ix2 r h))
  rw [emb1_3, G1_apply]
  simp only [iblk1_0_apply V, iblk1_1_apply V, iblk1_2_apply V]

/-- An index of the array is in point t's block iff each coordinate is in the block's range on its axis. -/
theorem mem_blk1 (t : Fin cfg1.N) (i : S16384x768.Idx) :
    i ∈ ((cfg1.win 3).blk t).view.set ↔ ∀ a : Fin 2, win1_3.index t a * S1024x768.size a ≤ (i a).val ∧ (i a).val < win1_3.index t a * S1024x768.size a + S1024x768.size a := by
  show i ∈ ((View.whole main_v7).slice (win1_3.rect t)).set ↔ _
  rw [View.set_slice_whole, Rect.mem_set_unit]
  exact Iff.rfl

/-- Every index of the output array is in some point's block: row r in the block of point r / 1024. -/
theorem cover1 (i : S16384x768.Idx) : ∃ t : Fin cfg1.N, (cfg1.win 3).flush t = true ∧ i ∈ ((cfg1.win 3).blk t).view.set := by
  have h0 : (i 0).val < 16384 := (i 0).isLt
  have h1 : (i 1).val < 768 := (i 1).isLt
  have hN : cfg1.N = 16 := N_1
  let t : Fin cfg1.N := ⟨(i 0).val / 1024, by omega⟩
  obtain ⟨-, -, -, -, -, -, e0, e1⟩ := idx_facts1 t
  have q0 : win1_3.index t (0 : Fin 2) = (i 0).val / 1024 := e0
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 768 ≤ (i 1).val ∧ (i 1).val < win1_3.index t (1 : Fin 2) * 768 + 768; omega

/-- The output array after the region: `G1` of the input arrays as the region finds them. -/
theorem final1 (c : Dev nD) : (dat1 (F := Ideal) V c).arrAt 3 cfg1.N
    = G1 (V c (Pipeline.arrRef spec1 0)) (V c (Pipeline.arrRef spec1 1)) (V c (Pipeline.arrRef spec1 2)) :=
  (dat1 V c).arrAt_eq_of_cover 3 _ (fun t _ => flushed1_eq V c t) cover1

/-- The input arrays end as entered. -/
theorem kept1 (c : Dev nD) (w : Fin cfg1.W) (hw : w ≠ 3) : (dat1 (F := Ideal) V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, h => exact absurd rfl h
  exact ((dat1 V c).arrAt_in w hin cfg1.N).trans (A_eq1 V c w)

end Cert.KernelIdeal.Fr

end
-- ==== Proof.KI.Spec.lean ====
/-
  The mathematics both programs compute, index by index, over the extended reals; every array is read through its
  coordinates, so nothing here depends on how a program lays an array out.

  Two affine layers give a[b,n,h] = (sum over d of x0[b,n,d] * w2[h,d]) + b3[h] and t[b,m,h] likewise from x1, w4, b5.
  The scores are s[b,n,m] = sum over h of a[b,n,h] * t[b,m,h]. The weights are a softmax of the scores ALONG THE BATCH
  axis b (extent 8), separately for every pair (n, m): with M[n,m] the maximum over b of s[b,n,m] started from the
  word of minus infinity, w[b,n,m] = exp (s[b,n,m] - M[n,m]) / sum over b' of exp (s[b',n,m] - M[n,m]).
  Two attended sums follow, u[b,m,h] = sum over n of w[b,n,m] * a[b,n,h] and v[b,n,d] = sum over m of w[b,n,m] * x1[b,m,d],
  and the output is o[b,l,h] = (sum over k < 768 of u[b,l,k] * w6[h,k]) + (sum over k < 768 of v[b,l,k] * w6[h,768+k]) + b7[h].
  The second returned array is the first with its last two axes exchanged.
-/
import Idealize.ShloMosaic.PureOps.Ideal.Laws

noncomputable section

namespace Cert.Spec

open Idealize.ShloMosaic

/-- The maximum over the batch axis of the scores at (n, m), started from the word of minus infinity. -/
def colMax {ι κ : Type} (s : Fin 8 → ι → κ → EReal) (n : ι) (m : κ) : EReal :=
  (Finset.univ : Finset (Fin 8)).fold max (Ideal.ofBits .f32 0xFF800000#32) (fun b' => s b' n m)

/-- The exponential of a score shifted by its column's maximum. -/
def expShift {ι κ : Type} (s : Fin 8 → ι → κ → EReal) (b : Fin 8) (n : ι) (m : κ) : EReal :=
  Ideal.exp (s b n m - colMax s n m)

/-- The softmax weight along the batch axis. -/
def weight {ι κ : Type} (s : Fin 8 → ι → κ → EReal) (b : Fin 8) (n : ι) (m : κ) : EReal :=
  Ideal.div (expShift s b n m) (∑ b' : Fin 8, expShift s b' n m)

/-- The weight at (b, n, m) depends on the scores only through the column (·, n, m). -/
theorem weight_congr {ι κ ι' κ' : Type} (s : Fin 8 → ι → κ → EReal) (s' : Fin 8 → ι' → κ' → EReal) (n : ι) (m : κ) (n' : ι') (m' : κ')
    (h : ∀ b', s b' n m = s' b' n' m') (b : Fin 8) : weight s b n m = weight s' b n' m' := by
  have hf : (fun b' => s b' n m) = fun b' => s' b' n' m' := funext h
  have hM : colMax s n m = colMax s' n' m' := by unfold colMax; rw [hf]
  have hE : ∀ b', expShift s b' n m = expShift s' b' n' m' := fun b' => by unfold expShift; rw [h b', hM]
  unfold weight; rw [hE b, Finset.sum_congr rfl fun b' _ => hE b']

/-- Exchanging the two row axes of the scores exchanges them in the weights. -/
theorem weight_swap {ι κ : Type} (s : Fin 8 → ι → κ → EReal) (b : Fin 8) (n : ι) (m : κ) :
    weight (fun b' m' n' => s b' n' m') b m n = weight s b n m :=
  weight_congr _ _ m n n m (fun _ => rfl) b

/-- a[b,n,h] from the first input. -/
def amrT (x0 : Fin 8 → Fin 2048 → Fin 1024 → EReal) (w2 : Fin 768 → Fin 1024 → EReal) (b3 : Fin 768 → EReal)
    (b : Fin 8) (n : Fin 2048) (h : Fin 768) : EReal :=
  (∑ d : Fin 1024, x0 b n d * w2 h d) + b3 h

/-- t[b,m,h] from the second input. -/
def textT (x1 : Fin 8 → Fin 2048 → Fin 768 → EReal) (w4 : Fin 768 → Fin 768 → EReal) (b5 : Fin 768 → EReal)
    (b : Fin 8) (m : Fin 2048) (h : Fin 768) : EReal :=
  (∑ d : Fin 768, x1 b m d * w4 h d) + b5 h

/-- The scores. -/
def score (a t : Fin 8 → Fin 2048 → Fin 768 → EReal) (b : Fin 8) (n m : Fin 2048) : EReal := ∑ h : Fin 768, a b n h * t b m h

/-- The first attended sum, over the first row axis. -/
def attA (w : Fin 8 → Fin 2048 → Fin 2048 → EReal) (a : Fin 8 → Fin 2048 → Fin 768 → EReal) (b : Fin 8) (m : Fin 2048) (h : Fin 768) : EReal :=
  ∑ n : Fin 2048, w b n m * a b n h

/-- The second attended sum, over the second row axis. -/
def attT (w : Fin 8 → Fin 2048 → Fin 2048 → EReal) (x1 : Fin 8 → Fin 2048 → Fin 768 → EReal) (b : Fin 8) (n : Fin 2048) (d : Fin 768) : EReal :=
  ∑ m : Fin 2048, w b n m * x1 b m d

/-- The left and the right half of the output layer's 1536 columns. -/
def colL (k : Fin 768) : Fin 1536 := ⟨k.val, by have := k.isLt; omega⟩
def colR (k : Fin 768) : Fin 1536 := ⟨768 + k.val, by have := k.isLt; omega⟩

/-- The output layer over the two attended sums, the weight matrix read in its two column halves. -/
def outO (u v : Fin 8 → Fin 2048 → Fin 768 → EReal) (w6 : Fin 768 → Fin 1536 → EReal) (b7 : Fin 768 → EReal)
    (b : Fin 8) (l : Fin 2048) (h : Fin 768) : EReal :=
  (∑ k : Fin 768, u b l k * w6 h (colL k)) + (∑ k : Fin 768, v b l k * w6 h (colR k)) + b7 h

/-- The weights as a function of the first six argument arrays. -/
def W (x0 : Fin 8 → Fin 2048 → Fin 1024 → EReal) (x1 : Fin 8 → Fin 2048 → Fin 768 → EReal) (w2 : Fin 768 → Fin 1024 → EReal)
    (b3 : Fin 768 → EReal) (w4 : Fin 768 → Fin 768 → EReal) (b5 : Fin 768 → EReal) : Fin 8 → Fin 2048 → Fin 2048 → EReal :=
  weight (score (amrT x0 w2 b3) (textT x1 w4 b5))

/-- The output as a function of the eight argument arrays. -/
def O (x0 : Fin 8 → Fin 2048 → Fin 1024 → EReal) (x1 : Fin 8 → Fin 2048 → Fin 768 → EReal) (w2 : Fin 768 → Fin 1024 → EReal)
    (b3 : Fin 768 → EReal) (w4 : Fin 768 → Fin 768 → EReal) (b5 : Fin 768 → EReal) (w6 : Fin 768 → Fin 1536 → EReal) (b7 : Fin 768 → EReal) :
    Fin 8 → Fin 2048 → Fin 768 → EReal :=
  outO (attA (W x0 x1 w2 b3 w4 b5) (amrT x0 w2 b3)) (attT (W x0 x1 w2 b3 w4 b5) x1) w6 b7

end Cert.Spec

end
-- ==== Proof.KI.Val2.lean ====
/- The values region 2's body leaves in its three output buffers, read at an index at the ideal (extended-real)
   instance: from the two loaded [8, 256, 768] blocks the body forms the pairwise scores
   `s b n m = ∑ h, x0 (b, n, h) * x1 (b, m, h)`, and stores their softmax over the BATCH axis `b` — each score's
   exponential, shifted by the largest score of its column `(n, m)`, over the sum of the shifted exponentials along
   `b` — three times: as f32, with the last two axes exchanged, and narrowed to bf16 (the identity here). The
   specification `weight` is one explicit function of the scores. -/
import proofs.«125380_j79173427134694_2_alg».proof.Proof.KI.Reg2
import proofs.«125380_j79173427134694_2_alg».proof.Proof.KI.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Fr
open Idealize.ShloMosaic Idealize.ShloMosaic.ValueIdx
open Cert.Spec (colMax expShift weight weight_congr)

/-! ## The scores of the two loaded blocks

The softmax over the batch axis — `colMax`, `expShift`, `weight` — is the shared specification's, stated over
arbitrary row and column index types; here it is read at a block's 256 rows and 256 columns. -/

/-- The score of batch entry `b` at `(n, m)`: the two blocks' rows contracted over the 768 features. -/
def score (x0 x1 : Vec Ideal S8x256x768 .bf16) (b : Fin 8) (n m : Fin 256) : EReal :=
  ∑ h : Fin 768, x0 (ix3 b n h) * x1 (ix3 b m h)

/-! ## The contraction read at an index -/

theorem lhsD_0 (i : S8x256x256.Idx) (q : (dot_S8x256x768_S8x256x768_S8x256x256_2_2_1_1_0_0).contr.Idx) :
    ((dot_S8x256x768_S8x256x768_S8x256x256_2_2_1_1_0_0).lhsIdx i q 0).val = (i 0).val := by
  unfold DotDims.lhsIdx
  rw [dif_pos (show (0 : Fin S8x256x768.rank) ∈ (dot_S8x256x768_S8x256x768_S8x256x256_2_2_1_1_0_0).lhsBatch by decide)]
  rfl
theorem lhsD_1 (i : S8x256x256.Idx) (q : (dot_S8x256x768_S8x256x768_S8x256x256_2_2_1_1_0_0).contr.Idx) :
    ((dot_S8x256x768_S8x256x768_S8x256x256_2_2_1_1_0_0).lhsIdx i q 1).val = (i 1).val := by
  unfold DotDims.lhsIdx
  rw [dif_neg (show ¬(1 : Fin S8x256x768.rank) ∈ (dot_S8x256x768_S8x256x768_S8x256x256_2_2_1_1_0_0).lhsBatch by decide), dif_pos (show (1 : Fin S8x256x768.rank) ∈ (dot_S8x256x768_S8x256x768_S8x256x256_2_2_1_1_0_0).lhsNonContracting by decide)]
  rfl
theorem lhsD_2 (i : S8x256x256.Idx) (q : (dot_S8x256x768_S8x256x768_S8x256x256_2_2_1_1_0_0).contr.Idx) :
    ((dot_S8x256x768_S8x256x768_S8x256x256_2_2_1_1_0_0).lhsIdx i q 2).val = (q ⟨0, by decide⟩).val :=
  (dot_S8x256x768_S8x256x768_S8x256x256_2_2_1_1_0_0).lhsIdx_val_of_single rfl i q
theorem rhsD_0 (i : S8x256x256.Idx) (q : (dot_S8x256x768_S8x256x768_S8x256x256_2_2_1_1_0_0).contr.Idx) :
    ((dot_S8x256x768_S8x256x768_S8x256x256_2_2_1_1_0_0).rhsIdx i q 0).val = (i 0).val := by
  unfold DotDims.rhsIdx
  rw [dif_pos (show (0 : Fin S8x256x768.rank) ∈ (dot_S8x256x768_S8x256x768_S8x256x256_2_2_1_1_0_0).rhsBatch by decide)]
  rfl
theorem rhsD_1 (i : S8x256x256.Idx) (q : (dot_S8x256x768_S8x256x768_S8x256x256_2_2_1_1_0_0).contr.Idx) :
    ((dot_S8x256x768_S8x256x768_S8x256x256_2_2_1_1_0_0).rhsIdx i q 1).val = (i 2).val := by
  unfold DotDims.rhsIdx
  rw [dif_neg (show ¬(1 : Fin S8x256x768.rank) ∈ (dot_S8x256x768_S8x256x768_S8x256x256_2_2_1_1_0_0).rhsBatch by decide), dif_pos (show (1 : Fin S8x256x768.rank) ∈ (dot_S8x256x768_S8x256x768_S8x256x256_2_2_1_1_0_0).rhsNonContracting by decide)]
  rfl
theorem rhsD_2 (i : S8x256x256.Idx) (q : (dot_S8x256x768_S8x256x768_S8x256x256_2_2_1_1_0_0).contr.Idx) :
    ((dot_S8x256x768_S8x256x768_S8x256x256_2_2_1_1_0_0).rhsIdx i q 2).val = (q ⟨0, by decide⟩).val :=
  (dot_S8x256x768_S8x256x768_S8x256x256_2_2_1_1_0_0).rhsIdx_val_of_single rfl i q

/-- The batched contraction onto the zero splat, read at `(b, n, m)`: the sum over the features of the left
    operand's row `n` times the right operand's row `m`, both of batch entry `b`. -/
theorem matmul_at (v1 v3 : FVec Ideal S8x256x768 .bf16) (b : Fin 8) (n m : Fin 256) :
    matmul dot_S8x256x768_S8x256x768_S8x256x256_2_2_1_1_0_0 none v1 v3 (constant S8x256x256 .f32 0x00000000#32) (ix3 b n m)
      = ∑ h : Fin 768, v1 (ix3 b n h) * v3 (ix3 b m h) := by
  simp only [matmul]
  rw [Ideal.matmul_constant_zero_apply, ← Equiv.sum_comp (ValueIdx.contrEquiv1 dot_S8x256x768_S8x256x768_S8x256x256_2_2_1_1_0_0 768 rfl rfl).symm]
  refine Finset.sum_congr rfl fun k _ => ?_
  have hk := ValueIdx.contrEquiv1_symm_val dot_S8x256x768_S8x256x768_S8x256x256_2_2_1_1_0_0 768 rfl rfl k
  have el : (dot_S8x256x768_S8x256x768_S8x256x256_2_2_1_1_0_0).lhsIdx (ix3 b n m) ((ValueIdx.contrEquiv1 dot_S8x256x768_S8x256x768_S8x256x256_2_2_1_1_0_0 768 rfl rfl).symm k) = ix3 b n k := funext fun a => Fin.ext (by
    match a with
    | ⟨0, _⟩ => exact lhsD_0 _ _
    | ⟨1, _⟩ => exact lhsD_1 _ _
    | ⟨2, _⟩ => exact (lhsD_2 _ _).trans hk)
  have er : (dot_S8x256x768_S8x256x768_S8x256x256_2_2_1_1_0_0).rhsIdx (ix3 b n m) ((ValueIdx.contrEquiv1 dot_S8x256x768_S8x256x768_S8x256x256_2_2_1_1_0_0 768 rfl rfl).symm k) = ix3 b m k := funext fun a => Fin.ext (by
    match a with
    | ⟨0, _⟩ => exact rhsD_0 _ _
    | ⟨1, _⟩ => exact rhsD_1 _ _
    | ⟨2, _⟩ => exact (rhsD_2 _ _).trans hk)
  rw [el, er]

/-! ## The two reductions over the batch axis and the broadcast back, read at an index -/

/-- The index over `(n, m)` with batch coordinate `k` inserted is `(k, n, m)`. -/
theorem lift_at (hred : S8x256x256.Reduces [0] S256x256) (n m : Fin 256) (k : Fin 8) :
    hred.lift (ix2 n m) k = ix3 k n m :=
  funext fun a => Fin.ext (by match a with | ⟨0, _⟩ => rfl | ⟨1, _⟩ => rfl | ⟨2, _⟩ => rfl)

/-- The maximum over the batch axis at `(n, m)`: the fold of `max` from the accumulator's word over the eight
    batch entries. -/
theorem maxred_at (v4 : FVec Ideal S8x256x256 .f32) (hred : S8x256x256.Reduces [0] S256x256) (n m : Fin 256) :
    multiReduction .maximumf [0] S256x256 v4 0xFF800000#32 hred (.inl rfl) rfl (ix2 n m)
      = (Finset.univ : Finset (Fin 8)).fold max (Ideal.ofBits .f32 0xFF800000#32) (fun b' => v4 (ix3 b' n m)) := by
  refine (Ideal.multiReduction_maximumf_single v4 0xFF800000#32 hred (.inl rfl) rfl (ix2 n m)).trans ?_
  have e : (v4 ∘ hred.lift (ix2 n m)) = fun b' : Fin 8 => v4 (ix3 b' n m) :=
    funext fun k => congrArg v4 (lift_at hred n m k)
  rw [e]
  rfl

/-- The sum over the batch axis at `(n, m)`: the sum over the eight batch entries. -/
theorem sumred_at (v9 : FVec Ideal S8x256x256 .f32) (hred : S8x256x256.Reduces [0] S256x256) (n m : Fin 256) :
    multiReduction .add [0] S256x256 v9 0x00000000#32 hred (.inl rfl) rfl (ix2 n m) = ∑ b' : Fin 8, v9 (ix3 b' n m) := by
  refine (Ideal.multiReduction_add_single v9 0x00000000#32 hred (.inl rfl) rfl (ix2 n m)).trans ?_
  exact Finset.sum_congr rfl fun k _ => congrArg v9 (lift_at hred n m k)

/-- A `[256, 256]` value given a leading unit axis and repeated along the batch axis reads, at `(b, n, m)`, the
    value at `(n, m)`. -/
theorem bcast_at (v5 : FVec Ideal S256x256 .f32) (hc : S256x256.ShapeCasts S1x256x256) (hb : S1x256x256.Broadcasts S8x256x256)
    (b : Fin 8) (n m : Fin 256) :
    broadcastTo S8x256x256 (shapeCast S1x256x256 v5 hc) hb (ix3 b n m) = v5 (ix2 n m) := by
  refine (broadcastTo_apply _ hb (ix3 b n m) (ix3 (0 : Fin 1) n m) (fun a => ?_)).trans (shapeCast_ab_1ab_apply v5 hc 0 n m)
  match a with
  | ⟨0, _⟩ => rfl
  | ⟨1, _⟩ => rfl
  | ⟨2, _⟩ => rfl

/-- The exponential of a vector at an index. -/
theorem exp_at {s : Shape} {φ : FTy} (x : FVec Ideal s φ) (i : s.Idx) : exp x i = Ideal.exp (x i) := rfl

/-- The normalized exponentials of a `[8, 256, 256]` value along its batch axis, as the body computes them, read
    at `(b, n, m)`: the weight of the value's entries. -/
theorem softmax_at (v4 : FVec Ideal S8x256x256 .f32) (hred : S8x256x256.Reduces [0] S256x256)
    (hc : S256x256.ShapeCasts S1x256x256) (hb : S1x256x256.Broadcasts S8x256x256) (b : Fin 8) (n m : Fin 256) :
    divf (exp (subf v4 (broadcastTo S8x256x256 (shapeCast S1x256x256 (multiReduction .maximumf [0] S256x256 v4 0xFF800000#32 hred (.inl rfl) rfl) hc) hb)))
      (broadcastTo S8x256x256 (shapeCast S1x256x256 (multiReduction .add [0] S256x256
        (exp (subf v4 (broadcastTo S8x256x256 (shapeCast S1x256x256 (multiReduction .maximumf [0] S256x256 v4 0xFF800000#32 hred (.inl rfl) rfl) hc) hb)))
        0x00000000#32 hred (.inl rfl) rfl) hc) hb) (ix3 b n m)
      = weight (fun b n m => v4 (ix3 b n m)) b n m := by
  rw [divf_apply, exp_at, subf_apply, bcast_at, maxred_at, bcast_at, sumred_at]
  unfold weight expShift colMax
  refine congrArg (Ideal.div _) (Finset.sum_congr rfl fun b' _ => ?_)
  rw [exp_at, subf_apply, bcast_at, maxred_at]

/-! ## The three stored values at an index -/

theorem hz3 : (![0, 0, 0] : Fin 3 → Nat) = fun _ => 0 :=
  funext fun a => by match a with | ⟨0, _⟩ => rfl | ⟨1, _⟩ => rfl | ⟨2, _⟩ => rfl

/-- The weights the body computes from its two loaded blocks, at `(b, n, m)`: the weight of the blocks' scores. -/
theorem pay1_at (x0 x1 : Vec Ideal S8x256x768 .bf16) (b : Fin 8) (n m : Fin 256) :
    k2_pay1 x0 x1 (ix3 b n m) = weight (score x0 x1) b n m := by
  unfold k2_pay1
  rw [shapeCast_self, shapeCast_self]
  refine (softmax_at _ _ _ _ b n m).trans ?_
  refine congrArg (fun s => weight s b n m) ?_
  funext b' n' m'
  exact matmul_at x0 x1 b' n' m'

/-- Output window 2 (the weights as f32) at `(b, n, m)`. -/
theorem out2_2_at (x0 x1 : Vec Ideal S8x256x768 .bf16) (b : Fin 8) (n m : Fin 256) :
    out2_2 x0 x1 (ix3 b n m) = weight (score x0 x1) b n m := by
  unfold out2_2
  rw [View.canon_unit_zero hz3]
  simp only [View.ld_unit_zero (S := S8x256x768) hz3]
  exact pay1_at x0 x1 b n m

/-- Output window 3 is window 2 with the last two axes exchanged. -/
theorem out2_3_at (x0 x1 : Vec Ideal S8x256x768 .bf16) (b : Fin 8) (n m : Fin 256) :
    out2_3 x0 x1 (ix3 b m n) = out2_2 x0 x1 (ix3 b n m) := by
  unfold out2_3 out2_2
  rw [View.canon_unit_zero hz3, View.canon_unit_zero hz3]
  unfold k2_pay2
  exact transpose_ix3_021_apply _ _ b m n

/-- Output window 4 (the weights narrowed to bf16) is window 2 as extended reals: narrowing is the identity there. -/
theorem out2_4_at (x0 x1 : Vec Ideal S8x256x768 .bf16) (b : Fin 8) (n m : Fin 256) :
    (out2_4 x0 x1 (ix3 b n m) : EReal) = (out2_2 x0 x1 (ix3 b n m) : EReal) := by
  unfold out2_4 out2_2
  rw [View.canon_unit_zero hz3, View.canon_unit_zero hz3]
  rfl

/-- The sum of the shifted exponentials with the zero word in front, as a sum from an initial value reads. -/
theorem weight_eq_zero_add {ι κ : Type} (s : Fin 8 → ι → κ → EReal) (b : Fin 8) (n : ι) (m : κ) :
    weight s b n m = Ideal.div (expShift s b n m) (Ideal.ofBits .f32 0x00000000#32 + ∑ b' : Fin 8, expShift s b' n m) := by
  rw [Ideal.ofBits_zero_f32, zero_add]
  rfl

end Cert.KernelIdeal.Val

end
-- ==== Proof.KI.Fin2.lean ====
/- From blocks to the arrays, for region 2 at the ideal (extended-real) instance and at a parameter `V` (the buffer
   contents when the region is entered): each of the region's three output arrays, after all 64 points of the 8 × 8
   grid have written their blocks back, is ONE function of the two input arrays as the region finds them — the softmax
   over the batch axis of the arrays' pairwise scores (`Gw`), the same with rows and columns exchanged (`GwT`), and
   the same extended reals as the contents of a bf16 array (`GwB`) — and the two input arrays are as found.
   Point `t` is `(t / 8, t % 8)`: it loads row block `t / 8` of the first array and row block `t % 8` of the second, and
   its blocks tile the output arrays. -/
import proofs.«125380_j79173427134694_2_alg».proof.Proof.KI.Reg2
import proofs.«125380_j79173427134694_2_alg».proof.Proof.KI.Val2
import Idealize.ShloMosaic.Lib.Pipeline.Value

noncomputable section

namespace Cert.KernelIdeal.Arr

open Cert.KernelIdeal Cert.KernelIdeal.Gen Cert.KernelIdeal.Fr Cert.KernelIdeal.Val
open Idealize.ShloMosaic Idealize.ShloMosaic.TcCoe Idealize.SL.Sem Idealize.ShloMosaic.ValueIdx
open Idealize.ShloMosaic.Pipeline (Dat)
open Cert.Spec (colMax expShift weight weight_congr)

-- the TensorCore's buffer contents when the region is entered
variable (V : (c : Dev nD) → (b : Ref sig .tc) → Buf (Elt Ideal) ((c : Thread nD τ).loc b))

/-! ## The specification at the whole arrays' extents -/

/-- The score of batch entry `b` at rows `n` of the first array and `m` of the second: their rows contracted over
    the 768 features. -/
def scoreArr (A T : S8x2048x768.Idx → Elt Ideal .bf16) (b : Fin 8) (n m : Fin 2048) : EReal :=
  ∑ h : Fin 768, A (ix3 b n h) * T (ix3 b m h)

/-- The weights over the whole `[8, 2048, 2048]` array: the softmax over the batch axis of the arrays' scores. -/
def Gw (A T : S8x2048x768.Idx → Elt Ideal .bf16) : S8x2048x2048.Idx → Elt Ideal .f32 :=
  fun j => weight (scoreArr A T) (j 0) (j 1) (j 2)

theorem Gw_ix3 (A T : S8x2048x768.Idx → Elt Ideal .bf16) (b : Fin 8) (n m : Fin 2048) :
    Gw A T (ix3 b n m) = weight (scoreArr A T) b n m := rfl

/-- The same extended reals as the contents of a bf16 array. -/
def GwB (A T : S8x2048x768.Idx → Elt Ideal .bf16) : S8x2048x2048.Idx → Elt Ideal .bf16 :=
  fun j => weight (scoreArr A T) (j 0) (j 1) (j 2)

/-! ## The index maps over the grid -/

/-- Point `t` of the 8 × 8 grid is `(t / 8, t % 8)`; the first input's block follows the outer coordinate, the
    second's the inner one, outputs 2 and 4 sit at `(t / 8, t % 8)` and output 3 at `(t % 8, t / 8)`. -/
theorem idx_facts2 : ∀ t : Fin cfg2.N,
    win2_0.index t (0 : Fin 3) = 0 ∧ win2_0.index t (1 : Fin 3) = t.val / 8 ∧ win2_0.index t (2 : Fin 3) = 0
    ∧ win2_1.index t (0 : Fin 3) = 0 ∧ win2_1.index t (1 : Fin 3) = t.val % 8 ∧ win2_1.index t (2 : Fin 3) = 0
    ∧ win2_2.index t (0 : Fin 3) = 0 ∧ win2_2.index t (1 : Fin 3) = t.val / 8 ∧ win2_2.index t (2 : Fin 3) = t.val % 8
    ∧ win2_3.index t (0 : Fin 3) = 0 ∧ win2_3.index t (1 : Fin 3) = t.val % 8 ∧ win2_3.index t (2 : Fin 3) = t.val / 8
    ∧ win2_4.index t (0 : Fin 3) = 0 ∧ win2_4.index t (1 : Fin 3) = t.val / 8 ∧ win2_4.index t (2 : Fin 3) = t.val % 8 :=
  (by decide +kernel : ∀ t : Fin grid2.N, _)

/-! ## One point's stored blocks as blocks of the whole-array functions -/

/-- Window 2 at one point: if the two loaded blocks are row blocks `p` and `q` of the arrays, the stored weights at
    `(b, n, m)` are the whole-array weights at rows `p·256 + n` and columns `q·256 + m`. -/
theorem point2_2 (A T : S8x2048x768.Idx → Elt Ideal .bf16) (x0 x1 : Vec Ideal S8x256x768 .bf16) (p q : Nat) (hp : p < 8) (hq : q < 8)
    (h0 : ∀ (b : Fin 8) (r : Fin 256) (h : Fin 768), x0 (ix3 b r h) = A (ix3 b ⟨p * 256 + r.val, by have := r.isLt; omega⟩ h))
    (h1 : ∀ (b : Fin 8) (r : Fin 256) (h : Fin 768), x1 (ix3 b r h) = T (ix3 b ⟨q * 256 + r.val, by have := r.isLt; omega⟩ h))
    (b : Fin 8) (n m : Fin 256) :
    out2_2 x0 x1 (ix3 b n m)
      = Gw A T (ix3 b ⟨p * 256 + n.val, by have := n.isLt; omega⟩ ⟨q * 256 + m.val, by have := m.isLt; omega⟩) := by
  rw [out2_2_at, Gw_ix3]
  refine weight_congr _ _ n m _ _ (fun b' => ?_) b
  unfold score scoreArr
  exact Finset.sum_congr rfl fun h _ => by rw [h0, h1]

/-- The grid has 64 points. -/
theorem lt64 (t : Fin cfg2.N) : t.val < 64 := Nat.lt_of_lt_of_eq t.isLt N_2

/-- Window 2 at one point, at any index of the block. -/
theorem point2_2' (A T : S8x2048x768.Idx → Elt Ideal .bf16) (x0 x1 : Vec Ideal S8x256x768 .bf16) (p q : Nat) (hp : p < 8) (hq : q < 8)
    (h0 : ∀ (b : Fin 8) (r : Fin 256) (h : Fin 768), x0 (ix3 b r h) = A (ix3 b ⟨p * 256 + r.val, by have := r.isLt; omega⟩ h))
    (h1 : ∀ (b : Fin 8) (r : Fin 256) (h : Fin 768), x1 (ix3 b r h) = T (ix3 b ⟨q * 256 + r.val, by have := r.isLt; omega⟩ h))
    (y : S8x256x256.Idx) (k : S8x2048x2048.Idx)
    (k0 : (k 0).val = (y 0).val) (k1 : (k 1).val = p * 256 + (y 1).val) (k2 : (k 2).val = q * 256 + (y 2).val) :
    out2_2 x0 x1 y = Gw A T k := by
  obtain ⟨b, n, m, rfl⟩ : ∃ (b : Fin 8) (n m : Fin 256), y = ix3 b n m := ⟨y 0, y 1, y 2, eq_ix3 y⟩
  rw [point2_2 A T x0 x1 p q hp hq h0 h1 b n m]
  refine congrArg (Gw A T) (funext fun a => Fin.ext ?_)
  match a with
  | ⟨0, _⟩ => exact k0.symm
  | ⟨1, _⟩ => exact k1.symm
  | ⟨2, _⟩ => exact k2.symm

/-- The first input's block at point `t` is row block `t / 8` of its array. -/
theorem iblk2_0_at (c : Dev nD) (t : Fin cfg2.N) (b : Fin 8) (r : Fin 256) (h : Fin 768) :
    (iblk2 V c 0 t : Vec Ideal S8x256x768 .bf16) (ix3 b r h)
      = (V c (Pipeline.arrRef spec2 0) : S8x2048x768.Idx → Elt Ideal .bf16)
          (ix3 b ⟨t.val / 8 * 256 + r.val, by have := r.isLt; have := lt64 t; omega⟩ h) := by
  obtain ⟨a0, a1, a2, -⟩ := idx_facts2 t
  unfold iblk2
  rw [View.read_apply]
  refine congrArg (V c (Pipeline.arrRef spec2 0)) (funext fun a => Fin.ext ?_)
  match a with
  | ⟨0, _⟩ => show win2_0.index t (0 : Fin 3) * 8 + 1 * b.val = b.val; omega
  | ⟨1, _⟩ => show win2_0.index t (1 : Fin 3) * 256 + 1 * r.val = t.val / 8 * 256 + r.val; omega
  | ⟨2, _⟩ => show win2_0.index t (2 : Fin 3) * 768 + 1 * h.val = h.val; omega

/-- The second input's block at point `t` is row block `t % 8` of its array. -/
theorem iblk2_1_at (c : Dev nD) (t : Fin cfg2.N) (b : Fin 8) (r : Fin 256) (h : Fin 768) :
    (iblk2 V c 1 t : Vec Ideal S8x256x768 .bf16) (ix3 b r h)
      = (V c (Pipeline.arrRef spec2 1) : S8x2048x768.Idx → Elt Ideal .bf16)
          (ix3 b ⟨t.val % 8 * 256 + r.val, by have := r.isLt; omega⟩ h) := by
  obtain ⟨-, -, -, b0, b1, b2, -⟩ := idx_facts2 t
  unfold iblk2
  rw [View.read_apply]
  refine congrArg (V c (Pipeline.arrRef spec2 1)) (funext fun a => Fin.ext ?_)
  match a with
  | ⟨0, _⟩ => show win2_1.index t (0 : Fin 3) * 8 + 1 * b.val = b.val; omega
  | ⟨1, _⟩ => show win2_1.index t (1 : Fin 3) * 256 + 1 * r.val = t.val % 8 * 256 + r.val; omega
  | ⟨2, _⟩ => show win2_1.index t (2 : Fin 3) * 768 + 1 * h.val = h.val; omega

/-! ## Output window 2 -/

/-- What point `t` writes back for window 2 is block `t` of the whole-array weights. -/
theorem flushed2_2_eq (c : Dev nD) (t : Fin cfg2.N) :
    (dat2 V c).flushed 2 t
      = ((cfg2.win 2).blk t).view.read (Elt Ideal) (Gw (V c (Pipeline.arrRef spec2 0)) (V c (Pipeline.arrRef spec2 1))) := by
  show (cfg2.win 2).cut (grid2.coords t) ((dat2 V c).after 2 t) = _
  rw [after2_2]
  obtain ⟨-, -, -, -, -, -, c0, c1, c2, -⟩ := idx_facts2 t
  have ht := lt64 t
  funext y
  show out2_2 (iblk2 V c 0 t) (iblk2 V c 1 t) y = Gw _ _ (((cfg2.win 2).blk t).view.emb y)
  refine point2_2' _ _ (iblk2 V c 0 t) (iblk2 V c 1 t) (t.val / 8) (t.val % 8) (by omega) (by omega)
    (iblk2_0_at V c t) (iblk2_1_at V c t) y _ ?_ ?_ ?_
  · show win2_2.index t (0 : Fin 3) * 8 + 1 * (y 0).val = (y 0).val; omega
  · show win2_2.index t (1 : Fin 3) * 256 + 1 * (y 1).val = t.val / 8 * 256 + (y 1).val; omega
  · show win2_2.index t (2 : Fin 3) * 256 + 1 * (y 2).val = t.val % 8 * 256 + (y 2).val; omega

/-- An index of window 2's array is in point `t`'s block iff each coordinate is in the block's range on its axis. -/
theorem mem_blk2_2 (t : Fin cfg2.N) (i : S8x2048x2048.Idx) :
    i ∈ ((cfg2.win 2).blk t).view.set ↔ ∀ a : Fin 3, win2_2.index t a * S8x256x256.size a ≤ (i a).val ∧ (i a).val < win2_2.index t a * S8x256x256.size a + S8x256x256.size a := by
  show i ∈ ((View.whole main_v10_0).slice (win2_2.rect t)).set ↔ _
  rw [View.set_slice_whole, Rect.mem_set_unit]
  exact Iff.rfl

/-- Every index of window 2's array is in some point's block: rows `n` and columns `m` at point
    `(n / 256) · 8 + m / 256`. -/
theorem cover2_2arr (i : S8x2048x2048.Idx) : ∃ t : Fin cfg2.N, (cfg2.win 2).flush t = true ∧ i ∈ ((cfg2.win 2).blk t).view.set := by
  have h0 : (i 0).val < 8 := (i 0).isLt
  have h1 : (i 1).val < 2048 := (i 1).isLt
  have h2 : (i 2).val < 2048 := (i 2).isLt
  obtain ⟨t, tv⟩ : ∃ t : Fin cfg2.N, t.val = (i 1).val / 256 * 8 + (i 2).val / 256 :=
    ⟨⟨(i 1).val / 256 * 8 + (i 2).val / 256, by rw [show cfg2.N = 64 from N_2]; omega⟩, rfl⟩
  obtain ⟨-, -, -, -, -, -, c0, c1, c2, -⟩ := idx_facts2 t
  refine ⟨t, flush2_2 t, ?_⟩
  rw [mem_blk2_2]
  intro a
  match a with
  | ⟨0, _⟩ => show win2_2.index t (0 : Fin 3) * 8 ≤ (i 0).val ∧ (i 0).val < win2_2.index t (0 : Fin 3) * 8 + 8; omega
  | ⟨1, _⟩ => show win2_2.index t (1 : Fin 3) * 256 ≤ (i 1).val ∧ (i 1).val < win2_2.index t (1 : Fin 3) * 256 + 256; omega
  | ⟨2, _⟩ => show win2_2.index t (2 : Fin 3) * 256 ≤ (i 2).val ∧ (i 2).val < win2_2.index t (2 : Fin 3) * 256 + 256; omega

/-- Window 2's array after the region: the whole-array weights of the two input arrays as the region finds them. -/
theorem final2_2 (c : Dev nD) :
    (dat2 V c).arrAt 2 cfg2.N = Gw (V c (Pipeline.arrRef spec2 0)) (V c (Pipeline.arrRef spec2 1)) :=
  (dat2 V c).arrAt_eq_of_cover 2 (Gw (V c (Pipeline.arrRef spec2 0)) (V c (Pipeline.arrRef spec2 1)))
    (fun t _ => flushed2_2_eq V c t) cover2_2arr

/-! ## Output window 3: the weights with rows and columns exchanged -/

/-- The whole-array weights read at the exchanged index: what window 3's array holds. -/
def GwT (A T : S8x2048x768.Idx → Elt Ideal .bf16) : S8x2048x2048.Idx → Elt Ideal .f32 :=
  fun j => Gw A T (ix3 (j 0) (j 2) (j 1))

/-- Window 3 at one point: its block sits at block row `q` and block column `p` of the exchanged array. -/
theorem point2_3' (A T : S8x2048x768.Idx → Elt Ideal .bf16) (x0 x1 : Vec Ideal S8x256x768 .bf16) (p q : Nat) (hp : p < 8) (hq : q < 8)
    (h0 : ∀ (b : Fin 8) (r : Fin 256) (h : Fin 768), x0 (ix3 b r h) = A (ix3 b ⟨p * 256 + r.val, by have := r.isLt; omega⟩ h))
    (h1 : ∀ (b : Fin 8) (r : Fin 256) (h : Fin 768), x1 (ix3 b r h) = T (ix3 b ⟨q * 256 + r.val, by have := r.isLt; omega⟩ h))
    (y : S8x256x256.Idx) (k : S8x2048x2048.Idx)
    (k0 : (k 0).val = (y 0).val) (k1 : (k 1).val = q * 256 + (y 1).val) (k2 : (k 2).val = p * 256 + (y 2).val) :
    out2_3 x0 x1 y = GwT A T k := by
  obtain ⟨b, r, s, rfl⟩ : ∃ (b : Fin 8) (r s : Fin 256), y = ix3 b r s := ⟨y 0, y 1, y 2, eq_ix3 y⟩
  rw [out2_3_at x0 x1 b s r]
  unfold GwT
  exact point2_2' A T x0 x1 p q hp hq h0 h1 (ix3 b s r) (ix3 (k 0) (k 2) (k 1)) k0 k2 k1

/-- What point `t` writes back for window 3 is block `t` of the exchanged weights. -/
theorem flushed2_3_eq (c : Dev nD) (t : Fin cfg2.N) :
    (dat2 V c).flushed 3 t
      = ((cfg2.win 3).blk t).view.read (Elt Ideal) (GwT (V c (Pipeline.arrRef spec2 0)) (V c (Pipeline.arrRef spec2 1))) := by
  show (cfg2.win 3).cut (grid2.coords t) ((dat2 V c).after 3 t) = _
  rw [after2_3]
  obtain ⟨-, -, -, -, -, -, -, -, -, d0, d1, d2, -⟩ := idx_facts2 t
  have ht := lt64 t
  funext y
  show out2_3 (iblk2 V c 0 t) (iblk2 V c 1 t) y = GwT _ _ (((cfg2.win 3).blk t).view.emb y)
  refine point2_3' _ _ (iblk2 V c 0 t) (iblk2 V c 1 t) (t.val / 8) (t.val % 8) (by omega) (by omega)
    (iblk2_0_at V c t) (iblk2_1_at V c t) y _ ?_ ?_ ?_
  · show win2_3.index t (0 : Fin 3) * 8 + 1 * (y 0).val = (y 0).val; omega
  · show win2_3.index t (1 : Fin 3) * 256 + 1 * (y 1).val = t.val % 8 * 256 + (y 1).val; omega
  · show win2_3.index t (2 : Fin 3) * 256 + 1 * (y 2).val = t.val / 8 * 256 + (y 2).val; omega

theorem mem_blk2_3 (t : Fin cfg2.N) (i : S8x2048x2048.Idx) :
    i ∈ ((cfg2.win 3).blk t).view.set ↔ ∀ a : Fin 3, win2_3.index t a * S8x256x256.size a ≤ (i a).val ∧ (i a).val < win2_3.index t a * S8x256x256.size a + S8x256x256.size a := by
  show i ∈ ((View.whole main_v10_1).slice (win2_3.rect t)).set ↔ _
  rw [View.set_slice_whole, Rect.mem_set_unit]
  exact Iff.rfl

/-- Every index `(b, u, v)` of window 3's array is in the block of point `(v / 256) · 8 + u / 256`. -/
theorem cover2_3arr (i : S8x2048x2048.Idx) : ∃ t : Fin cfg2.N, (cfg2.win 3).flush t = true ∧ i ∈ ((cfg2.win 3).blk t).view.set := by
  have h0 : (i 0).val < 8 := (i 0).isLt
  have h1 : (i 1).val < 2048 := (i 1).isLt
  have h2 : (i 2).val < 2048 := (i 2).isLt
  obtain ⟨t, tv⟩ : ∃ t : Fin cfg2.N, t.val = (i 2).val / 256 * 8 + (i 1).val / 256 :=
    ⟨⟨(i 2).val / 256 * 8 + (i 1).val / 256, by rw [show cfg2.N = 64 from N_2]; omega⟩, rfl⟩
  obtain ⟨-, -, -, -, -, -, -, -, -, d0, d1, d2, -⟩ := idx_facts2 t
  refine ⟨t, flush2_3 t, ?_⟩
  rw [mem_blk2_3]
  intro a
  match a with
  | ⟨0, _⟩ => show win2_3.index t (0 : Fin 3) * 8 ≤ (i 0).val ∧ (i 0).val < win2_3.index t (0 : Fin 3) * 8 + 8; omega
  | ⟨1, _⟩ => show win2_3.index t (1 : Fin 3) * 256 ≤ (i 1).val ∧ (i 1).val < win2_3.index t (1 : Fin 3) * 256 + 256; omega
  | ⟨2, _⟩ => show win2_3.index t (2 : Fin 3) * 256 ≤ (i 2).val ∧ (i 2).val < win2_3.index t (2 : Fin 3) * 256 + 256; omega

/-- Window 3's array after the region: the whole-array weights read at the exchanged index. -/
theorem final2_3 (c : Dev nD) :
    (dat2 V c).arrAt 3 cfg2.N = GwT (V c (Pipeline.arrRef spec2 0)) (V c (Pipeline.arrRef spec2 1)) :=
  (dat2 V c).arrAt_eq_of_cover 3 (GwT (V c (Pipeline.arrRef spec2 0)) (V c (Pipeline.arrRef spec2 1)))
    (fun t _ => flushed2_3_eq V c t) cover2_3arr

/-! ## Output window 4: the weights as the contents of a bf16 array -/

/-- Window 4 at one point: the same extended reals as window 2. -/
theorem point2_4' (A T : S8x2048x768.Idx → Elt Ideal .bf16) (x0 x1 : Vec Ideal S8x256x768 .bf16) (p q : Nat) (hp : p < 8) (hq : q < 8)
    (h0 : ∀ (b : Fin 8) (r : Fin 256) (h : Fin 768), x0 (ix3 b r h) = A (ix3 b ⟨p * 256 + r.val, by have := r.isLt; omega⟩ h))
    (h1 : ∀ (b : Fin 8) (r : Fin 256) (h : Fin 768), x1 (ix3 b r h) = T (ix3 b ⟨q * 256 + r.val, by have := r.isLt; omega⟩ h))
    (y : S8x256x256.Idx) (k : S8x2048x2048.Idx)
    (k0 : (k 0).val = (y 0).val) (k1 : (k 1).val = p * 256 + (y 1).val) (k2 : (k 2).val = q * 256 + (y 2).val) :
    out2_4 x0 x1 y = GwB A T k := by
  obtain ⟨b, n, m, rfl⟩ : ∃ (b : Fin 8) (n m : Fin 256), y = ix3 b n m := ⟨y 0, y 1, y 2, eq_ix3 y⟩
  show (out2_4 x0 x1 (ix3 b n m) : EReal) = (Gw A T k : EReal)
  exact (out2_4_at x0 x1 b n m).trans (point2_2' A T x0 x1 p q hp hq h0 h1 (ix3 b n m) k k0 k1 k2)

/-- What point `t` writes back for window 4 is block `t` of the whole-array weights. -/
theorem flushed2_4_eq (c : Dev nD) (t : Fin cfg2.N) :
    (dat2 V c).flushed 4 t
      = ((cfg2.win 4).blk t).view.read (Elt Ideal) (GwB (V c (Pipeline.arrRef spec2 0)) (V c (Pipeline.arrRef spec2 1))) := by
  show (cfg2.win 4).cut (grid2.coords t) ((dat2 V c).after 4 t) = _
  rw [after2_4]
  obtain ⟨-, -, -, -, -, -, -, -, -, -, -, -, e0, e1, e2⟩ := idx_facts2 t
  have ht := lt64 t
  funext y
  show out2_4 (iblk2 V c 0 t) (iblk2 V c 1 t) y = GwB _ _ (((cfg2.win 4).blk t).view.emb y)
  refine point2_4' _ _ (iblk2 V c 0 t) (iblk2 V c 1 t) (t.val / 8) (t.val % 8) (by omega) (by omega)
    (iblk2_0_at V c t) (iblk2_1_at V c t) y _ ?_ ?_ ?_
  · show win2_4.index t (0 : Fin 3) * 8 + 1 * (y 0).val = (y 0).val; omega
  · show win2_4.index t (1 : Fin 3) * 256 + 1 * (y 1).val = t.val / 8 * 256 + (y 1).val; omega
  · show win2_4.index t (2 : Fin 3) * 256 + 1 * (y 2).val = t.val % 8 * 256 + (y 2).val; omega

theorem mem_blk2_4 (t : Fin cfg2.N) (i : S8x2048x2048.Idx) :
    i ∈ ((cfg2.win 4).blk t).view.set ↔ ∀ a : Fin 3, win2_4.index t a * S8x256x256.size a ≤ (i a).val ∧ (i a).val < win2_4.index t a * S8x256x256.size a + S8x256x256.size a := by
  show i ∈ ((View.whole main_v10_2).slice (win2_4.rect t)).set ↔ _
  rw [View.set_slice_whole, Rect.mem_set_unit]
  exact Iff.rfl

theorem cover2_4arr (i : S8x2048x2048.Idx) : ∃ t : Fin cfg2.N, (cfg2.win 4).flush t = true ∧ i ∈ ((cfg2.win 4).blk t).view.set := by
  have h0 : (i 0).val < 8 := (i 0).isLt
  have h1 : (i 1).val < 2048 := (i 1).isLt
  have h2 : (i 2).val < 2048 := (i 2).isLt
  obtain ⟨t, tv⟩ : ∃ t : Fin cfg2.N, t.val = (i 1).val / 256 * 8 + (i 2).val / 256 :=
    ⟨⟨(i 1).val / 256 * 8 + (i 2).val / 256, by rw [show cfg2.N = 64 from N_2]; omega⟩, rfl⟩
  obtain ⟨-, -, -, -, -, -, -, -, -, -, -, -, e0, e1, e2⟩ := idx_facts2 t
  refine ⟨t, flush2_4 t, ?_⟩
  rw [mem_blk2_4]
  intro a
  match a with
  | ⟨0, _⟩ => show win2_4.index t (0 : Fin 3) * 8 ≤ (i 0).val ∧ (i 0).val < win2_4.index t (0 : Fin 3) * 8 + 8; omega
  | ⟨1, _⟩ => show win2_4.index t (1 : Fin 3) * 256 ≤ (i 1).val ∧ (i 1).val < win2_4.index t (1 : Fin 3) * 256 + 256; omega
  | ⟨2, _⟩ => show win2_4.index t (2 : Fin 3) * 256 ≤ (i 2).val ∧ (i 2).val < win2_4.index t (2 : Fin 3) * 256 + 256; omega

/-- Window 4's array after the region, as the contents of a bf16 array. -/
theorem final2_4B (c : Dev nD) :
    (dat2 V c).arrAt 4 cfg2.N = GwB (V c (Pipeline.arrRef spec2 0)) (V c (Pipeline.arrRef spec2 1)) :=
  (dat2 V c).arrAt_eq_of_cover 4 (GwB (V c (Pipeline.arrRef spec2 0)) (V c (Pipeline.arrRef spec2 1)))
    (fun t _ => flushed2_4_eq V c t) cover2_4arr

/-- Window 4's array after the region holds, index by index, the extended reals window 2's holds. -/
theorem final2_4 (c : Dev nD) (j : S8x2048x2048.Idx) :
    (((dat2 V c).arrAt 4 cfg2.N : S8x2048x2048.Idx → Elt Ideal .bf16) j : EReal)
      = (Gw (V c (Pipeline.arrRef spec2 0)) (V c (Pipeline.arrRef spec2 1)) j : EReal) := by
  rw [final2_4B]
  rfl

/-! ## The input windows' arrays are never written -/

theorem kept2_0 (c : Dev nD) : (dat2 V c).arrAt 0 cfg2.N = V c (Pipeline.arrRef spec2 0) :=
  ((dat2 V c).arrAt_in 0 rfl _).trans (A_eq2 V c 0)
theorem kept2_1 (c : Dev nD) : (dat2 V c).arrAt 1 cfg2.N = V c (Pipeline.arrRef spec2 1) :=
  ((dat2 V c).arrAt_in 1 rfl _).trans (A_eq2 V c 1)

end Cert.KernelIdeal.Arr

end
-- ==== Proof.KI.Val3.lean ====
/- Region 3 of @main, its VALUES. At any float instance: what each case leaves in the scratch and in the output's
   staging buffer as a term over the case's payloads; what the scratch holds after any point as the fold of its run of
   eight inner points (the reset at the run's first point, the step at each later one); what the output's buffer holds
   at a last inner point. At the ideal values: that fold read at an index is the sum, over the run's points up to
   there and over the contraction index, of the products of the two input blocks' entries — started from zero. -/
import proofs.«125380_j79173427134694_2_alg».proof.Proof.KI.Reg3
import Idealize.ShloMosaic.Lib.Pipeline.Value
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic Idealize.SL.Sem
open Idealize.ShloMosaic.Pipeline (Dat)

section AnyFloat
variable {F : FTy → Type} [FloatOps F]
variable (V : (c : Dev nD) → (b : Ref sig .tc) → Buf (Elt F) ((c : Thread nD τ).loc b))

theorem hzr3 : (![0, 0, 0] : Fin 3 → Nat) = fun _ => 0 := funext fun a => by fin_cases a <;> rfl

/-! ## What each case leaves, as a term -/

/-- Case A leaves in the scratch the first partial product added to the zero splat it has just stored. -/
theorem sout3_A_eq (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond3_0 i) (hc1 : ¬cond3_1 i) (x0 : Vec F S8x256x256 .bf16) (x1 : Vec F S8x256x768 .bf16) :
    sout3_A c i arg2 harg2 arg3 harg3 arg4 harg4 arg5 harg5 hc0 hc1 x0 x1 = k3_pay2 x0 x1 (k3_pay1 (F := F)) := by
  unfold sout3_A
  rw [View.read_writes_eq_canon _ _ _ (scover3_A c i arg2 harg2 arg3 harg3 arg4 harg4 arg5 harg5 hc0 hc1 x0 x1)]
  unfold kernelRun3_A
  dsimp only
  try sl_unfold_words
  rw [View.canon_cons_unit_zero (S := S8x256x768) hzr3, View.readCov_unit_zero (S := S8x256x768) _ hzr3]
  simp only [View.readAt_eq_ld, harg2.read_unread, harg3.read_unread, harg4.read_unread, harg5.read_unread, View.ld_unit_zero (S := S8x256x768) hzr3, View.ld_unit_zero (S := S8x256x256) hzr3, shapeCast_self]

/-- Case B leaves in the scratch this point's partial product added to what the point before left (`xs0`). -/
theorem sout3_B_eq (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : ¬cond3_1 i) (x0 : Vec F S8x256x256 .bf16) (x1 : Vec F S8x256x768 .bf16) (xs0 : Vec F S8x256x768 .f32) :
    sout3_B c i arg2 harg2 arg3 harg3 arg4 harg4 arg5 harg5 hc0 hc1 x0 x1 xs0 = k3_pay2 x0 x1 xs0 := by
  unfold sout3_B
  rw [View.read_writes_eq_canon _ _ _ (scover3_B c i arg2 harg2 arg3 harg3 arg4 harg4 arg5 harg5 hc0 hc1 x0 x1 xs0)]
  unfold kernelRun3_B
  dsimp only
  try sl_unfold_words
  rw [View.canon_cons_unit_zero (S := S8x256x768) hzr3]
  simp only [View.readAt_eq_ld, harg2.read_unread, harg3.read_unread, harg4.read_unread, harg5.read_unread, View.ld_unit_zero (S := S8x256x768) hzr3, View.ld_unit_zero (S := S8x256x256) hzr3, shapeCast_self]

/-- Case C leaves the same in the scratch, -/
theorem sout3_C_eq (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) :
    sout3_C c i arg2 harg2 arg3 harg3 arg4 harg4 arg5 harg5 hc0 hc1 x0 x1 xs0 = k3_pay2 x0 x1 xs0 := by
  unfold sout3_C
  rw [View.read_writes_eq_canon _ _ _ (scover3_C c i arg2 harg2 arg3 harg3 arg4 harg4 arg5 harg5 hc0 hc1 x0 x1 xs0)]
  unfold kernelRun3_C
  dsimp only
  try sl_unfold_words
  rw [View.canon_cons_unit_zero (S := S8x256x768) hzr3]
  simp only [View.readAt_eq_ld, harg2.read_unread, harg3.read_unread, harg4.read_unread, harg5.read_unread, View.ld_unit_zero (S := S8x256x768) hzr3, View.ld_unit_zero (S := S8x256x256) hzr3, shapeCast_self]

/-- and in the output's staging buffer that sum rounded to the output's element type. -/
theorem out3_C_2_eq (c : Dev nD) (i : grid3.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond3_0 i) (hc1 : cond3_1 i) (x0 : Vec F S8x256x256 .bf16) (x1 : Vec F S8x256x768 .bf16) (xs0 : Vec F S8x256x768 .f32) :
    out3_C_2 c i arg2 harg2 arg3 harg3 arg4 harg4 arg5 harg5 hc0 hc1 x0 x1 xs0 = k3_pay3 (k3_pay2 x0 x1 xs0) := by
  unfold out3_C_2
  rw [View.read_writes_eq_canon _ _ _ (cover3_C_2 c i arg2 harg2 arg3 harg3 arg4 harg4 arg5 harg5 hc0 hc1 x0 x1 xs0)]
  unfold kernelRun3_C
  dsimp only
  try sl_unfold_words
  rw [View.canon_cons_unit_zero (S := S8x256x768) hzr3, View.readCov_unit_zero (S := S8x256x768) _ hzr3]
  simp only [View.readAt_eq_ld, harg2.read_unread, harg3.read_unread, harg4.read_unread, harg5.read_unread, View.ld_unit_zero (S := S8x256x768) hzr3, View.ld_unit_zero (S := S8x256x256) hzr3, shapeCast_self]

/-! ## The scratch after any point: the fold of its run -/

/-- THE RESET: what the scratch holds after a run's first point (inner coordinate 0), over that point's input blocks. -/
def reset3 (c : Dev nD) (n : ℕ) (h : n < cfg3.N) : Vec F S8x256x768 .f32 :=
  k3_pay2 (iblk3 V c 0 ⟨n, h⟩) (iblk3 V c 1 ⟨n, h⟩) (k3_pay1 (F := F))

/-- THE STEP: what it holds after a later point `n` of the run, over what the point before left (`acc`). -/
def step3 (c : Dev nD) (n : ℕ) (h : n < cfg3.N) (acc : Vec F S8x256x768 .f32) : Vec F S8x256x768 .f32 :=
  k3_pay2 (iblk3 V c 0 ⟨n, h⟩) (iblk3 V c 1 ⟨n, h⟩) acc

/-- WHAT THE SCRATCH HOLDS after point `t`: the fold of its run — the points `8·(t / 8) … t` — up to `t`. -/
theorem scratchAt3_eq (c : Dev nD) (t : Fin cfg3.N) :
    (outsAt3 V c t.val t.isLt).2 = Pipeline.accAt (reset3 V c) (step3 V c) (8 * (t.val / 8)) (t.val % 8)
      (by have h1 := t.isLt; have h2 := Nat.div_add_mod t.val 8; omega) :=
  Pipeline.eq_accAt_of_mod (fun n h => (outsAt3 V c n h).2) 8 (reset3 V c) (step3 V c)
    (fun n h hn => by
      rw [outsAt3_A V c ⟨n, h⟩ hn (by show ¬(n % 8 = 7); omega)]
      unfold stepA3 reset3; dsimp only
      rw [sout3_A_eq])
    (fun n h hn => by
      by_cases h7 : (n + 1) % 8 = 7
      · rw [outsAt3_C V c ⟨n + 1, h⟩ hn h7]
        unfold stepC3 step3; dsimp only
        rw [sout3_C_eq]; rfl
      · rw [outsAt3_B V c ⟨n + 1, h⟩ hn h7]
        unfold stepB3 step3; dsimp only
        rw [sout3_B_eq]; rfl)
    (by decide) t.val t.isLt _

/-- WHAT THE OUTPUT'S BUFFER HOLDS after a last inner point (the only points that write the block back): what the
    scratch then holds, rounded to the output's element type. -/
theorem outAt3_last (c : Dev nD) (t : Fin cfg3.N) (h7 : t.val % 8 = 7) :
    (outsAt3 V c t.val t.isLt).1 = k3_pay3 ((outsAt3 V c t.val t.isLt).2) := by
  have h0 : ¬t.val % 8 = 0 := by omega
  rw [outsAt3_C V c t h0 h7]
  unfold stepC3; dsimp only
  rw [out3_C_2_eq, sout3_C_eq]

/-- What point `t` writes back to the output's array (when it does): the output's staging contents after the body,
    read through the window's block. -/
theorem flushed3_2 (c : Dev nD) (t : Fin cfg3.N) :
    (dat3 V c).flushed 2 t = (cfg3.win 2).cut (grid3.coords t) ((outsAt3 V c t.val t.isLt).1) := by
  show (cfg3.win 2).cut (grid3.coords t) ((dat3 V c).after 2 t) = _
  rw [after3_2]

end AnyFloat

section AtIdeal
variable (V : (c : Dev nD) → (b : Ref sig .tc) → Buf (Elt Ideal) ((c : Thread nD τ).loc b))

/-! ## At the ideal values -/

/-- The zero splat the first point stores is zero at every index. -/
theorem pay1_3_apply (j : S8x256x768.Idx) : (k3_pay1 (F := Ideal)) j = 0 := by
  unfold k3_pay1
  simp only [shapeCast_self]
  exact Ideal.ofBits_zero_f32

/-- A point's update of the scratch read at an index: what the scratch held there plus the sum over the contraction
    index of the products of the two input blocks' entries (no rounding, no order). -/
theorem pay2_3_apply (x0 : FVec Ideal S8x256x256 .bf16) (x1 : FVec Ideal S8x256x768 .bf16) (acc : FVec Ideal S8x256x768 .f32) (j : S8x256x768.Idx) :
    k3_pay2 x0 x1 acc j = acc j + ∑ k : dot_S8x256x256_S8x256x768_S8x256x768_1_1_2_2_0_0.contr.Idx, x0 (dot_S8x256x256_S8x256x768_S8x256x768_1_1_2_2_0_0.lhsIdx j k) * x1 (dot_S8x256x256_S8x256x768_S8x256x768_1_1_2_2_0_0.rhsIdx j k) := by
  unfold k3_pay2
  simp only [shapeCast_self]
  exact congrArg (acc j + ·) (Ideal.matmul_constant_zero_apply dot_S8x256x256_S8x256x768_S8x256x768_1_1_2_2_0_0 none x0 x1 j)

/-- The rounding to the output's element type is the identity. -/
theorem pay3_3_apply (v : FVec Ideal S8x256x768 .f32) (j : S8x256x768.Idx) : (k3_pay3 (F := Ideal) v j : EReal) = v j := rfl

/-- The two input blocks the pipeline stages at point `n`, at their shapes. -/
def lhsBlk3 (c : Dev nD) (n : ℕ) (h : n < cfg3.N) : FVec Ideal S8x256x256 .bf16 := iblk3 V c 0 ⟨n, h⟩
def rhsBlk3 (c : Dev nD) (n : ℕ) (h : n < cfg3.N) : FVec Ideal S8x256x768 .bf16 := iblk3 V c 1 ⟨n, h⟩

/-- Point `n`'s ADDEND at output index `j`: the sum over the contraction index of the products of the entries of the
    two input blocks the pipeline stages at that point (zero past the grid, where it is never read). -/
def prod3 (c : Dev nD) (n : ℕ) (j : S8x256x768.Idx) : EReal :=
  if h : n < cfg3.N then
    ∑ k : dot_S8x256x256_S8x256x768_S8x256x768_1_1_2_2_0_0.contr.Idx, lhsBlk3 V c n h (dot_S8x256x256_S8x256x768_S8x256x768_1_1_2_2_0_0.lhsIdx j k) * rhsBlk3 V c n h (dot_S8x256x256_S8x256x768_S8x256x768_1_1_2_2_0_0.rhsIdx j k)
  else 0

/-- WHAT THE SCRATCH HOLDS after point `t`, read at an index: zero plus the addends of the run's points up to `t`. -/
theorem scratchAt3_apply (c : Dev nD) (t : Fin cfg3.N) (j : S8x256x768.Idx) :
    (outsAt3 V c t.val t.isLt).2 j = 0 + ∑ s ∈ Finset.range (t.val % 8 + 1), prod3 V c (8 * (t.val / 8) + s) j := by
  rw [scratchAt3_eq]
  exact Pipeline.accAt_add_apply (β := EReal) (reset3 V c) (step3 V c) (fun _ => 0) (prod3 V c) (8 * (t.val / 8)) 7
    (fun h i => by
      unfold prod3; rw [dif_pos h]
      show k3_pay2 (F := Ideal) (lhsBlk3 V c _ h) (rhsBlk3 V c _ h) (k3_pay1 (F := Ideal)) i = _
      rw [pay2_3_apply, pay1_3_apply])
    (fun n h acc i _ _ => by
      unfold prod3; rw [dif_pos h]
      show k3_pay2 (F := Ideal) (lhsBlk3 V c n h) (rhsBlk3 V c n h) acc i = _
      rw [pay2_3_apply])
    (t.val % 8) (by omega) _ j

/-- WHAT THE OUTPUT'S BUFFER HOLDS after a last inner point — the block the region writes back there —, read at an
    index: zero plus the eight addends of the run, i.e. the sum over the run's eight points and over the contraction
    index of the products of the input blocks' entries. -/
theorem outAt3_apply (c : Dev nD) (t : Fin cfg3.N) (h7 : t.val % 8 = 7) (j : S8x256x768.Idx) :
    (outsAt3 V c t.val t.isLt).1 j = 0 + ∑ s ∈ Finset.range 8, prod3 V c (8 * (t.val / 8) + s) j := by
  rw [outAt3_last V c t h7, pay3_3_apply, scratchAt3_apply, h7]

/-- The dot's operand indices at output index `j` and contraction index `k`, coordinate by coordinate. -/
theorem dot3_idx (j : S8x256x768.Idx) (k : dot_S8x256x256_S8x256x768_S8x256x768_1_1_2_2_0_0.contr.Idx) :
    (dot_S8x256x256_S8x256x768_S8x256x768_1_1_2_2_0_0.lhsIdx j k 0).val = (j 0).val ∧ (dot_S8x256x256_S8x256x768_S8x256x768_1_1_2_2_0_0.lhsIdx j k 1).val = (k ⟨0, by decide⟩).val ∧ (dot_S8x256x256_S8x256x768_S8x256x768_1_1_2_2_0_0.lhsIdx j k 2).val = (j 1).val
    ∧ (dot_S8x256x256_S8x256x768_S8x256x768_1_1_2_2_0_0.rhsIdx j k 0).val = (j 0).val ∧ (dot_S8x256x256_S8x256x768_S8x256x768_1_1_2_2_0_0.rhsIdx j k 1).val = (k ⟨0, by decide⟩).val ∧ (dot_S8x256x256_S8x256x768_S8x256x768_1_1_2_2_0_0.rhsIdx j k 2).val = (j 2).val :=
  ⟨rfl, rfl, rfl, rfl, rfl, rfl⟩

end AtIdeal

end Cert.KernelIdeal.Fr

end
-- ==== Proof.LibBlockSum.lean ====
/- General lemmas on finite sums cut into blocks, in any additive commutative monoid (no cancellation and no finiteness
   of the values is used, so they hold of the extended reals): a sum over `Fin (K * B)` is the sum over `K` blocks of
   the sums over each block's `B` entries (`sum_blocks`); the left-nested accumulation that starts from `z` and adds
   one block's partial sum after another ends at `z` plus the whole sum (`accum`, `accum_eq`, `accum_blocks`); and both
   at 8 blocks of 256 with the literal 2048 (`sum_2048`, `accum_2048`). -/
import Mathlib.Algebra.BigOperators.Fin

namespace Cert.BlockSum

/-- Entry `r` of block `k`, among `K` blocks of `B` entries each: position `k * B + r`. -/
def blk (K B : ℕ) (k : Fin K) (r : Fin B) : Fin (K * B) :=
  ⟨k.val * B + r.val,
    calc k.val * B + r.val < k.val * B + B := Nat.add_lt_add_left r.isLt _
      _ = (k.val + 1) * B := (Nat.succ_mul _ _).symm
      _ ≤ K * B := Nat.mul_le_mul_right _ k.isLt⟩

theorem blk_val (K B : ℕ) (k : Fin K) (r : Fin B) : (blk K B k r).val = k.val * B + r.val := rfl

/-- A sum over `K * B` positions is the sum over the `K` blocks of each block's sum over its `B` entries. -/
theorem sum_blocks {M : Type*} [AddCommMonoid M] (K B : ℕ) (f : Fin (K * B) → M) :
    ∑ n : Fin (K * B), f n = ∑ k : Fin K, ∑ r : Fin B, f (blk K B k r) := by
  rw [← finProdFinEquiv.sum_comp f, Fintype.sum_prod_type]
  refine Finset.sum_congr rfl fun k _ => Finset.sum_congr rfl fun r _ => congrArg f (Fin.ext ?_)
  show r.val + B * k.val = k.val * B + r.val
  rw [Nat.mul_comm, Nat.add_comm]

/-- The left-nested accumulation: start from `z`, and at step `k` add `p k` on the right. -/
def accum {M : Type*} [AddCommMonoid M] (z : M) (p : ℕ → M) : ℕ → M
  | 0 => z
  | k + 1 => accum z p k + p k

/-- After `K` steps the accumulation holds its start plus the sum of the first `K` terms. -/
theorem accum_eq {M : Type*} [AddCommMonoid M] (z : M) (p : ℕ → M) (K : ℕ) :
    accum z p K = z + ∑ k : Fin K, p k.val := by
  induction K with
  | zero => simp [accum]
  | succ K ih =>
    rw [accum, ih, Fin.sum_univ_castSucc, add_assoc]
    rfl

/-- Accumulating from zero, block after block, each block's partial sum gives the whole sum. -/
theorem accum_blocks {M : Type*} [AddCommMonoid M] (K B : ℕ) (f : Fin (K * B) → M) :
    accum 0 (fun k => if h : k < K then ∑ r : Fin B, f (blk K B ⟨k, h⟩ r) else 0) K = ∑ n : Fin (K * B), f n := by
  rw [accum_eq, zero_add, sum_blocks]
  exact Finset.sum_congr rfl fun k _ => by rw [dif_pos k.isLt]

/-- A sum over 2048 positions as 8 blocks of 256, with the literal extent. -/
theorem sum_2048 {M : Type*} [AddCommMonoid M] (f : Fin 2048 → M) :
    ∑ n : Fin 2048, f n
      = ∑ k : Fin 8, ∑ r : Fin 256, f ⟨k.val * 256 + r.val, by have := k.isLt; have := r.isLt; omega⟩ :=
  sum_blocks 8 256 f

/-- The accumulation over 8 blocks of 256 from zero is the sum over the 2048 positions. -/
theorem accum_2048 {M : Type*} [AddCommMonoid M] (f : Fin 2048 → M) :
    accum 0 (fun k => if h : k < 8 then ∑ r : Fin 256, f ⟨k * 256 + r.val, by have := r.isLt; omega⟩ else 0) 8
      = ∑ n : Fin 2048, f n :=
  accum_blocks 8 256 f

end Cert.BlockSum
-- ==== Proof.KI.Fin3.lean ====
/- Region 3 from blocks to the array, at the ideal values and at the entry contents `V`: the output array ends as ONE
   function of the two input arrays — entry (b, mm, h) the accumulation, from zero, over the eight row blocks k of the
   sums over each block's 256 rows of the weights' entry (b, 256 k + r, mm) times the layer's entry (b, 256 k + r, h) —;
   the input arrays end as entered. -/
import proofs.«125380_j79173427134694_2_alg».proof.Proof.KI.Reg3
import proofs.«125380_j79173427134694_2_alg».proof.Proof.KI.Val3
import proofs.«125380_j79173427134694_2_alg».proof.Proof.LibBlockSum
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The whole-array function -/

/-- One product of the contraction: the weights' entry (b, n, mm) times the layer's entry (b, n, h). -/
def term3 (W : Vec Ideal S8x2048x2048 .bf16) (A : Vec Ideal S8x2048x768 .bf16) (b : Fin 8) (mm : Fin 2048) (h : Fin 768) (n : Fin 2048) : EReal :=
  W (ix3 b n mm) * A (ix3 b n h)

/-- The output array: at (b, mm, h) the accumulation from zero, block k after block k, of each block's sum over its
    256 rows of the products. -/
def G3 (W : Vec Ideal S8x2048x2048 .bf16) (A : Vec Ideal S8x2048x768 .bf16) : Vec Ideal S8x2048x768 .bf16 :=
  fun j => Cert.BlockSum.accum (0 : EReal)
    (fun k => if hk : k < 8 then ∑ r : Fin 256, term3 W A (j 0) (j 1) (j 2) ⟨k * 256 + r.val, by have := r.isLt; omega⟩ else 0) 8

/-- `G3` at (b, mm, h). -/
theorem G3_apply (W : Vec Ideal S8x2048x2048 .bf16) (A : Vec Ideal S8x2048x768 .bf16) (b : Fin 8) (mm : Fin 2048) (h : Fin 768) :
    G3 W A (ix3 b mm h) = Cert.BlockSum.accum (0 : EReal)
      (fun k => if hk : k < 8 then ∑ r : Fin 256, term3 W A b mm h ⟨k * 256 + r.val, by have := r.isLt; omega⟩ else 0) 8 := rfl

/-- The same as one sum over the 2048 rows. -/
theorem G3_apply_sum (W : Vec Ideal S8x2048x2048 .bf16) (A : Vec Ideal S8x2048x768 .bf16) (b : Fin 8) (mm : Fin 2048) (h : Fin 768) :
    G3 W A (ix3 b mm h) = ∑ n : Fin 2048, W (ix3 b n mm) * A (ix3 b n h) :=
  (G3_apply W A b mm h).trans (Cert.BlockSum.accum_2048 (term3 W A b mm h))

/-! ## Where the blocks sit -/

/-- The block index maps over the grid (point t has outer coordinate t / 8 and inner coordinate t % 8): the weights'
    block at (0, inner, outer), the layer's at (0, inner, 0), the output's at (0, outer, 0). -/
theorem idx_facts3 : ∀ t : Fin cfg3.N,
    win3_0.index t (0 : Fin 3) = 0 ∧ win3_0.index t (1 : Fin 3) = t.val % 8 ∧ win3_0.index t (2 : Fin 3) = t.val / 8
    ∧ win3_1.index t (0 : Fin 3) = 0 ∧ win3_1.index t (1 : Fin 3) = t.val % 8 ∧ win3_1.index t (2 : Fin 3) = 0
    ∧ win3_2.index t (0 : Fin 3) = 0 ∧ win3_2.index t (1 : Fin 3) = t.val / 8 ∧ win3_2.index t (2 : Fin 3) = 0 :=
  (by decide +kernel : ∀ t : Fin grid3.N, _)

/-- Row r of the contraction block at point t is row 256 (t % 8) + r of the arrays; -/
def nrow3 (t : Fin cfg3.N) (r : Fin 256) : Fin 2048 :=
  ⟨(t.val % 8) * 256 + r.val, by have := r.isLt; omega⟩
/-- row m of the output block at point t is row 256 (t / 8) + m of the output array (and that column of the weights). -/
def mrow3 (t : Fin cfg3.N) (m : Fin 256) : Fin 2048 :=
  ⟨(t.val / 8) * 256 + m.val, by have hN : cfg3.N = 64 := N_3; have := t.isLt; have := m.isLt; omega⟩

/-- Where an element of each window's block at point t sits in its array. -/
theorem emb3_0 (t : Fin cfg3.N) (b : Fin 8) (r m : Fin 256) :
    ((cfg3.win 0).blk t).view.emb (ix3 b r m) = (ix3 b (nrow3 t r) (mrow3 t m) : S8x2048x2048.Idx) := by
  obtain ⟨e0, e1, e2, -⟩ := idx_facts3 t
  funext a; apply Fin.ext
  match a with
  | ⟨0, _⟩ => show win3_0.index t (0 : Fin 3) * 8 + 1 * b.val = b.val; omega
  | ⟨1, _⟩ => show win3_0.index t (1 : Fin 3) * 256 + 1 * r.val = (t.val % 8) * 256 + r.val; omega
  | ⟨2, _⟩ => show win3_0.index t (2 : Fin 3) * 256 + 1 * m.val = (t.val / 8) * 256 + m.val; omega
theorem emb3_1 (t : Fin cfg3.N) (b : Fin 8) (r : Fin 256) (h : Fin 768) :
    ((cfg3.win 1).blk t).view.emb (ix3 b r h) = (ix3 b (nrow3 t r) h : S8x2048x768.Idx) := by
  obtain ⟨-, -, -, e0, e1, e2, -⟩ := idx_facts3 t
  funext a; apply Fin.ext
  match a with
  | ⟨0, _⟩ => show win3_1.index t (0 : Fin 3) * 8 + 1 * b.val = b.val; omega
  | ⟨1, _⟩ => show win3_1.index t (1 : Fin 3) * 256 + 1 * r.val = (t.val % 8) * 256 + r.val; omega
  | ⟨2, _⟩ => show win3_1.index t (2 : Fin 3) * 768 + 1 * h.val = h.val; omega
theorem emb3_2 (t : Fin cfg3.N) (b : Fin 8) (m : Fin 256) (h : Fin 768) :
    ((cfg3.win 2).blk t).view.emb (ix3 b m h) = (ix3 b (mrow3 t m) h : S8x2048x768.Idx) := by
  obtain ⟨-, -, -, -, -, -, e0, e1, e2⟩ := idx_facts3 t
  funext a; apply Fin.ext
  match a with
  | ⟨0, _⟩ => show win3_2.index t (0 : Fin 3) * 8 + 1 * b.val = b.val; omega
  | ⟨1, _⟩ => show win3_2.index t (1 : Fin 3) * 256 + 1 * m.val = (t.val / 8) * 256 + m.val; omega
  | ⟨2, _⟩ => show win3_2.index t (2 : Fin 3) * 768 + 1 * h.val = h.val; omega

/-- Each input block at an index, read off its array. -/
theorem lhsBlk3_apply (c : Dev nD) (n : ℕ) (hn : n < cfg3.N) (b : Fin 8) (r m : Fin 256) :
    lhsBlk3 V c n hn (ix3 b r m) = (V c (Pipeline.arrRef spec3 0) : Vec Ideal S8x2048x2048 .bf16) (ix3 b (nrow3 ⟨n, hn⟩ r) (mrow3 ⟨n, hn⟩ m)) := by
  show (V c (Pipeline.arrRef spec3 0) : Vec Ideal S8x2048x2048 .bf16) (((cfg3.win 0).blk ⟨n, hn⟩).view.emb (ix3 b r m)) = _
  exact congrArg _ (emb3_0 ⟨n, hn⟩ b r m)
theorem rhsBlk3_apply (c : Dev nD) (n : ℕ) (hn : n < cfg3.N) (b : Fin 8) (r : Fin 256) (h : Fin 768) :
    rhsBlk3 V c n hn (ix3 b r h) = (V c (Pipeline.arrRef spec3 1) : Vec Ideal S8x2048x768 .bf16) (ix3 b (nrow3 ⟨n, hn⟩ r) h) := by
  show (V c (Pipeline.arrRef spec3 1) : Vec Ideal S8x2048x768 .bf16) (((cfg3.win 1).blk ⟨n, hn⟩).view.emb (ix3 b r h)) = _
  exact congrArg _ (emb3_1 ⟨n, hn⟩ b r h)

/-! ## The contraction read at an index -/

/-- The dot's left operand index at output (b, m, h) and contraction index r is (b, r, m), -/
theorem lhsD3 (b : Fin 8) (m : Fin 256) (h : Fin 768) (r : Fin 256) :
    dot_S8x256x256_S8x256x768_S8x256x768_1_1_2_2_0_0.lhsIdx (ix3 b m h) ((contrEquiv1 dot_S8x256x256_S8x256x768_S8x256x768_1_1_2_2_0_0 256 rfl rfl).symm r) = ix3 b r m :=
  funext fun a => Fin.ext (by
    have hk := contrEquiv1_symm_val dot_S8x256x256_S8x256x768_S8x256x768_1_1_2_2_0_0 256 rfl rfl r
    obtain ⟨l0, l1, l2, -⟩ := dot3_idx (ix3 b m h) ((contrEquiv1 dot_S8x256x256_S8x256x768_S8x256x768_1_1_2_2_0_0 256 rfl rfl).symm r)
    match a with
    | ⟨0, _⟩ => exact l0
    | ⟨1, _⟩ => exact l1.trans hk
    | ⟨2, _⟩ => exact l2)
/-- and the right operand index is (b, r, h). -/
theorem rhsD3 (b : Fin 8) (m : Fin 256) (h : Fin 768) (r : Fin 256) :
    dot_S8x256x256_S8x256x768_S8x256x768_1_1_2_2_0_0.rhsIdx (ix3 b m h) ((contrEquiv1 dot_S8x256x256_S8x256x768_S8x256x768_1_1_2_2_0_0 256 rfl rfl).symm r) = ix3 b r h :=
  funext fun a => Fin.ext (by
    have hk := contrEquiv1_symm_val dot_S8x256x256_S8x256x768_S8x256x768_1_1_2_2_0_0 256 rfl rfl r
    obtain ⟨-, -, -, r0, r1, r2⟩ := dot3_idx (ix3 b m h) ((contrEquiv1 dot_S8x256x256_S8x256x768_S8x256x768_1_1_2_2_0_0 256 rfl rfl).symm r)
    match a with
    | ⟨0, _⟩ => exact r0
    | ⟨1, _⟩ => exact r1.trans hk
    | ⟨2, _⟩ => exact r2)

/-- Point n's addend at (b, m, h): the sum over the block's 256 rows of the arrays' entries' products. -/
theorem prod3_apply (c : Dev nD) (n : ℕ) (hn : n < cfg3.N) (b : Fin 8) (m : Fin 256) (h : Fin 768) :
    prod3 V c n (ix3 b m h)
      = ∑ r : Fin 256, term3 (V c (Pipeline.arrRef spec3 0)) (V c (Pipeline.arrRef spec3 1)) b (mrow3 ⟨n, hn⟩ m) h (nrow3 ⟨n, hn⟩ r) := by
  unfold prod3
  rw [dif_pos hn, ← Equiv.sum_comp (contrEquiv1 dot_S8x256x256_S8x256x768_S8x256x768_1_1_2_2_0_0 256 rfl rfl).symm]
  refine Finset.sum_congr rfl fun r _ => ?_
  rw [lhsD3, rhsD3, lhsBlk3_apply, rhsBlk3_apply]
  rfl

/-! ## From blocks to the array -/

/-- What a point that writes the block back (inner coordinate 7) writes is its block of `G3` of the arrays as the
    region finds them. -/
theorem flushed3_eq (c : Dev nD) (t : Fin cfg3.N) (hf : (cfg3.win 2).flush t = true) :
    (dat3 V c).flushed 2 t = ((cfg3.win 2).blk t).view.read (Elt Ideal) (G3 (V c (Pipeline.arrRef spec3 0)) (V c (Pipeline.arrRef spec3 1))) := by
  have h7 : t.val % 8 = 7 := (flush3_2 t).mp hf
  have hN : cfg3.N = 64 := N_3
  have ht := t.isLt
  rw [flushed3_2]
  funext y
  obtain ⟨b, m, h, rfl⟩ : ∃ (b : Fin 8) (m : Fin 256) (h : Fin 768), y = ix3 b m h := ⟨y 0, y 1, y 2, eq_ix3 y⟩
  refine (outAt3_apply V c t h7 (ix3 b m h)).trans ?_
  show _ = G3 _ _ (((cfg3.win 2).blk t).view.emb (ix3 b m h))
  rw [emb3_2, G3_apply, Cert.BlockSum.accum_eq, Finset.sum_range]
  refine congrArg (0 + ·) (Finset.sum_congr rfl fun k _ => ?_)
  have hk := k.isLt
  have hn : 8 * (t.val / 8) + k.val < cfg3.N := by omega
  rw [dif_pos hk, prod3_apply V c _ hn b m h]
  refine Finset.sum_congr rfl fun r _ => ?_
  have e1 : nrow3 ⟨8 * (t.val / 8) + k.val, hn⟩ r = ⟨k.val * 256 + r.val, by have := r.isLt; omega⟩ :=
    Fin.ext (by show ((8 * (t.val / 8) + k.val) % 8) * 256 + r.val = k.val * 256 + r.val; omega)
  have e2 : mrow3 ⟨8 * (t.val / 8) + k.val, hn⟩ m = mrow3 t m :=
    Fin.ext (by show ((8 * (t.val / 8) + k.val) / 8) * 256 + m.val = (t.val / 8) * 256 + m.val; omega)
  rw [e1, e2]

/-- An index of the array is in point t's block iff each coordinate is in the block's range on its axis. -/
theorem mem_blk3 (t : Fin cfg3.N) (i : S8x2048x768.Idx) :
    i ∈ ((cfg3.win 2).blk t).view.set ↔ ∀ a : Fin 3, win3_2.index t a * S8x256x768.size a ≤ (i a).val ∧ (i a).val < win3_2.index t a * S8x256x768.size a + S8x256x768.size a := by
  show i ∈ ((View.whole main_v12).slice (win3_2.rect t)).set ↔ _
  rw [View.set_slice_whole, Rect.mem_set_unit]
  exact Iff.rfl

/-- Every index of the output array is in the block of a point that writes it back: row mm in the block of the last
    inner point of outer coordinate mm / 256. -/
theorem cover3 (i : S8x2048x768.Idx) : ∃ t : Fin cfg3.N, (cfg3.win 2).flush t = true ∧ i ∈ ((cfg3.win 2).blk t).view.set := by
  have h0 : (i 0).val < 8 := (i 0).isLt
  have h1 : (i 1).val < 2048 := (i 1).isLt
  have h2 : (i 2).val < 768 := (i 2).isLt
  have hN : cfg3.N = 64 := N_3
  let t : Fin cfg3.N := ⟨((i 1).val / 256) * 8 + 7, by omega⟩
  obtain ⟨-, -, -, -, -, -, e0, e1, e2⟩ := idx_facts3 t
  have q1 : win3_2.index t (1 : Fin 3) = (i 1).val / 256 :=
    e1.trans (by show (((i 1).val / 256) * 8 + 7) / 8 = (i 1).val / 256; omega)
  refine ⟨t, (flush3_2 t).mpr (by show (((i 1).val / 256) * 8 + 7) % 8 = 7; omega), ?_⟩
  rw [mem_blk3]
  intro a
  match a with
  | ⟨0, _⟩ => show win3_2.index t (0 : Fin 3) * 8 ≤ (i 0).val ∧ (i 0).val < win3_2.index t (0 : Fin 3) * 8 + 8; omega
  | ⟨1, _⟩ => show win3_2.index t (1 : Fin 3) * 256 ≤ (i 1).val ∧ (i 1).val < win3_2.index t (1 : Fin 3) * 256 + 256; omega
  | ⟨2, _⟩ => show win3_2.index t (2 : Fin 3) * 768 ≤ (i 2).val ∧ (i 2).val < win3_2.index t (2 : Fin 3) * 768 + 768; omega

/-- The output array after the region: `G3` of the two input arrays as the region finds them. -/
theorem final3 (c : Dev nD) : (dat3 (F := Ideal) V c).arrAt 2 cfg3.N = G3 (V c (Pipeline.arrRef spec3 0)) (V c (Pipeline.arrRef spec3 1)) :=
  (dat3 V c).arrAt_eq_of_cover 2 _ (fun t hf => flushed3_eq V c t hf) cover3

/-- The output array after the region at (b, mm, h), in the accumulation's own grouping. -/
theorem final3_apply (c : Dev nD) (b : Fin 8) (mm : Fin 2048) (h : Fin 768) :
    ((dat3 (F := Ideal) V c).arrAt 2 cfg3.N : S8x2048x768.Idx → EReal) (ix3 b mm h)
      = Cert.BlockSum.accum (0 : EReal)
          (fun k => if hk : k < 8 then ∑ r : Fin 256, term3 (V c (Pipeline.arrRef spec3 0)) (V c (Pipeline.arrRef spec3 1)) b mm h ⟨k * 256 + r.val, by have := r.isLt; omega⟩ else 0) 8 := by
  rw [final3]; rfl

/-- The input arrays end as entered. -/
theorem kept3_0 (c : Dev nD) : (dat3 (F := Ideal) V c).arrAt 0 cfg3.N = V c (Pipeline.arrRef spec3 0) :=
  ((dat3 V c).arrAt_in 0 rfl cfg3.N).trans (A_eq3 V c 0)
theorem kept3_1 (c : Dev nD) : (dat3 (F := Ideal) V c).arrAt 1 cfg3.N = V c (Pipeline.arrRef spec3 1) :=
  ((dat3 V c).arrAt_in 1 rfl cfg3.N).trans (A_eq3 V c 1)

end Cert.KernelIdeal.Fr

end
-- ==== Proof.KI.Val4.lean ====
/- Region 4 of @main, its VALUES. At any float instance: what each case leaves in the scratch and in the output's
   staging buffer as a term over the case's payloads; what the scratch holds after any point as the fold of its run of
   eight inner points (the reset at the run's first point, the step at each later one); what the output's buffer holds
   at a last inner point. At the ideal values: that fold read at an index is the sum, over the run's points up to
   there and over the contraction index, of the products of the two input blocks' entries — started from zero. -/
import proofs.«125380_j79173427134694_2_alg».proof.Proof.KI.Reg4
import Idealize.ShloMosaic.Lib.Pipeline.Value
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic Idealize.SL.Sem
open Idealize.ShloMosaic.Pipeline (Dat)

section AnyFloat
variable {F : FTy → Type} [FloatOps F]
variable (V : (c : Dev nD) → (b : Ref sig .tc) → Buf (Elt F) ((c : Thread nD τ).loc b))

theorem hzr4 : (![0, 0, 0] : Fin 3 → Nat) = fun _ => 0 := funext fun a => by fin_cases a <;> rfl

/-! ## What each case leaves, as a term -/

/-- Case A leaves in the scratch the first partial product added to the zero splat it has just stored. -/
theorem sout4_A_eq (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : cond4_0 i) (hc1 : ¬cond4_1 i) (x0 : Vec F S8x256x256 .bf16) (x1 : Vec F S8x256x768 .bf16) :
    sout4_A c i arg2 harg2 arg3 harg3 arg4 harg4 arg5 harg5 hc0 hc1 x0 x1 = k4_pay2 x0 x1 (k4_pay1 (F := F)) := by
  unfold sout4_A
  rw [View.read_writes_eq_canon _ _ _ (scover4_A c i arg2 harg2 arg3 harg3 arg4 harg4 arg5 harg5 hc0 hc1 x0 x1)]
  unfold kernelRun4_A
  dsimp only
  try sl_unfold_words
  rw [View.canon_cons_unit_zero (S := S8x256x768) hzr4, View.readCov_unit_zero (S := S8x256x768) _ hzr4]
  simp only [View.readAt_eq_ld, harg2.read_unread, harg3.read_unread, harg4.read_unread, harg5.read_unread, View.ld_unit_zero (S := S8x256x768) hzr4, View.ld_unit_zero (S := S8x256x256) hzr4, shapeCast_self]

/-- Case B leaves in the scratch this point's partial product added to what the point before left (`xs0`). -/
theorem sout4_B_eq (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : ¬cond4_1 i) (x0 : Vec F S8x256x256 .bf16) (x1 : Vec F S8x256x768 .bf16) (xs0 : Vec F S8x256x768 .f32) :
    sout4_B c i arg2 harg2 arg3 harg3 arg4 harg4 arg5 harg5 hc0 hc1 x0 x1 xs0 = k4_pay2 x0 x1 xs0 := by
  unfold sout4_B
  rw [View.read_writes_eq_canon _ _ _ (scover4_B c i arg2 harg2 arg3 harg3 arg4 harg4 arg5 harg5 hc0 hc1 x0 x1 xs0)]
  unfold kernelRun4_B
  dsimp only
  try sl_unfold_words
  rw [View.canon_cons_unit_zero (S := S8x256x768) hzr4]
  simp only [View.readAt_eq_ld, harg2.read_unread, harg3.read_unread, harg4.read_unread, harg5.read_unread, View.ld_unit_zero (S := S8x256x768) hzr4, View.ld_unit_zero (S := S8x256x256) hzr4, shapeCast_self]

/-- Case C leaves the same in the scratch, -/
theorem sout4_C_eq (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) :
    sout4_C c i arg2 harg2 arg3 harg3 arg4 harg4 arg5 harg5 hc0 hc1 x0 x1 xs0 = k4_pay2 x0 x1 xs0 := by
  unfold sout4_C
  rw [View.read_writes_eq_canon _ _ _ (scover4_C c i arg2 harg2 arg3 harg3 arg4 harg4 arg5 harg5 hc0 hc1 x0 x1 xs0)]
  unfold kernelRun4_C
  dsimp only
  try sl_unfold_words
  rw [View.canon_cons_unit_zero (S := S8x256x768) hzr4]
  simp only [View.readAt_eq_ld, harg2.read_unread, harg3.read_unread, harg4.read_unread, harg5.read_unread, View.ld_unit_zero (S := S8x256x768) hzr4, View.ld_unit_zero (S := S8x256x256) hzr4, shapeCast_self]

/-- and in the output's staging buffer that sum rounded to the output's element type. -/
theorem out4_C_2_eq (c : Dev nD) (i : grid4.Coords) (arg2 : Memref sig .tc .vmem S8x256x256 .bf16) (harg2 : arg2.IsWhole) (arg3 : Memref sig .tc .vmem S8x256x768 .bf16) (harg3 : arg3.IsWhole) (arg4 : Memref sig .tc .vmem S8x256x768 .bf16) (harg4 : arg4.IsWhole) (arg5 : Memref sig .tc .vmem S8x256x768 .f32) (harg5 : arg5.IsWhole) (hc0 : ¬cond4_0 i) (hc1 : cond4_1 i) (x0 : Vec F S8x256x256 .bf16) (x1 : Vec F S8x256x768 .bf16) (xs0 : Vec F S8x256x768 .f32) :
    out4_C_2 c i arg2 harg2 arg3 harg3 arg4 harg4 arg5 harg5 hc0 hc1 x0 x1 xs0 = k4_pay3 (k4_pay2 x0 x1 xs0) := by
  unfold out4_C_2
  rw [View.read_writes_eq_canon _ _ _ (cover4_C_2 c i arg2 harg2 arg3 harg3 arg4 harg4 arg5 harg5 hc0 hc1 x0 x1 xs0)]
  unfold kernelRun4_C
  dsimp only
  try sl_unfold_words
  rw [View.canon_cons_unit_zero (S := S8x256x768) hzr4, View.readCov_unit_zero (S := S8x256x768) _ hzr4]
  simp only [View.readAt_eq_ld, harg2.read_unread, harg3.read_unread, harg4.read_unread, harg5.read_unread, View.ld_unit_zero (S := S8x256x768) hzr4, View.ld_unit_zero (S := S8x256x256) hzr4, shapeCast_self]

/-! ## The scratch after any point: the fold of its run -/

/-- THE RESET: what the scratch holds after a run's first point (inner coordinate 0), over that point's input blocks. -/
def reset4 (c : Dev nD) (n : ℕ) (h : n < cfg4.N) : Vec F S8x256x768 .f32 :=
  k4_pay2 (iblk4 V c 0 ⟨n, h⟩) (iblk4 V c 1 ⟨n, h⟩) (k4_pay1 (F := F))

/-- THE STEP: what it holds after a later point `n` of the run, over what the point before left (`acc`). -/
def step4 (c : Dev nD) (n : ℕ) (h : n < cfg4.N) (acc : Vec F S8x256x768 .f32) : Vec F S8x256x768 .f32 :=
  k4_pay2 (iblk4 V c 0 ⟨n, h⟩) (iblk4 V c 1 ⟨n, h⟩) acc

/-- WHAT THE SCRATCH HOLDS after point `t`: the fold of its run — the points `8·(t / 8) … t` — up to `t`. -/
theorem scratchAt4_eq (c : Dev nD) (t : Fin cfg4.N) :
    (outsAt4 V c t.val t.isLt).2 = Pipeline.accAt (reset4 V c) (step4 V c) (8 * (t.val / 8)) (t.val % 8)
      (by have h1 := t.isLt; have h2 := Nat.div_add_mod t.val 8; omega) :=
  Pipeline.eq_accAt_of_mod (fun n h => (outsAt4 V c n h).2) 8 (reset4 V c) (step4 V c)
    (fun n h hn => by
      rw [outsAt4_A V c ⟨n, h⟩ hn (by show ¬(n % 8 = 7); omega)]
      unfold stepA4 reset4; dsimp only
      rw [sout4_A_eq])
    (fun n h hn => by
      by_cases h7 : (n + 1) % 8 = 7
      · rw [outsAt4_C V c ⟨n + 1, h⟩ hn h7]
        unfold stepC4 step4; dsimp only
        rw [sout4_C_eq]; rfl
      · rw [outsAt4_B V c ⟨n + 1, h⟩ hn h7]
        unfold stepB4 step4; dsimp only
        rw [sout4_B_eq]; rfl)
    (by decide) t.val t.isLt _

/-- WHAT THE OUTPUT'S BUFFER HOLDS after a last inner point (the only points that write the block back): what the
    scratch then holds, rounded to the output's element type. -/
theorem outAt4_last (c : Dev nD) (t : Fin cfg4.N) (h7 : t.val % 8 = 7) :
    (outsAt4 V c t.val t.isLt).1 = k4_pay3 ((outsAt4 V c t.val t.isLt).2) := by
  have h0 : ¬t.val % 8 = 0 := by omega
  rw [outsAt4_C V c t h0 h7]
  unfold stepC4; dsimp only
  rw [out4_C_2_eq, sout4_C_eq]

/-- What point `t` writes back to the output's array (when it does): the output's staging contents after the body,
    read through the window's block. -/
theorem flushed4_2 (c : Dev nD) (t : Fin cfg4.N) :
    (dat4 V c).flushed 2 t = (cfg4.win 2).cut (grid4.coords t) ((outsAt4 V c t.val t.isLt).1) := by
  show (cfg4.win 2).cut (grid4.coords t) ((dat4 V c).after 2 t) = _
  rw [after4_2]

end AnyFloat

section AtIdeal
variable (V : (c : Dev nD) → (b : Ref sig .tc) → Buf (Elt Ideal) ((c : Thread nD τ).loc b))

/-! ## At the ideal values -/

/-- The zero splat the first point stores is zero at every index. -/
theorem pay1_4_apply (j : S8x256x768.Idx) : (k4_pay1 (F := Ideal)) j = 0 := by
  unfold k4_pay1
  simp only [shapeCast_self]
  exact Ideal.ofBits_zero_f32

/-- A point's update of the scratch read at an index: what the scratch held there plus the sum over the contraction
    index of the products of the two input blocks' entries (no rounding, no order). -/
theorem pay2_4_apply (x0 : FVec Ideal S8x256x256 .bf16) (x1 : FVec Ideal S8x256x768 .bf16) (acc : FVec Ideal S8x256x768 .f32) (j : S8x256x768.Idx) :
    k4_pay2 x0 x1 acc j = acc j + ∑ k : dot_S8x256x256_S8x256x768_S8x256x768_2_1_1_2_0_0.contr.Idx, x0 (dot_S8x256x256_S8x256x768_S8x256x768_2_1_1_2_0_0.lhsIdx j k) * x1 (dot_S8x256x256_S8x256x768_S8x256x768_2_1_1_2_0_0.rhsIdx j k) := by
  unfold k4_pay2
  simp only [shapeCast_self]
  exact congrArg (acc j + ·) (Ideal.matmul_constant_zero_apply dot_S8x256x256_S8x256x768_S8x256x768_2_1_1_2_0_0 none x0 x1 j)

/-- The rounding to the output's element type is the identity. -/
theorem pay3_4_apply (v : FVec Ideal S8x256x768 .f32) (j : S8x256x768.Idx) : (k4_pay3 (F := Ideal) v j : EReal) = v j := rfl

/-- The two input blocks the pipeline stages at point `n`, at their shapes. -/
def lhsBlk4 (c : Dev nD) (n : ℕ) (h : n < cfg4.N) : FVec Ideal S8x256x256 .bf16 := iblk4 V c 0 ⟨n, h⟩
def rhsBlk4 (c : Dev nD) (n : ℕ) (h : n < cfg4.N) : FVec Ideal S8x256x768 .bf16 := iblk4 V c 1 ⟨n, h⟩

/-- Point `n`'s ADDEND at output index `j`: the sum over the contraction index of the products of the entries of the
    two input blocks the pipeline stages at that point (zero past the grid, where it is never read). -/
def prod4 (c : Dev nD) (n : ℕ) (j : S8x256x768.Idx) : EReal :=
  if h : n < cfg4.N then
    ∑ k : dot_S8x256x256_S8x256x768_S8x256x768_2_1_1_2_0_0.contr.Idx, lhsBlk4 V c n h (dot_S8x256x256_S8x256x768_S8x256x768_2_1_1_2_0_0.lhsIdx j k) * rhsBlk4 V c n h (dot_S8x256x256_S8x256x768_S8x256x768_2_1_1_2_0_0.rhsIdx j k)
  else 0

/-- WHAT THE SCRATCH HOLDS after point `t`, read at an index: zero plus the addends of the run's points up to `t`. -/
theorem scratchAt4_apply (c : Dev nD) (t : Fin cfg4.N) (j : S8x256x768.Idx) :
    (outsAt4 V c t.val t.isLt).2 j = 0 + ∑ s ∈ Finset.range (t.val % 8 + 1), prod4 V c (8 * (t.val / 8) + s) j := by
  rw [scratchAt4_eq]
  exact Pipeline.accAt_add_apply (β := EReal) (reset4 V c) (step4 V c) (fun _ => 0) (prod4 V c) (8 * (t.val / 8)) 7
    (fun h i => by
      unfold prod4; rw [dif_pos h]
      show k4_pay2 (F := Ideal) (lhsBlk4 V c _ h) (rhsBlk4 V c _ h) (k4_pay1 (F := Ideal)) i = _
      rw [pay2_4_apply, pay1_4_apply])
    (fun n h acc i _ _ => by
      unfold prod4; rw [dif_pos h]
      show k4_pay2 (F := Ideal) (lhsBlk4 V c n h) (rhsBlk4 V c n h) acc i = _
      rw [pay2_4_apply])
    (t.val % 8) (by omega) _ j

/-- WHAT THE OUTPUT'S BUFFER HOLDS after a last inner point — the block the region writes back there —, read at an
    index: zero plus the eight addends of the run, i.e. the sum over the run's eight points and over the contraction
    index of the products of the input blocks' entries. -/
theorem outAt4_apply (c : Dev nD) (t : Fin cfg4.N) (h7 : t.val % 8 = 7) (j : S8x256x768.Idx) :
    (outsAt4 V c t.val t.isLt).1 j = 0 + ∑ s ∈ Finset.range 8, prod4 V c (8 * (t.val / 8) + s) j := by
  rw [outAt4_last V c t h7, pay3_4_apply, scratchAt4_apply, h7]

/-- The dot's operand indices at output index `j` and contraction index `k`, coordinate by coordinate. -/
theorem dot4_idx (j : S8x256x768.Idx) (k : dot_S8x256x256_S8x256x768_S8x256x768_2_1_1_2_0_0.contr.Idx) :
    (dot_S8x256x256_S8x256x768_S8x256x768_2_1_1_2_0_0.lhsIdx j k 0).val = (j 0).val ∧ (dot_S8x256x256_S8x256x768_S8x256x768_2_1_1_2_0_0.lhsIdx j k 1).val = (j 1).val ∧ (dot_S8x256x256_S8x256x768_S8x256x768_2_1_1_2_0_0.lhsIdx j k 2).val = (k ⟨0, by decide⟩).val
    ∧ (dot_S8x256x256_S8x256x768_S8x256x768_2_1_1_2_0_0.rhsIdx j k 0).val = (j 0).val ∧ (dot_S8x256x256_S8x256x768_S8x256x768_2_1_1_2_0_0.rhsIdx j k 1).val = (k ⟨0, by decide⟩).val ∧ (dot_S8x256x256_S8x256x768_S8x256x768_2_1_1_2_0_0.rhsIdx j k 2).val = (j 2).val :=
  ⟨rfl, rfl, rfl, rfl, rfl, rfl⟩

end AtIdeal

end Cert.KernelIdeal.Fr

end
-- ==== Proof.KI.Fin4.lean ====
/- Region 4 from blocks to the array, at the ideal values and at the entry contents `V`: the output array ends as ONE
   function of the two input arrays — entry (b, n, d) the sum over the 2048 positions m of the weights' entry (b, n, m)
   times the layer's entry (b, m, d) —, reached as the accumulation over the eight inner points of each block row; the
   input arrays end as entered. -/
import proofs.«125380_j79173427134694_2_alg».proof.Proof.KI.Reg4
import proofs.«125380_j79173427134694_2_alg».proof.Proof.KI.Val4
import proofs.«125380_j79173427134694_2_alg».proof.Proof.LibBlockSum
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One product: the weights' entry (b, n, m) times the layer's entry (b, m, d). -/
abbrev term4 (Wb : Vec Ideal S8x2048x2048 .bf16) (T : Vec Ideal S8x2048x768 .bf16) (b : Fin 8) (n : Fin 2048) (d : Fin 768) (m : Fin 2048) : EReal :=
  Wb (ix3 b n m) * T (ix3 b m d)

/-- The attended sum of the whole arrays: entry (b, n, d) is the sum over m of Wb (b, n, m) times T (b, m, d). -/
def G4 (Wb : Vec Ideal S8x2048x2048 .bf16) (T : Vec Ideal S8x2048x768 .bf16) : Vec Ideal S8x2048x768 .bf16 :=
  fun j => ∑ m : Fin 2048, term4 Wb T (j 0) (j 1) (j 2) m

theorem G4_apply (Wb : Vec Ideal S8x2048x2048 .bf16) (T : Vec Ideal S8x2048x768 .bf16) (b : Fin 8) (n : Fin 2048) (d : Fin 768) :
    G4 Wb T (ix3 b n d) = ∑ m : Fin 2048, term4 Wb T b n d m := rfl

/-- Entry y of block k among 8 blocks of 256. -/
def pos4 (k : Fin 8) (y : Fin 256) : Fin 2048 := ⟨k.val * 256 + y.val, by have := k.isLt; have := y.isLt; omega⟩

/-- The block index maps over the grid, at point t = 8 i + k: the weights' block sits at (0, i, k), the layer's at
    (0, k, 0), the output's at (0, i, 0). -/
theorem idx_facts4 : ∀ t : Fin cfg4.N, win4_0.index t (0 : Fin 3) = 0 ∧ win4_0.index t (1 : Fin 3) = t.val / 8 ∧ win4_0.index t (2 : Fin 3) = t.val % 8
    ∧ win4_1.index t (0 : Fin 3) = 0 ∧ win4_1.index t (1 : Fin 3) = t.val % 8 ∧ win4_1.index t (2 : Fin 3) = 0
    ∧ win4_2.index t (0 : Fin 3) = 0 ∧ win4_2.index t (1 : Fin 3) = t.val / 8 ∧ win4_2.index t (2 : Fin 3) = 0 :=
  (by decide +kernel : ∀ t : Fin grid4.N, _)

/-- Where an element of each window's block at point t = 8 i + k sits in its array. -/
theorem emb4_0 (t : Fin cfg4.N) (i k : Fin 8) (ht : t.val = 8 * i.val + k.val) (b : Fin 8) (y r : Fin 256) :
    ((cfg4.win 0).blk t).view.emb (ix3 b y r) = (ix3 b (pos4 i y) (pos4 k r) : S8x2048x2048.Idx) := by
  obtain ⟨e0, e1, e2, -⟩ := idx_facts4 t
  have := i.isLt; have := k.isLt
  funext a; apply Fin.ext
  match a with
  | ⟨0, _⟩ => show win4_0.index t (0 : Fin 3) * 8 + 1 * b.val = b.val; omega
  | ⟨1, _⟩ => show win4_0.index t (1 : Fin 3) * 256 + 1 * y.val = i.val * 256 + y.val; omega
  | ⟨2, _⟩ => show win4_0.index t (2 : Fin 3) * 256 + 1 * r.val = k.val * 256 + r.val; omega
theorem emb4_1 (t : Fin cfg4.N) (i k : Fin 8) (ht : t.val = 8 * i.val + k.val) (b : Fin 8) (r : Fin 256) (d : Fin 768) :
    ((cfg4.win 1).blk t).view.emb (ix3 b r d) = (ix3 b (pos4 k r) d : S8x2048x768.Idx) := by
  obtain ⟨-, -, -, e0, e1, e2, -⟩ := idx_facts4 t
  have := i.isLt; have := k.isLt
  funext a; apply Fin.ext
  match a with
  | ⟨0, _⟩ => show win4_1.index t (0 : Fin 3) * 8 + 1 * b.val = b.val; omega
  | ⟨1, _⟩ => show win4_1.index t (1 : Fin 3) * 256 + 1 * r.val = k.val * 256 + r.val; omega
  | ⟨2, _⟩ => show win4_1.index t (2 : Fin 3) * 768 + 1 * d.val = d.val; omega
theorem emb4_2 (t : Fin cfg4.N) (i k : Fin 8) (ht : t.val = 8 * i.val + k.val) (b : Fin 8) (y : Fin 256) (d : Fin 768) :
    ((cfg4.win 2).blk t).view.emb (ix3 b y d) = (ix3 b (pos4 i y) d : S8x2048x768.Idx) := by
  obtain ⟨-, -, -, -, -, -, e0, e1, e2⟩ := idx_facts4 t
  have := i.isLt; have := k.isLt
  funext a; apply Fin.ext
  match a with
  | ⟨0, _⟩ => show win4_2.index t (0 : Fin 3) * 8 + 1 * b.val = b.val; omega
  | ⟨1, _⟩ => show win4_2.index t (1 : Fin 3) * 256 + 1 * y.val = i.val * 256 + y.val; omega
  | ⟨2, _⟩ => show win4_2.index t (2 : Fin 3) * 768 + 1 * d.val = d.val; omega

/-- Each input block at an index, read off its array. -/
theorem iblk4_0_apply (c : Dev nD) (t : Fin cfg4.N) (i k : Fin 8) (ht : t.val = 8 * i.val + k.val) (b : Fin 8) (y r : Fin 256) :
    (iblk4 V c 0 t : Vec Ideal S8x256x256 .bf16) (ix3 b y r) = (V c (Pipeline.arrRef spec4 0) : Vec Ideal S8x2048x2048 .bf16) (ix3 b (pos4 i y) (pos4 k r)) := by
  show (V c (Pipeline.arrRef spec4 0) : Vec Ideal S8x2048x2048 .bf16) (((cfg4.win 0).blk t).view.emb (ix3 b y r)) = _
  exact congrArg _ (emb4_0 t i k ht b y r)
theorem iblk4_1_apply (c : Dev nD) (t : Fin cfg4.N) (i k : Fin 8) (ht : t.val = 8 * i.val + k.val) (b : Fin 8) (r : Fin 256) (d : Fin 768) :
    (iblk4 V c 1 t : Vec Ideal S8x256x768 .bf16) (ix3 b r d) = (V c (Pipeline.arrRef spec4 1) : Vec Ideal S8x2048x768 .bf16) (ix3 b (pos4 k r) d) := by
  show (V c (Pipeline.arrRef spec4 1) : Vec Ideal S8x2048x768 .bf16) (((cfg4.win 1).blk t).view.emb (ix3 b r d)) = _
  exact congrArg _ (emb4_1 t i k ht b r d)

/-- The dot's operand indices at output (b, y, d) and contraction position r: (b, y, r) and (b, r, d). -/
theorem lhs4 (b : Fin 8) (y : Fin 256) (d : Fin 768) (r : Fin 256) :
    dot_S8x256x256_S8x256x768_S8x256x768_2_1_1_2_0_0.lhsIdx (ix3 b y d) ((contrEquiv1 dot_S8x256x256_S8x256x768_S8x256x768_2_1_1_2_0_0 256 rfl rfl).symm r) = ix3 b y r :=
  funext fun a => Fin.ext (by
    have hk := contrEquiv1_symm_val dot_S8x256x256_S8x256x768_S8x256x768_2_1_1_2_0_0 256 rfl rfl r
    obtain ⟨h0, h1, h2, -⟩ := dot4_idx (ix3 b y d) ((contrEquiv1 dot_S8x256x256_S8x256x768_S8x256x768_2_1_1_2_0_0 256 rfl rfl).symm r)
    match a with
    | ⟨0, _⟩ => exact h0
    | ⟨1, _⟩ => exact h1
    | ⟨2, _⟩ => exact h2.trans hk)
theorem rhs4 (b : Fin 8) (y : Fin 256) (d : Fin 768) (r : Fin 256) :
    dot_S8x256x256_S8x256x768_S8x256x768_2_1_1_2_0_0.rhsIdx (ix3 b y d) ((contrEquiv1 dot_S8x256x256_S8x256x768_S8x256x768_2_1_1_2_0_0 256 rfl rfl).symm r) = ix3 b r d :=
  funext fun a => Fin.ext (by
    have hk := contrEquiv1_symm_val dot_S8x256x256_S8x256x768_S8x256x768_2_1_1_2_0_0 256 rfl rfl r
    obtain ⟨-, -, -, h0, h1, h2⟩ := dot4_idx (ix3 b y d) ((contrEquiv1 dot_S8x256x256_S8x256x768_S8x256x768_2_1_1_2_0_0 256 rfl rfl).symm r)
    match a with
    | ⟨0, _⟩ => exact h0
    | ⟨1, _⟩ => exact h1.trans hk
    | ⟨2, _⟩ => exact h2)

/-- Point 8 i + k's addend at (b, y, d) of its block row: block k's 256 products of the two arrays' entries. -/
theorem prod4_apply (c : Dev nD) (i k : Fin 8) (b : Fin 8) (y : Fin 256) (d : Fin 768) :
    prod4 V c (8 * i.val + k.val) (ix3 b y d)
      = ∑ r : Fin 256, term4 (V c (Pipeline.arrRef spec4 0)) (V c (Pipeline.arrRef spec4 1)) b (pos4 i y) d (pos4 k r) := by
  have hN : cfg4.N = 64 := N_4
  have hlt : 8 * i.val + k.val < cfg4.N := by have := i.isLt; have := k.isLt; omega
  unfold prod4
  rw [dif_pos hlt, ← Equiv.sum_comp (contrEquiv1 dot_S8x256x256_S8x256x768_S8x256x768_2_1_1_2_0_0 256 rfl rfl).symm]
  refine Finset.sum_congr rfl fun r _ => ?_
  rw [lhs4, rhs4]
  unfold lhsBlk4 rhsBlk4
  rw [iblk4_0_apply V c ⟨_, hlt⟩ i k rfl, iblk4_1_apply V c ⟨_, hlt⟩ i k rfl]

/-- What a last inner point writes back is its block of `G4` of the arrays as the region finds them. -/
theorem flushed4_eq (c : Dev nD) (t : Fin cfg4.N) (hf : (cfg4.win 2).flush t = true) :
    (dat4 V c).flushed 2 t = ((cfg4.win 2).blk t).view.read (Elt Ideal)
      (G4 (V c (Pipeline.arrRef spec4 0)) (V c (Pipeline.arrRef spec4 1))) := by
  have hN : cfg4.N = 64 := N_4
  have h7 : t.val % 8 = 7 := (flush4_2 t).mp hf
  have hi : t.val / 8 < 8 := by have := t.isLt; omega
  rw [flushed4_2]
  funext y
  obtain ⟨b, yr, d, rfl⟩ : ∃ (b : Fin 8) (yr : Fin 256) (d : Fin 768), y = ix3 b yr d := ⟨y 0, y 1, y 2, eq_ix3 y⟩
  show (outsAt4 V c t.val t.isLt).1 (ix3 b yr d) = G4 _ _ (((cfg4.win 2).blk t).view.emb (ix3 b yr d))
  rw [emb4_2 t ⟨t.val / 8, hi⟩ 7 (by show t.val = 8 * (t.val / 8) + 7; omega), G4_apply, outAt4_apply V c t h7, zero_add,
    Finset.sum_range, Cert.BlockSum.sum_2048]
  refine Finset.sum_congr rfl fun k _ => ?_
  exact prod4_apply V c ⟨t.val / 8, hi⟩ k b yr d

/-- An index of the array is in point t's block iff each coordinate is in the block's range on its axis. -/
theorem mem_blk4 (t : Fin cfg4.N) (i : S8x2048x768.Idx) :
    i ∈ ((cfg4.win 2).blk t).view.set ↔ ∀ a : Fin 3, win4_2.index t a * S8x256x768.size a ≤ (i a).val ∧ (i a).val < win4_2.index t a * S8x256x768.size a + S8x256x768.size a := by
  show i ∈ ((View.whole main_v13).slice (win4_2.rect t)).set ↔ _
  rw [View.set_slice_whole, Rect.mem_set_unit]
  exact Iff.rfl

/-- Every index of the output array is in some writing point's block: row n in the block of the last inner point of
    block row n / 256. -/
theorem cover4 (i : S8x2048x768.Idx) : ∃ t : Fin cfg4.N, (cfg4.win 2).flush t = true ∧ i ∈ ((cfg4.win 2).blk t).view.set := by
  have h0 : (i 0).val < 8 := (i 0).isLt
  have h1 : (i 1).val < 2048 := (i 1).isLt
  have h2 : (i 2).val < 768 := (i 2).isLt
  have hN : cfg4.N = 64 := N_4
  let t : Fin cfg4.N := ⟨(i 1).val / 256 * 8 + 7, by omega⟩
  obtain ⟨-, -, -, -, -, -, e0, e1, e2⟩ := idx_facts4 t
  have q1 : win4_2.index t (1 : Fin 3) = ((i 1).val / 256 * 8 + 7) / 8 := e1
  refine ⟨t, (flush4_2 t).mpr (by show ((i 1).val / 256 * 8 + 7) % 8 = 7; omega), ?_⟩
  rw [mem_blk4]
  intro a
  match a with
  | ⟨0, _⟩ => show win4_2.index t (0 : Fin 3) * 8 ≤ (i 0).val ∧ (i 0).val < win4_2.index t (0 : Fin 3) * 8 + 8; omega
  | ⟨1, _⟩ => show win4_2.index t (1 : Fin 3) * 256 ≤ (i 1).val ∧ (i 1).val < win4_2.index t (1 : Fin 3) * 256 + 256; omega
  | ⟨2, _⟩ => show win4_2.index t (2 : Fin 3) * 768 ≤ (i 2).val ∧ (i 2).val < win4_2.index t (2 : Fin 3) * 768 + 768; omega

/-- The output array after the region: `G4` of the two input arrays as the region finds them. -/
theorem final4 (c : Dev nD) : (dat4 (F := Ideal) V c).arrAt 2 cfg4.N
    = G4 (V c (Pipeline.arrRef spec4 0)) (V c (Pipeline.arrRef spec4 1)) :=
  (dat4 V c).arrAt_eq_of_cover 2 _ (fun t hf => flushed4_eq V c t hf) cover4

/-- At (b, n, d): the sum over the 2048 positions. -/
theorem final4_at (c : Dev nD) (b : Fin 8) (n : Fin 2048) (d : Fin 768) :
    (dat4 (F := Ideal) V c).arrAt 2 cfg4.N (ix3 b n d)
      = ∑ m : Fin 2048, term4 (V c (Pipeline.arrRef spec4 0)) (V c (Pipeline.arrRef spec4 1)) b n d m := by
  rw [final4]; rfl

/-- The same in the accumulation's own grouping: from zero, block after block of 256 positions. -/
theorem final4_accum (c : Dev nD) (b : Fin 8) (n : Fin 2048) (d : Fin 768) :
    (dat4 (F := Ideal) V c).arrAt 2 cfg4.N (ix3 b n d)
      = Cert.BlockSum.accum (0 : EReal) (fun k => if h : k < 8 then ∑ r : Fin 256,
          term4 (V c (Pipeline.arrRef spec4 0)) (V c (Pipeline.arrRef spec4 1)) b n d ⟨k * 256 + r.val, by have := r.isLt; omega⟩ else 0) 8 :=
  (final4_at V c b n d).trans (Cert.BlockSum.accum_2048 (term4 (V c (Pipeline.arrRef spec4 0)) (V c (Pipeline.arrRef spec4 1)) b n d)).symm

/-- The two input arrays end as entered. -/
theorem kept4_0 (c : Dev nD) : (dat4 (F := Ideal) V c).arrAt 0 cfg4.N = V c (Pipeline.arrRef spec4 0) :=
  ((dat4 V c).arrAt_in 0 rfl cfg4.N).trans (A_eq4 V c 0)
theorem kept4_1 (c : Dev nD) : (dat4 (F := Ideal) V c).arrAt 1 cfg4.N = V c (Pipeline.arrRef spec4 1) :=
  ((dat4 V c).arrAt_in 1 rfl cfg4.N).trans (A_eq4 V c 1)

end Cert.KernelIdeal.Fr

end
-- ==== Proof.KI.Val5.lean ====
/- Region 5's output block at an index, at the ideal values: row r, column h is the dot product of the first input's row with the first weight's row, plus that of the second input with the second weight, plus the bias. -/
import proofs.«125380_j79173427134694_2_alg».proof.Proof.KI.Reg5
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Fr

open Cert.KernelIdeal Cert.KernelIdeal.Gen
open Idealize.ShloMosaic Idealize.ShloMosaic.TcCoe Idealize.SL.Sem
open Idealize.ShloMosaic.ValueIdx

/-- The two zero offsets, however spelt. -/
theorem zeros2_5 : (![0, 0] : Fin 2 → Nat) = fun _ => 0 := funext fun a => by fin_cases a <;> rfl

theorem lhs5_c0 (i : S1024x768.Idx) (q : dot_S1024x768_S768x768_S1024x768_1_0_0_1_n_n.contr.Idx) : (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs5_c1 (i : S1024x768.Idx) (q : dot_S1024x768_S768x768_S1024x768_1_0_0_1_n_n.contr.Idx) : (dot_S1024x768_S768x768_S1024x768_1_0_0_1_n_n.lhsIdx i q 1).val = (q ⟨0, by decide⟩).val :=
  dot_S1024x768_S768x768_S1024x768_1_0_0_1_n_n.lhsIdx_val_of_single rfl i q
theorem rhs5_c0 (i : S1024x768.Idx) (q : dot_S1024x768_S768x768_S1024x768_1_0_0_1_n_n.contr.Idx) : (dot_S1024x768_S768x768_S1024x768_1_0_0_1_n_n.rhsIdx i q 0).val = (q ⟨0, by decide⟩).val :=
  dot_S1024x768_S768x768_S1024x768_1_0_0_1_n_n.rhsIdx_val_of_single rfl i q
theorem rhs5_c1 (i : S1024x768.Idx) (q : dot_S1024x768_S768x768_S1024x768_1_0_0_1_n_n.contr.Idx) : (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The matmul's left operand index at output (r, h) and contraction index d is (r, d). -/
theorem lhs5 (r : Fin 1024) (h : Fin 768) (d : Fin 768) :
    dot_S1024x768_S768x768_S1024x768_1_0_0_1_n_n.lhsIdx (ix2 r h) ((contrEquiv1 dot_S1024x768_S768x768_S1024x768_1_0_0_1_n_n 768 rfl rfl).symm d) = ix2 r d :=
  funext fun a => Fin.ext (by
    have hk := contrEquiv1_symm_val dot_S1024x768_S768x768_S1024x768_1_0_0_1_n_n 768 rfl rfl d
    match a with
    | ⟨0, _⟩ => exact lhs5_c0 _ _
    | ⟨1, _⟩ => exact (lhs5_c1 _ _).trans hk)

/-- The right operand index there is (d, h). -/
theorem rhs5 (r : Fin 1024) (h : Fin 768) (d : Fin 768) :
    dot_S1024x768_S768x768_S1024x768_1_0_0_1_n_n.rhsIdx (ix2 r h) ((contrEquiv1 dot_S1024x768_S768x768_S1024x768_1_0_0_1_n_n 768 rfl rfl).symm d) = ix2 d h :=
  funext fun a => Fin.ext (by
    have hk := contrEquiv1_symm_val dot_S1024x768_S768x768_S1024x768_1_0_0_1_n_n 768 rfl rfl d
    match a with
    | ⟨0, _⟩ => exact (rhs5_c0 _ _).trans hk
    | ⟨1, _⟩ => exact rhs5_c1 _ _)

/-- A matmul into the zero splat, of x against the transpose of w, at (r, h): the dot product of row r of x with row h of w. -/
theorem mm5_apply (x : FVec Ideal S1024x768 .bf16) (w : FVec Ideal S768x768 .bf16) (r : Fin 1024) (h : Fin 768) :
    matmul (F := Ideal) dot_S1024x768_S768x768_S1024x768_1_0_0_1_n_n none x (transpose S768x768 [1, 0] w transposes_S768x768_p1_0_S768x768) (constant (F := Ideal) S1024x768 .f32 0x00000000#32) (ix2 r h)
      = ∑ d : Fin 768, x (ix2 r d) * w (ix2 h d) := by
  refine (Ideal.matmul_constant_zero_apply dot_S1024x768_S768x768_S1024x768_1_0_0_1_n_n none x _ (ix2 r h)).trans ?_
  rw [← Equiv.sum_comp (contrEquiv1 dot_S1024x768_S768x768_S1024x768_1_0_0_1_n_n 768 rfl rfl).symm]
  refine Finset.sum_congr rfl fun d _ => ?_
  rw [lhs5, rhs5, transpose_ix2_apply]

/-- The bias row broadcast down the rows, at (r, h). -/
theorem bias5_apply (b : FVec Ideal S1x768 .f32) (r : Fin 1024) (h : Fin 768) :
    broadcastTo S1024x768 b broadcasts_S1x768_S1024x768 (ix2 r h) = b (ix2 0 h) :=
  broadcastTo_apply _ _ _ _ fun a => match a with
    | ⟨0, _⟩ => rfl
    | ⟨1, _⟩ => rfl

/-- The body's payload at (r, h): the two dot products added, then the broadcast bias. -/
theorem k5_pay1_apply (a t : Vec Ideal S1024x768 .bf16) (wa wb : Vec Ideal S768x768 .bf16) (b : Vec Ideal S1x768 .f32) (r : Fin 1024) (h : Fin 768) :
    k5_pay1 (F := Ideal) a t wa wb b (ix2 r h)
      = (∑ k : Fin 768, a (ix2 r k) * wa (ix2 h k)) + (∑ k : Fin 768, t (ix2 r k) * wb (ix2 h k)) + b (ix2 0 h) := by
  unfold k5_pay1
  rw [addf_apply, addf_apply, shapeCast_self, shapeCast_self, shapeCast_self, shapeCast_self, shapeCast_self, mm5_apply, mm5_apply, bias5_apply]

/-- The output block at (r, h). -/
theorem out5_5_apply (a t : Vec Ideal S1024x768 .bf16) (wa wb : Vec Ideal S768x768 .bf16) (b : Vec Ideal S1x768 .f32) (r : Fin 1024) (h : Fin 768) :
    out5_5 (F := Ideal) a t wa wb b (ix2 r h)
      = (∑ k : Fin 768, a (ix2 r k) * wa (ix2 h k)) + (∑ k : Fin 768, t (ix2 r k) * wb (ix2 h k)) + b (ix2 0 h) := by
  unfold out5_5
  rw [View.canon_unit_zero (S := S1024x768) zeros2_5]
  simp only [View.ld_unit_zero (S := S1024x768) zeros2_5, View.ld_unit_zero (S := S768x768) zeros2_5, View.ld_unit_zero (S := S1x768) zeros2_5]
  exact k5_pay1_apply a t wa wb b r h

end Cert.KernelIdeal.Fr

end
-- ==== Proof.KI.Fin5.lean ====
/- Region 5 from blocks to the array, at the ideal values and at the entry contents `V`: the output array ends as ONE function of the five input arrays, row r column h the dot product of the first input's row r with the first weight's row h, plus that of the second input with the second weight, plus the bias; the input arrays end as entered. -/
import proofs.«125380_j79173427134694_2_alg».proof.Proof.KI.Reg5
import proofs.«125380_j79173427134694_2_alg».proof.Proof.KI.Val5
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The output projection of the whole arrays. -/
def G5 (A T : Vec Ideal S16384x768 .bf16) (WA WB : Vec Ideal S768x768 .bf16) (B : Vec Ideal S1x768 .f32) : Vec Ideal S16384x768 .f32 :=
  fun j => (∑ k : Fin 768, A (ix2 (j 0) k) * WA (ix2 (j 1) k)) + (∑ k : Fin 768, T (ix2 (j 0) k) * WB (ix2 (j 1) k)) + B (ix2 0 (j 1))

/-- `G5` at row R, column h. -/
theorem G5_apply (A T : Vec Ideal S16384x768 .bf16) (WA WB : Vec Ideal S768x768 .bf16) (B : Vec Ideal S1x768 .f32) (R : Fin 16384) (h : Fin 768) :
    G5 A T WA WB B (ix2 R h) = (∑ k : Fin 768, A (ix2 R k) * WA (ix2 h k)) + (∑ k : Fin 768, T (ix2 R k) * WB (ix2 h k)) + B (ix2 0 h) := rfl

/-- The block index maps over the grid: the row windows sit at block row t, the weights and the bias at block zero. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row r of the block at point t is row 1024 t + r of the array. -/
def row5 (t : Fin cfg5.N) (r : Fin 1024) : Fin 16384 :=
  ⟨1024 * t.val + r.val, by have hN : cfg5.N = 16 := N_5; have := t.isLt; have := r.isLt; omega⟩

/-- Where an element of each window's block at point t sits in its array. -/
theorem emb5_0 (t : Fin cfg5.N) (r : Fin 1024) (k : Fin 768) :
    ((cfg5.win 0).blk t).view.emb (ix2 r k) = (ix2 (row5 t r) k : S16384x768.Idx) := by
  obtain ⟨e0, e1, -⟩ := idx_facts5 t
  funext a; apply Fin.ext
  match a with
  | ⟨0, _⟩ => show win5_0.index t (0 : Fin 2) * 1024 + 1 * r.val = 1024 * t.val + r.val; omega
  | ⟨1, _⟩ => show win5_0.index t (1 : Fin 2) * 768 + 1 * k.val = k.val; omega
theorem emb5_1 (t : Fin cfg5.N) (r : Fin 1024) (k : Fin 768) :
    ((cfg5.win 1).blk t).view.emb (ix2 r k) = (ix2 (row5 t r) k : S16384x768.Idx) := by
  obtain ⟨-, -, e0, e1, -⟩ := idx_facts5 t
  funext a; apply Fin.ext
  match a with
  | ⟨0, _⟩ => show win5_1.index t (0 : Fin 2) * 1024 + 1 * r.val = 1024 * t.val + r.val; omega
  | ⟨1, _⟩ => show win5_1.index t (1 : Fin 2) * 768 + 1 * k.val = k.val; omega
theorem emb5_2 (t : Fin cfg5.N) (h : Fin 768) (k : Fin 768) :
    ((cfg5.win 2).blk t).view.emb (ix2 h k) = (ix2 h k : S768x768.Idx) := by
  obtain ⟨-, -, -, -, e0, e1, -⟩ := idx_facts5 t
  funext a; apply Fin.ext
  match a with
  | ⟨0, _⟩ => show win5_2.index t (0 : Fin 2) * 768 + 1 * h.val = h.val; omega
  | ⟨1, _⟩ => show win5_2.index t (1 : Fin 2) * 768 + 1 * k.val = k.val; omega
theorem emb5_3 (t : Fin cfg5.N) (h : Fin 768) (k : Fin 768) :
    ((cfg5.win 3).blk t).view.emb (ix2 h k) = (ix2 h k : S768x768.Idx) := by
  obtain ⟨-, -, -, -, -, -, e0, e1, -⟩ := idx_facts5 t
  funext a; apply Fin.ext
  match a with
  | ⟨0, _⟩ => show win5_3.index t (0 : Fin 2) * 768 + 1 * h.val = h.val; omega
  | ⟨1, _⟩ => show win5_3.index t (1 : Fin 2) * 768 + 1 * k.val = k.val; omega
theorem emb5_4 (t : Fin cfg5.N) (z : Fin 1) (h : Fin 768) :
    ((cfg5.win 4).blk t).view.emb (ix2 z h) = (ix2 z h : S1x768.Idx) := by
  obtain ⟨-, -, -, -, -, -, -, -, e0, e1, -⟩ := idx_facts5 t
  funext a; apply Fin.ext
  match a with
  | ⟨0, _⟩ => show win5_4.index t (0 : Fin 2) * 1 + 1 * z.val = z.val; omega
  | ⟨1, _⟩ => show win5_4.index t (1 : Fin 2) * 768 + 1 * h.val = h.val; omega
theorem emb5_5 (t : Fin cfg5.N) (r : Fin 1024) (h : Fin 768) :
    ((cfg5.win 5).blk t).view.emb (ix2 r h) = (ix2 (row5 t r) h : S16384x768.Idx) := by
  obtain ⟨-, -, -, -, -, -, -, -, -, -, e0, e1⟩ := idx_facts5 t
  funext a; apply Fin.ext
  match a with
  | ⟨0, _⟩ => show win5_5.index t (0 : Fin 2) * 1024 + 1 * r.val = 1024 * t.val + r.val; omega
  | ⟨1, _⟩ => show win5_5.index t (1 : Fin 2) * 768 + 1 * h.val = h.val; omega

/-- Each input block at an index, read off its array. -/
theorem iblk5_0_apply (c : Dev nD) (t : Fin cfg5.N) (r : Fin 1024) (k : Fin 768) :
    (iblk5 V c 0 t : Vec Ideal S1024x768 .bf16) (ix2 r k) = (V c (Pipeline.arrRef spec5 0) : Vec Ideal S16384x768 .bf16) (ix2 (row5 t r) k) := by
  show (V c (Pipeline.arrRef spec5 0) : Vec Ideal S16384x768 .bf16) (((cfg5.win 0).blk t).view.emb (ix2 r k)) = _
  exact congrArg _ (emb5_0 t r k)
theorem iblk5_1_apply (c : Dev nD) (t : Fin cfg5.N) (r : Fin 1024) (k : Fin 768) :
    (iblk5 V c 1 t : Vec Ideal S1024x768 .bf16) (ix2 r k) = (V c (Pipeline.arrRef spec5 1) : Vec Ideal S16384x768 .bf16) (ix2 (row5 t r) k) := by
  show (V c (Pipeline.arrRef spec5 1) : Vec Ideal S16384x768 .bf16) (((cfg5.win 1).blk t).view.emb (ix2 r k)) = _
  exact congrArg _ (emb5_1 t r k)
theorem iblk5_2_apply (c : Dev nD) (t : Fin cfg5.N) (h : Fin 768) (k : Fin 768) :
    (iblk5 V c 2 t : Vec Ideal S768x768 .bf16) (ix2 h k) = (V c (Pipeline.arrRef spec5 2) : Vec Ideal S768x768 .bf16) (ix2 h k) := by
  show (V c (Pipeline.arrRef spec5 2) : Vec Ideal S768x768 .bf16) (((cfg5.win 2).blk t).view.emb (ix2 h k)) = _
  exact congrArg _ (emb5_2 t h k)
theorem iblk5_3_apply (c : Dev nD) (t : Fin cfg5.N) (h : Fin 768) (k : Fin 768) :
    (iblk5 V c 3 t : Vec Ideal S768x768 .bf16) (ix2 h k) = (V c (Pipeline.arrRef spec5 3) : Vec Ideal S768x768 .bf16) (ix2 h k) := by
  show (V c (Pipeline.arrRef spec5 3) : Vec Ideal S768x768 .bf16) (((cfg5.win 3).blk t).view.emb (ix2 h k)) = _
  exact congrArg _ (emb5_3 t h k)
theorem iblk5_4_apply (c : Dev nD) (t : Fin cfg5.N) (z : Fin 1) (h : Fin 768) :
    (iblk5 V c 4 t : Vec Ideal S1x768 .f32) (ix2 z h) = (V c (Pipeline.arrRef spec5 4) : Vec Ideal S1x768 .f32) (ix2 z h) := by
  show (V c (Pipeline.arrRef spec5 4) : Vec Ideal S1x768 .f32) (((cfg5.win 4).blk t).view.emb (ix2 z h)) = _
  exact congrArg _ (emb5_4 t z h)

/-- What point t writes back is block t of `G5` of the arrays as the region finds them. -/
theorem flushed5_eq (c : Dev nD) (t : Fin cfg5.N) :
    (dat5 V c).flushed 5 t = ((cfg5.win 5).blk t).view.read (Elt Ideal)
      (G5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  funext y
  obtain ⟨r, h, rfl⟩ : ∃ (r : Fin 1024) (h : Fin 768), y = ix2 r h := ⟨y 0, y 1, eq_ix2 y⟩
  refine (out5_5_apply _ _ _ _ _ r h).trans ?_
  show _ = G5 _ _ _ _ _ (((cfg5.win 5).blk t).view.emb (ix2 r h))
  rw [emb5_5, G5_apply]
  simp only [iblk5_0_apply V, iblk5_1_apply V, iblk5_2_apply V, iblk5_3_apply V, iblk5_4_apply V]

/-- An index of the array is in point t's block iff each coordinate is in the block's range on its axis. -/
theorem mem_blk5 (t : Fin cfg5.N) (i : S16384x768.Idx) :
    i ∈ ((cfg5.win 5).blk t).view.set ↔ ∀ a : Fin 2, win5_5.index t a * S1024x768.size a ≤ (i a).val ∧ (i a).val < win5_5.index t a * S1024x768.size a + S1024x768.size a := by
  show i ∈ ((View.whole main_v21).slice (win5_5.rect t)).set ↔ _
  rw [View.set_slice_whole, Rect.mem_set_unit]
  exact Iff.rfl

/-- Every index of the output array is in some point's block: row r in the block of point r / 1024. -/
theorem cover5 (i : S16384x768.Idx) : ∃ t : Fin cfg5.N, (cfg5.win 5).flush t = true ∧ i ∈ ((cfg5.win 5).blk t).view.set := by
  have h0 : (i 0).val < 16384 := (i 0).isLt
  have h1 : (i 1).val < 768 := (i 1).isLt
  have hN : cfg5.N = 16 := N_5
  let t : Fin cfg5.N := ⟨(i 0).val / 1024, by omega⟩
  obtain ⟨-, -, -, -, -, -, -, -, -, -, e0, e1⟩ := idx_facts5 t
  have q0 : win5_5.index t (0 : Fin 2) = (i 0).val / 1024 := e0
  refine ⟨t, flush5_5 t, ?_⟩
  rw [mem_blk5]
  intro a
  match a with
  | ⟨0, _⟩ => show win5_5.index t (0 : Fin 2) * 1024 ≤ (i 0).val ∧ (i 0).val < win5_5.index t (0 : Fin 2) * 1024 + 1024; omega
  | ⟨1, _⟩ => show win5_5.index t (1 : Fin 2) * 768 ≤ (i 1).val ∧ (i 1).val < win5_5.index t (1 : Fin 2) * 768 + 768; omega

/-- The output array after the region: `G5` of the input arrays as the region finds them. -/
theorem final5 (c : Dev nD) : (dat5 (F := Ideal) V c).arrAt 5 cfg5.N
    = G5 (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_eq V c t) cover5

/-- The input arrays end as entered. -/
theorem kept5 (c : Dev nD) (w : Fin cfg5.W) (hw : w ≠ 5) : (dat5 (F := Ideal) V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat5 V c).arrAt_in w hin cfg5.N).trans (A_eq5 V c w)

end Cert.KernelIdeal.Fr

end
-- ==== Proof.KI.Chain.lean ====
/- The values the idealized kernel leaves, read back through the run's fold. At each boundary between two items of the
   program the buffers are a fold of the launch memory; here each buffer that matters is read at an index: the arguments
   (which nothing writes) as launched; the flattened copies of the inputs row (b, n) at flat row b * 2048 + n; region 0 and
   region 1 the two affine layers; region 2 the softmax weights along the batch axis, their transpose and a narrower copy;
   regions 3 and 4 the two attended sums, each the sum over all 2048 positions of the contracted axis although accumulated
   in eight blocks of 256; region 5 the output layer over the two column halves of its weight matrix; the last reshape the
   output in its three axes. The three returned arrays are the specification's functions of the arguments. -/
import proofs.«125380_j79173427134694_2_alg».proof.Proof.KI.Run
import proofs.«125380_j79173427134694_2_alg».proof.Proof.KI.Fin0
import proofs.«125380_j79173427134694_2_alg».proof.Proof.KI.Fin1
import proofs.«125380_j79173427134694_2_alg».proof.Proof.KI.Fin2
import proofs.«125380_j79173427134694_2_alg».proof.Proof.KI.Fin3
import proofs.«125380_j79173427134694_2_alg».proof.Proof.KI.Fin4
import proofs.«125380_j79173427134694_2_alg».proof.Proof.KI.Fin5
import proofs.«125380_j79173427134694_2_alg».proof.Proof.KI.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The argument buffers at every boundary: no item writes one -/
theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) := (W1_of m ρ c main_arg0 (by decide)).trans (W0_arg0 m ρ c)
theorem W2_arg0 (c : Dev nD) : W2 m ρ c (Proc.devRef .tc main_arg0) = m ((c : Thread nD τ).loc main_arg0) := (W2_of_ne m ρ c main_arg0 (by decide)).trans (W1_arg0 m ρ c)
theorem W3_arg0 (c : Dev nD) : W3 m ρ c (Proc.devRef .tc main_arg0) = m ((c : Thread nD τ).loc main_arg0) := (W3_of m ρ c main_arg0 (by decide)).trans (W2_arg0 m ρ c)
theorem W4_arg0 (c : Dev nD) : W4 m ρ c (Proc.devRef .tc main_arg0) = m ((c : Thread nD τ).loc main_arg0) := (W4_of_ne m ρ c main_arg0 (by decide)).trans (W3_arg0 m ρ c)
theorem W5_arg0 (c : Dev nD) : W5 m ρ c (Proc.devRef .tc main_arg0) = m ((c : Thread nD τ).loc main_arg0) := (W5_of m ρ c main_arg0 (by decide)).trans (W4_arg0 m ρ c)
theorem W6_arg0 (c : Dev nD) : W6 m ρ c (Proc.devRef .tc main_arg0) = m ((c : Thread nD τ).loc main_arg0) := (W6_of_ne m ρ c main_arg0 (by decide)).trans (W5_arg0 m ρ c)
theorem W7_arg0 (c : Dev nD) : W7 m ρ c (Proc.devRef .tc main_arg0) = m ((c : Thread nD τ).loc main_arg0) := (W7_of m ρ c main_arg0 (by decide)).trans (W6_arg0 m ρ c)
theorem W8_arg0 (c : Dev nD) : W8 m ρ c (Proc.devRef .tc main_arg0) = m ((c : Thread nD τ).loc main_arg0) := (W8_of_ne m ρ c main_arg0 (by decide)).trans (W7_arg0 m ρ c)
theorem W9_arg0 (c : Dev nD) : W9 m ρ c (Proc.devRef .tc main_arg0) = m ((c : Thread nD τ).loc main_arg0) := (W9_of_ne m ρ c main_arg0 (by decide)).trans (W8_arg0 m ρ c)
theorem W10_arg0 (c : Dev nD) : W10 m ρ c (Proc.devRef .tc main_arg0) = m ((c : Thread nD τ).loc main_arg0) := (W10_of m ρ c main_arg0 (by decide)).trans (W9_arg0 m ρ c)
theorem W11_arg0 (c : Dev nD) : W11 m ρ c (Proc.devRef .tc main_arg0) = m ((c : Thread nD τ).loc main_arg0) := (W11_of_ne m ρ c main_arg0 (by decide)).trans (W10_arg0 m ρ c)
theorem W12_arg0 (c : Dev nD) : W12 m ρ c (Proc.devRef .tc main_arg0) = m ((c : Thread nD τ).loc main_arg0) := (W12_of m ρ c main_arg0 (by decide)).trans (W11_arg0 m ρ c)
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) := (W1_of m ρ c main_arg1 (by decide)).trans (W0_arg1 m ρ c)
theorem W2_arg1 (c : Dev nD) : W2 m ρ c (Proc.devRef .tc main_arg1) = m ((c : Thread nD τ).loc main_arg1) := (W2_of_ne m ρ c main_arg1 (by decide)).trans (W1_arg1 m ρ c)
theorem W3_arg1 (c : Dev nD) : W3 m ρ c (Proc.devRef .tc main_arg1) = m ((c : Thread nD τ).loc main_arg1) := (W3_of m ρ c main_arg1 (by decide)).trans (W2_arg1 m ρ c)
theorem W4_arg1 (c : Dev nD) : W4 m ρ c (Proc.devRef .tc main_arg1) = m ((c : Thread nD τ).loc main_arg1) := (W4_of_ne m ρ c main_arg1 (by decide)).trans (W3_arg1 m ρ c)
theorem W5_arg1 (c : Dev nD) : W5 m ρ c (Proc.devRef .tc main_arg1) = m ((c : Thread nD τ).loc main_arg1) := (W5_of m ρ c main_arg1 (by decide)).trans (W4_arg1 m ρ c)
theorem W6_arg1 (c : Dev nD) : W6 m ρ c (Proc.devRef .tc main_arg1) = m ((c : Thread nD τ).loc main_arg1) := (W6_of_ne m ρ c main_arg1 (by decide)).trans (W5_arg1 m ρ c)
theorem W7_arg1 (c : Dev nD) : W7 m ρ c (Proc.devRef .tc main_arg1) = m ((c : Thread nD τ).loc main_arg1) := (W7_of m ρ c main_arg1 (by decide)).trans (W6_arg1 m ρ c)
theorem W8_arg1 (c : Dev nD) : W8 m ρ c (Proc.devRef .tc main_arg1) = m ((c : Thread nD τ).loc main_arg1) := (W8_of_ne m ρ c main_arg1 (by decide)).trans (W7_arg1 m ρ c)
theorem W9_arg1 (c : Dev nD) : W9 m ρ c (Proc.devRef .tc main_arg1) = m ((c : Thread nD τ).loc main_arg1) := (W9_of_ne m ρ c main_arg1 (by decide)).trans (W8_arg1 m ρ c)
theorem W10_arg1 (c : Dev nD) : W10 m ρ c (Proc.devRef .tc main_arg1) = m ((c : Thread nD τ).loc main_arg1) := (W10_of m ρ c main_arg1 (by decide)).trans (W9_arg1 m ρ c)
theorem W11_arg1 (c : Dev nD) : W11 m ρ c (Proc.devRef .tc main_arg1) = m ((c : Thread nD τ).loc main_arg1) := (W11_of_ne m ρ c main_arg1 (by decide)).trans (W10_arg1 m ρ c)
theorem W12_arg1 (c : Dev nD) : W12 m ρ c (Proc.devRef .tc main_arg1) = m ((c : Thread nD τ).loc main_arg1) := (W12_of m ρ c main_arg1 (by decide)).trans (W11_arg1 m ρ c)
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) := (W1_of m ρ c main_arg2 (by decide)).trans (W0_arg2 m ρ c)
theorem W2_arg2 (c : Dev nD) : W2 m ρ c (Proc.devRef .tc main_arg2) = m ((c : Thread nD τ).loc main_arg2) := (W2_of_ne m ρ c main_arg2 (by decide)).trans (W1_arg2 m ρ c)
theorem W3_arg2 (c : Dev nD) : W3 m ρ c (Proc.devRef .tc main_arg2) = m ((c : Thread nD τ).loc main_arg2) := (W3_of m ρ c main_arg2 (by decide)).trans (W2_arg2 m ρ c)
theorem W4_arg2 (c : Dev nD) : W4 m ρ c (Proc.devRef .tc main_arg2) = m ((c : Thread nD τ).loc main_arg2) := (W4_of_ne m ρ c main_arg2 (by decide)).trans (W3_arg2 m ρ c)
theorem W5_arg2 (c : Dev nD) : W5 m ρ c (Proc.devRef .tc main_arg2) = m ((c : Thread nD τ).loc main_arg2) := (W5_of m ρ c main_arg2 (by decide)).trans (W4_arg2 m ρ c)
theorem W6_arg2 (c : Dev nD) : W6 m ρ c (Proc.devRef .tc main_arg2) = m ((c : Thread nD τ).loc main_arg2) := (W6_of_ne m ρ c main_arg2 (by decide)).trans (W5_arg2 m ρ c)
theorem W7_arg2 (c : Dev nD) : W7 m ρ c (Proc.devRef .tc main_arg2) = m ((c : Thread nD τ).loc main_arg2) := (W7_of m ρ c main_arg2 (by decide)).trans (W6_arg2 m ρ c)
theorem W8_arg2 (c : Dev nD) : W8 m ρ c (Proc.devRef .tc main_arg2) = m ((c : Thread nD τ).loc main_arg2) := (W8_of_ne m ρ c main_arg2 (by decide)).trans (W7_arg2 m ρ c)
theorem W9_arg2 (c : Dev nD) : W9 m ρ c (Proc.devRef .tc main_arg2) = m ((c : Thread nD τ).loc main_arg2) := (W9_of_ne m ρ c main_arg2 (by decide)).trans (W8_arg2 m ρ c)
theorem W10_arg2 (c : Dev nD) : W10 m ρ c (Proc.devRef .tc main_arg2) = m ((c : Thread nD τ).loc main_arg2) := (W10_of m ρ c main_arg2 (by decide)).trans (W9_arg2 m ρ c)
theorem W11_arg2 (c : Dev nD) : W11 m ρ c (Proc.devRef .tc main_arg2) = m ((c : Thread nD τ).loc main_arg2) := (W11_of_ne m ρ c main_arg2 (by decide)).trans (W10_arg2 m ρ c)
theorem W12_arg2 (c : Dev nD) : W12 m ρ c (Proc.devRef .tc main_arg2) = m ((c : Thread nD τ).loc main_arg2) := (W12_of m ρ c main_arg2 (by decide)).trans (W11_arg2 m ρ c)
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) := (W1_of m ρ c main_arg3 (by decide)).trans (W0_arg3 m ρ c)
theorem W2_arg3 (c : Dev nD) : W2 m ρ c (Proc.devRef .tc main_arg3) = m ((c : Thread nD τ).loc main_arg3) := (W2_of_ne m ρ c main_arg3 (by decide)).trans (W1_arg3 m ρ c)
theorem W3_arg3 (c : Dev nD) : W3 m ρ c (Proc.devRef .tc main_arg3) = m ((c : Thread nD τ).loc main_arg3) := (W3_of m ρ c main_arg3 (by decide)).trans (W2_arg3 m ρ c)
theorem W4_arg3 (c : Dev nD) : W4 m ρ c (Proc.devRef .tc main_arg3) = m ((c : Thread nD τ).loc main_arg3) := (W4_of_ne m ρ c main_arg3 (by decide)).trans (W3_arg3 m ρ c)
theorem W5_arg3 (c : Dev nD) : W5 m ρ c (Proc.devRef .tc main_arg3) = m ((c : Thread nD τ).loc main_arg3) := (W5_of m ρ c main_arg3 (by decide)).trans (W4_arg3 m ρ c)
theorem W6_arg3 (c : Dev nD) : W6 m ρ c (Proc.devRef .tc main_arg3) = m ((c : Thread nD τ).loc main_arg3) := (W6_of_ne m ρ c main_arg3 (by decide)).trans (W5_arg3 m ρ c)
theorem W7_arg3 (c : Dev nD) : W7 m ρ c (Proc.devRef .tc main_arg3) = m ((c : Thread nD τ).loc main_arg3) := (W7_of m ρ c main_arg3 (by decide)).trans (W6_arg3 m ρ c)
theorem W8_arg3 (c : Dev nD) : W8 m ρ c (Proc.devRef .tc main_arg3) = m ((c : Thread nD τ).loc main_arg3) := (W8_of_ne m ρ c main_arg3 (by decide)).trans (W7_arg3 m ρ c)
theorem W9_arg3 (c : Dev nD) : W9 m ρ c (Proc.devRef .tc main_arg3) = m ((c : Thread nD τ).loc main_arg3) := (W9_of_ne m ρ c main_arg3 (by decide)).trans (W8_arg3 m ρ c)
theorem W10_arg3 (c : Dev nD) : W10 m ρ c (Proc.devRef .tc main_arg3) = m ((c : Thread nD τ).loc main_arg3) := (W10_of m ρ c main_arg3 (by decide)).trans (W9_arg3 m ρ c)
theorem W11_arg3 (c : Dev nD) : W11 m ρ c (Proc.devRef .tc main_arg3) = m ((c : Thread nD τ).loc main_arg3) := (W11_of_ne m ρ c main_arg3 (by decide)).trans (W10_arg3 m ρ c)
theorem W12_arg3 (c : Dev nD) : W12 m ρ c (Proc.devRef .tc main_arg3) = m ((c : Thread nD τ).loc main_arg3) := (W12_of m ρ c main_arg3 (by decide)).trans (W11_arg3 m ρ c)
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) := (W1_of m ρ c main_arg4 (by decide)).trans (W0_arg4 m ρ c)
theorem W2_arg4 (c : Dev nD) : W2 m ρ c (Proc.devRef .tc main_arg4) = m ((c : Thread nD τ).loc main_arg4) := (W2_of_ne m ρ c main_arg4 (by decide)).trans (W1_arg4 m ρ c)
theorem W3_arg4 (c : Dev nD) : W3 m ρ c (Proc.devRef .tc main_arg4) = m ((c : Thread nD τ).loc main_arg4) := (W3_of m ρ c main_arg4 (by decide)).trans (W2_arg4 m ρ c)
theorem W4_arg4 (c : Dev nD) : W4 m ρ c (Proc.devRef .tc main_arg4) = m ((c : Thread nD τ).loc main_arg4) := (W4_of_ne m ρ c main_arg4 (by decide)).trans (W3_arg4 m ρ c)
theorem W5_arg4 (c : Dev nD) : W5 m ρ c (Proc.devRef .tc main_arg4) = m ((c : Thread nD τ).loc main_arg4) := (W5_of m ρ c main_arg4 (by decide)).trans (W4_arg4 m ρ c)
theorem W6_arg4 (c : Dev nD) : W6 m ρ c (Proc.devRef .tc main_arg4) = m ((c : Thread nD τ).loc main_arg4) := (W6_of_ne m ρ c main_arg4 (by decide)).trans (W5_arg4 m ρ c)
theorem W7_arg4 (c : Dev nD) : W7 m ρ c (Proc.devRef .tc main_arg4) = m ((c : Thread nD τ).loc main_arg4) := (W7_of m ρ c main_arg4 (by decide)).trans (W6_arg4 m ρ c)
theorem W8_arg4 (c : Dev nD) : W8 m ρ c (Proc.devRef .tc main_arg4) = m ((c : Thread nD τ).loc main_arg4) := (W8_of_ne m ρ c main_arg4 (by decide)).trans (W7_arg4 m ρ c)
theorem W9_arg4 (c : Dev nD) : W9 m ρ c (Proc.devRef .tc main_arg4) = m ((c : Thread nD τ).loc main_arg4) := (W9_of_ne m ρ c main_arg4 (by decide)).trans (W8_arg4 m ρ c)
theorem W10_arg4 (c : Dev nD) : W10 m ρ c (Proc.devRef .tc main_arg4) = m ((c : Thread nD τ).loc main_arg4) := (W10_of m ρ c main_arg4 (by decide)).trans (W9_arg4 m ρ c)
theorem W11_arg4 (c : Dev nD) : W11 m ρ c (Proc.devRef .tc main_arg4) = m ((c : Thread nD τ).loc main_arg4) := (W11_of_ne m ρ c main_arg4 (by decide)).trans (W10_arg4 m ρ c)
theorem W12_arg4 (c : Dev nD) : W12 m ρ c (Proc.devRef .tc main_arg4) = m ((c : Thread nD τ).loc main_arg4) := (W12_of m ρ c main_arg4 (by decide)).trans (W11_arg4 m ρ c)
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) := (W1_of m ρ c main_arg5 (by decide)).trans (W0_arg5 m ρ c)
theorem W2_arg5 (c : Dev nD) : W2 m ρ c (Proc.devRef .tc main_arg5) = m ((c : Thread nD τ).loc main_arg5) := (W2_of_ne m ρ c main_arg5 (by decide)).trans (W1_arg5 m ρ c)
theorem W3_arg5 (c : Dev nD) : W3 m ρ c (Proc.devRef .tc main_arg5) = m ((c : Thread nD τ).loc main_arg5) := (W3_of m ρ c main_arg5 (by decide)).trans (W2_arg5 m ρ c)
theorem W4_arg5 (c : Dev nD) : W4 m ρ c (Proc.devRef .tc main_arg5) = m ((c : Thread nD τ).loc main_arg5) := (W4_of_ne m ρ c main_arg5 (by decide)).trans (W3_arg5 m ρ c)
theorem W5_arg5 (c : Dev nD) : W5 m ρ c (Proc.devRef .tc main_arg5) = m ((c : Thread nD τ).loc main_arg5) := (W5_of m ρ c main_arg5 (by decide)).trans (W4_arg5 m ρ c)
theorem W6_arg5 (c : Dev nD) : W6 m ρ c (Proc.devRef .tc main_arg5) = m ((c : Thread nD τ).loc main_arg5) := (W6_of_ne m ρ c main_arg5 (by decide)).trans (W5_arg5 m ρ c)
theorem W7_arg5 (c : Dev nD) : W7 m ρ c (Proc.devRef .tc main_arg5) = m ((c : Thread nD τ).loc main_arg5) := (W7_of m ρ c main_arg5 (by decide)).trans (W6_arg5 m ρ c)
theorem W8_arg5 (c : Dev nD) : W8 m ρ c (Proc.devRef .tc main_arg5) = m ((c : Thread nD τ).loc main_arg5) := (W8_of_ne m ρ c main_arg5 (by decide)).trans (W7_arg5 m ρ c)
theorem W9_arg5 (c : Dev nD) : W9 m ρ c (Proc.devRef .tc main_arg5) = m ((c : Thread nD τ).loc main_arg5) := (W9_of_ne m ρ c main_arg5 (by decide)).trans (W8_arg5 m ρ c)
theorem W10_arg5 (c : Dev nD) : W10 m ρ c (Proc.devRef .tc main_arg5) = m ((c : Thread nD τ).loc main_arg5) := (W10_of m ρ c main_arg5 (by decide)).trans (W9_arg5 m ρ c)
theorem W11_arg5 (c : Dev nD) : W11 m ρ c (Proc.devRef .tc main_arg5) = m ((c : Thread nD τ).loc main_arg5) := (W11_of_ne m ρ c main_arg5 (by decide)).trans (W10_arg5 m ρ c)
theorem W12_arg5 (c : Dev nD) : W12 m ρ c (Proc.devRef .tc main_arg5) = m ((c : Thread nD τ).loc main_arg5) := (W12_of m ρ c main_arg5 (by decide)).trans (W11_arg5 m ρ c)
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) := (W1_of m ρ c main_arg6 (by decide)).trans (W0_arg6 m ρ c)
theorem W2_arg6 (c : Dev nD) : W2 m ρ c (Proc.devRef .tc main_arg6) = m ((c : Thread nD τ).loc main_arg6) := (W2_of_ne m ρ c main_arg6 (by decide)).trans (W1_arg6 m ρ c)
theorem W3_arg6 (c : Dev nD) : W3 m ρ c (Proc.devRef .tc main_arg6) = m ((c : Thread nD τ).loc main_arg6) := (W3_of m ρ c main_arg6 (by decide)).trans (W2_arg6 m ρ c)
theorem W4_arg6 (c : Dev nD) : W4 m ρ c (Proc.devRef .tc main_arg6) = m ((c : Thread nD τ).loc main_arg6) := (W4_of_ne m ρ c main_arg6 (by decide)).trans (W3_arg6 m ρ c)
theorem W5_arg6 (c : Dev nD) : W5 m ρ c (Proc.devRef .tc main_arg6) = m ((c : Thread nD τ).loc main_arg6) := (W5_of m ρ c main_arg6 (by decide)).trans (W4_arg6 m ρ c)
theorem W6_arg6 (c : Dev nD) : W6 m ρ c (Proc.devRef .tc main_arg6) = m ((c : Thread nD τ).loc main_arg6) := (W6_of_ne m ρ c main_arg6 (by decide)).trans (W5_arg6 m ρ c)
theorem W7_arg6 (c : Dev nD) : W7 m ρ c (Proc.devRef .tc main_arg6) = m ((c : Thread nD τ).loc main_arg6) := (W7_of m ρ c main_arg6 (by decide)).trans (W6_arg6 m ρ c)
theorem W8_arg6 (c : Dev nD) : W8 m ρ c (Proc.devRef .tc main_arg6) = m ((c : Thread nD τ).loc main_arg6) := (W8_of_ne m ρ c main_arg6 (by decide)).trans (W7_arg6 m ρ c)
theorem W9_arg6 (c : Dev nD) : W9 m ρ c (Proc.devRef .tc main_arg6) = m ((c : Thread nD τ).loc main_arg6) := (W9_of_ne m ρ c main_arg6 (by decide)).trans (W8_arg6 m ρ c)
theorem W10_arg6 (c : Dev nD) : W10 m ρ c (Proc.devRef .tc main_arg6) = m ((c : Thread nD τ).loc main_arg6) := (W10_of m ρ c main_arg6 (by decide)).trans (W9_arg6 m ρ c)
theorem W11_arg6 (c : Dev nD) : W11 m ρ c (Proc.devRef .tc main_arg6) = m ((c : Thread nD τ).loc main_arg6) := (W11_of_ne m ρ c main_arg6 (by decide)).trans (W10_arg6 m ρ c)
theorem W12_arg6 (c : Dev nD) : W12 m ρ c (Proc.devRef .tc main_arg6) = m ((c : Thread nD τ).loc main_arg6) := (W12_of m ρ c main_arg6 (by decide)).trans (W11_arg6 m ρ c)
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) := (W1_of m ρ c main_arg7 (by decide)).trans (W0_arg7 m ρ c)
theorem W2_arg7 (c : Dev nD) : W2 m ρ c (Proc.devRef .tc main_arg7) = m ((c : Thread nD τ).loc main_arg7) := (W2_of_ne m ρ c main_arg7 (by decide)).trans (W1_arg7 m ρ c)
theorem W3_arg7 (c : Dev nD) : W3 m ρ c (Proc.devRef .tc main_arg7) = m ((c : Thread nD τ).loc main_arg7) := (W3_of m ρ c main_arg7 (by decide)).trans (W2_arg7 m ρ c)
theorem W4_arg7 (c : Dev nD) : W4 m ρ c (Proc.devRef .tc main_arg7) = m ((c : Thread nD τ).loc main_arg7) := (W4_of_ne m ρ c main_arg7 (by decide)).trans (W3_arg7 m ρ c)
theorem W5_arg7 (c : Dev nD) : W5 m ρ c (Proc.devRef .tc main_arg7) = m ((c : Thread nD τ).loc main_arg7) := (W5_of m ρ c main_arg7 (by decide)).trans (W4_arg7 m ρ c)
theorem W6_arg7 (c : Dev nD) : W6 m ρ c (Proc.devRef .tc main_arg7) = m ((c : Thread nD τ).loc main_arg7) := (W6_of_ne m ρ c main_arg7 (by decide)).trans (W5_arg7 m ρ c)
theorem W7_arg7 (c : Dev nD) : W7 m ρ c (Proc.devRef .tc main_arg7) = m ((c : Thread nD τ).loc main_arg7) := (W7_of m ρ c main_arg7 (by decide)).trans (W6_arg7 m ρ c)
theorem W8_arg7 (c : Dev nD) : W8 m ρ c (Proc.devRef .tc main_arg7) = m ((c : Thread nD τ).loc main_arg7) := (W8_of_ne m ρ c main_arg7 (by decide)).trans (W7_arg7 m ρ c)
theorem W9_arg7 (c : Dev nD) : W9 m ρ c (Proc.devRef .tc main_arg7) = m ((c : Thread nD τ).loc main_arg7) := (W9_of_ne m ρ c main_arg7 (by decide)).trans (W8_arg7 m ρ c)
theorem W10_arg7 (c : Dev nD) : W10 m ρ c (Proc.devRef .tc main_arg7) = m ((c : Thread nD τ).loc main_arg7) := (W10_of m ρ c main_arg7 (by decide)).trans (W9_arg7 m ρ c)
theorem W11_arg7 (c : Dev nD) : W11 m ρ c (Proc.devRef .tc main_arg7) = m ((c : Thread nD τ).loc main_arg7) := (W11_of_ne m ρ c main_arg7 (by decide)).trans (W10_arg7 m ρ c)
theorem W12_arg7 (c : Dev nD) : W12 m ρ c (Proc.devRef .tc main_arg7) = m ((c : Thread nD τ).loc main_arg7) := (W12_of m ρ c main_arg7 (by decide)).trans (W11_arg7 m ρ c)

/-! ## Rows of the flattened arrays: row b * 2048 + n of a [16384, C] array is row (b, n) of the [8, 2048, C] array -/

/-- The flat row of (b, n). -/
def rowOf (b : Fin 8) (n : Fin 2048) : Fin 16384 := ⟨b.val * 2048 + n.val, by have := b.isLt; have := n.isLt; omega⟩

section Layout
variable {α : Type}

/-- Flattening the two leading axes: the flat array at (row of (b, n), d) is the array at (b, n, d). -/
theorem flat_apply {C : ℕ} (x : (⟨3, ![8, 2048, C]⟩ : Shape).Idx → α) (h : (⟨3, ![8, 2048, C]⟩ : Shape).ShapeCasts ⟨2, ![16384, C]⟩)
    (b : Fin 8) (n : Fin 2048) (d : Fin C) : shapeCast ⟨2, ![16384, C]⟩ x h (ix2 (rowOf b n) d) = x (ix3 b n d) :=
  shapeCast_apply x h _ _ (by
    rw [Shape.rowMajor_val_three, Shape.rowMajor_val_two]
    show (b.val * 2048 + n.val) * C + d.val = (b.val * 2048 + n.val) * C + d.val
    rfl)

/-- Splitting the leading axis back: the [8, 2048, C] array at (b, n, d) is the flat array at (row of (b, n), d). -/
theorem unflat_apply {C : ℕ} (y : (⟨2, ![16384, C]⟩ : Shape).Idx → α) (h : (⟨2, ![16384, C]⟩ : Shape).ShapeCasts ⟨3, ![8, 2048, C]⟩)
    (b : Fin 8) (n : Fin 2048) (d : Fin C) : shapeCast ⟨3, ![8, 2048, C]⟩ y h (ix3 b n d) = y (ix2 (rowOf b n) d) :=
  shapeCast_apply y h _ _ (by
    rw [Shape.rowMajor_val_three, Shape.rowMajor_val_two]
    show (b.val * 2048 + n.val) * C + d.val = (b.val * 2048 + n.val) * C + d.val
    rfl)

end Layout

/-! ## The arguments read through their coordinates -/

abbrev X0 (c : Dev nD) : Fin 8 → Fin 2048 → Fin 1024 → EReal := fun b n d => m ((c : Thread nD τ).loc main_arg0) (ix3 b n d)
abbrev X1 (c : Dev nD) : Fin 8 → Fin 2048 → Fin 768 → EReal := fun b n d => m ((c : Thread nD τ).loc main_arg1) (ix3 b n d)
abbrev A2 (c : Dev nD) : Fin 768 → Fin 1024 → EReal := fun h d => m ((c : Thread nD τ).loc main_arg2) (ix2 h d)
abbrev B3 (c : Dev nD) : Fin 768 → EReal := fun h => m ((c : Thread nD τ).loc main_arg3) (ix1 h)
abbrev A4 (c : Dev nD) : Fin 768 → Fin 768 → EReal := fun h d => m ((c : Thread nD τ).loc main_arg4) (ix2 h d)
abbrev B5 (c : Dev nD) : Fin 768 → EReal := fun h => m ((c : Thread nD τ).loc main_arg5) (ix1 h)
abbrev A6 (c : Dev nD) : Fin 768 → Fin 1536 → EReal := fun h k => m ((c : Thread nD τ).loc main_arg6) (ix2 h k)
abbrev B7 (c : Dev nD) : Fin 768 → EReal := fun h => m ((c : Thread nD τ).loc main_arg7) (ix1 h)

/-! ## Region 0: the first affine layer -/

/-- What the first host stretch writes. -/
theorem W1_v2 (c : Dev nD) : (W1 m ρ c (Proc.devRef .tc main_v2) : S16384x1024.Idx → EReal) =
    shapeCast S16384x1024 (m ((c : Thread nD τ).loc main_arg0)) shapeCasts_S8x2048x1024_S16384x1024 := by
  dsimp only [W1, hostOps0]; after_results; rfl
theorem W1_v0 (c : Dev nD) : (W1 m ρ c (Proc.devRef .tc main_v0) : S768x1024.Idx → EReal) =
    fun i => m ((c : Thread nD τ).loc main_arg2) i := by
  dsimp only [W1, hostOps0]; after_results; rfl
theorem W1_v4 (c : Dev nD) : (W1 m ρ c (Proc.devRef .tc main_v4) : S1x768.Idx → EReal) =
    shapeCast S1x768 (m ((c : Thread nD τ).loc main_arg3)) shapeCasts_S768_S1x768 := by
  dsimp only [W1, hostOps0]; after_results; rfl
theorem W1_v3 (c : Dev nD) : (W1 m ρ c (Proc.devRef .tc main_v3) : S16384x768.Idx → EReal) =
    shapeCast S16384x768 (m ((c : Thread nD τ).loc main_arg1)) shapeCasts_S8x2048x768_S16384x768 := by
  dsimp only [W1, hostOps0]; after_results; rfl
theorem W1_v1 (c : Dev nD) : (W1 m ρ c (Proc.devRef .tc main_v1) : S768x768.Idx → EReal) =
    fun i => m ((c : Thread nD τ).loc main_arg4) i := by
  dsimp only [W1, hostOps0]; after_results; rfl

/-- Region 0 leaves the first affine layer in its output array, row (b, n) at the flat row of (b, n). -/
theorem W2_v5_at (c : Dev nD) (b : Fin 8) (n : Fin 2048) (h : Fin 768) :
    (W2 m ρ c (Proc.devRef .tc main_v5) : S16384x768.Idx → EReal) (ix2 (rowOf b n) h) = Cert.Spec.amrT (X0 m c) (A2 m c) (B3 m c) b n h := by
  rw [show W2 m ρ c (Proc.devRef .tc main_v5) = _ from W2_arr m ρ c 3, final0 (U1 m ρ) c, G0_apply]
  rw [show U1 m ρ c (Pipeline.arrRef spec0 0) = _ from W1_v2 m ρ c, show U1 m ρ c (Pipeline.arrRef spec0 1) = _ from W1_v0 m ρ c,
    show U1 m ρ c (Pipeline.arrRef spec0 2) = _ from W1_v4 m ρ c]
  unfold Cert.Spec.amrT
  refine congrArg₂ (· + ·) (Finset.sum_congr rfl fun d _ => ?_) ?_
  · rw [flat_apply]
  · exact shapeCast_a_1a_apply _ _ _ _

/-! ## Region 1: the second affine layer -/

theorem W3_v3 (c : Dev nD) : (W3 m ρ c (Proc.devRef .tc main_v3) : S16384x768.Idx → EReal) =
    shapeCast S16384x768 (m ((c : Thread nD τ).loc main_arg1)) shapeCasts_S8x2048x768_S16384x768 :=
  (W3_of m ρ c main_v3 (by decide)).trans ((W2_of_ne m ρ c main_v3 (by decide)).trans (W1_v3 m ρ c))
theorem W3_v1 (c : Dev nD) : (W3 m ρ c (Proc.devRef .tc main_v1) : S768x768.Idx → EReal) = fun i => m ((c : Thread nD τ).loc main_arg4) i :=
  (W3_of m ρ c main_v1 (by decide)).trans ((W2_of_ne m ρ c main_v1 (by decide)).trans (W1_v1 m ρ c))
theorem W3_v6 (c : Dev nD) : (W3 m ρ c (Proc.devRef .tc main_v6) : S1x768.Idx → EReal) =
    shapeCast S1x768 (m ((c : Thread nD τ).loc main_arg5)) shapeCasts_S768_S1x768 := by
  dsimp only [W3, hostOps1]; after_results; rw [W2_arg5 m ρ c]; rfl

/-- Region 1 leaves the second affine layer in its output array. -/
theorem W4_v7_at (c : Dev nD) (b : Fin 8) (n : Fin 2048) (h : Fin 768) :
    (W4 m ρ c (Proc.devRef .tc main_v7) : S16384x768.Idx → EReal) (ix2 (rowOf b n) h) = Cert.Spec.textT (X1 m c) (A4 m c) (B5 m c) b n h := by
  rw [show W4 m ρ c (Proc.devRef .tc main_v7) = _ from W4_arr m ρ c 3, final1 (U3 m ρ) c, G1_apply]
  rw [show U3 m ρ c (Pipeline.arrRef spec1 0) = _ from W3_v3 m ρ c, show U3 m ρ c (Pipeline.arrRef spec1 1) = _ from W3_v1 m ρ c,
    show U3 m ρ c (Pipeline.arrRef spec1 2) = _ from W3_v6 m ρ c]
  unfold Cert.Spec.textT
  refine congrArg₂ (· + ·) (Finset.sum_congr rfl fun d _ => ?_) ?_
  · rw [flat_apply]
  · exact shapeCast_a_1a_apply _ _ _ _

/-! ## The two layers as [8, 2048, 768] arrays, and region 2: the weights -/

theorem W5_v8 (c : Dev nD) : (W5 m ρ c (Proc.devRef .tc main_v8) : S8x2048x768.Idx → EReal) =
    shapeCast S8x2048x768 (W4 m ρ c (Proc.devRef .tc main_v5)) shapeCasts_S16384x768_S8x2048x768 := by
  dsimp only [W5, hostOps2]; after_results; rfl
theorem W5_v9 (c : Dev nD) : (W5 m ρ c (Proc.devRef .tc main_v9) : S8x2048x768.Idx → EReal) =
    shapeCast S8x2048x768 (W4 m ρ c (Proc.devRef .tc main_v7)) shapeCasts_S16384x768_S8x2048x768 := by
  dsimp only [W5, hostOps2]; after_results; rfl
theorem W5_v8_at (c : Dev nD) (b : Fin 8) (n : Fin 2048) (h : Fin 768) :
    (W5 m ρ c (Proc.devRef .tc main_v8) : S8x2048x768.Idx → EReal) (ix3 b n h) = Cert.Spec.amrT (X0 m c) (A2 m c) (B3 m c) b n h := by
  rw [W5_v8]; refine (unflat_apply _ _ b n h).trans ?_
  rw [show W4 m ρ c (Proc.devRef .tc main_v5) = W2 m ρ c (Proc.devRef .tc main_v5) from (W4_of_ne m ρ c main_v5 (by decide)).trans (W3_of m ρ c main_v5 (by decide))]
  exact W2_v5_at m ρ c b n h
theorem W5_v9_at (c : Dev nD) (b : Fin 8) (n : Fin 2048) (h : Fin 768) :
    (W5 m ρ c (Proc.devRef .tc main_v9) : S8x2048x768.Idx → EReal) (ix3 b n h) = Cert.Spec.textT (X1 m c) (A4 m c) (B5 m c) b n h := by
  rw [W5_v9]; refine (unflat_apply _ _ b n h).trans ?_
  exact W4_v7_at m ρ c b n h

/-- The scores of the two arrays region 2 reads are the specification's scores. -/
theorem score5 (c : Dev nD) (b : Fin 8) (n k : Fin 2048) :
    Cert.KernelIdeal.Arr.scoreArr (U5 m ρ c (Pipeline.arrRef spec2 0)) (U5 m ρ c (Pipeline.arrRef spec2 1)) b n k
      = Cert.Spec.score (Cert.Spec.amrT (X0 m c) (A2 m c) (B3 m c)) (Cert.Spec.textT (X1 m c) (A4 m c) (B5 m c)) b n k := by
  unfold Cert.KernelIdeal.Arr.scoreArr Cert.Spec.score
  exact Finset.sum_congr rfl fun h _ => congrArg₂ (· * ·) (W5_v8_at m ρ c b n h) (W5_v9_at m ρ c b k h)

abbrev SW (c : Dev nD) : Fin 8 → Fin 2048 → Fin 2048 → EReal := Cert.Spec.W (X0 m c) (X1 m c) (A2 m c) (B3 m c) (A4 m c) (B5 m c)

/-- Region 2's first output: the weights. -/
theorem W6_w_at (c : Dev nD) (b : Fin 8) (n k : Fin 2048) :
    (W6 m ρ c (Proc.devRef .tc main_v10_0) : S8x2048x2048.Idx → EReal) (ix3 b n k) = SW m c b n k := by
  rw [show W6 m ρ c (Proc.devRef .tc main_v10_0) = _ from W6_arr m ρ c 2, Cert.KernelIdeal.Arr.final2_2 (U5 m ρ) c, Cert.KernelIdeal.Arr.Gw_ix3]
  exact Cert.Spec.weight_congr _ _ n k n k (fun b' => score5 m ρ c b' n k) b
/-- Region 2's second output: the weights with the two row axes exchanged. -/
theorem W6_wT_at (c : Dev nD) (b : Fin 8) (k n : Fin 2048) :
    (W6 m ρ c (Proc.devRef .tc main_v10_1) : S8x2048x2048.Idx → EReal) (ix3 b k n) = SW m c b n k := by
  rw [show W6 m ρ c (Proc.devRef .tc main_v10_1) = _ from W6_arr m ρ c 3, Cert.KernelIdeal.Arr.final2_3 (U5 m ρ) c]
  show Cert.KernelIdeal.Arr.Gw _ _ (ix3 b n k) = _
  rw [Cert.KernelIdeal.Arr.Gw_ix3]
  exact Cert.Spec.weight_congr _ _ n k n k (fun b' => score5 m ρ c b' n k) b
/-- Region 2's third output: the weights again, in the narrower float format, the same extended reals. -/
theorem W6_wB_at (c : Dev nD) (b : Fin 8) (n k : Fin 2048) :
    (W6 m ρ c (Proc.devRef .tc main_v10_2) : S8x2048x2048.Idx → EReal) (ix3 b n k) = SW m c b n k := by
  rw [show W6 m ρ c (Proc.devRef .tc main_v10_2) = _ from W6_arr m ρ c 4, Cert.KernelIdeal.Arr.final2_4B (U5 m ρ) c]
  show Cert.Spec.weight _ b n k = _
  exact Cert.Spec.weight_congr _ _ n k n k (fun b' => score5 m ρ c b' n k) b

/-- No later item writes the two returned weight arrays. -/
theorem W12_v10_0 (c : Dev nD) : W12 m ρ c (Proc.devRef .tc main_v10_0) = W6 m ρ c (Proc.devRef .tc main_v10_0) :=
  (W12_of m ρ c main_v10_0 (by decide)).trans <| (W11_of_ne m ρ c main_v10_0 (by decide)).trans <| (W10_of m ρ c main_v10_0 (by decide)).trans <|
    (W9_of_ne m ρ c main_v10_0 (by decide)).trans <| (W8_of_ne m ρ c main_v10_0 (by decide)).trans (W7_of m ρ c main_v10_0 (by decide))
theorem W12_v10_1 (c : Dev nD) : W12 m ρ c (Proc.devRef .tc main_v10_1) = W6 m ρ c (Proc.devRef .tc main_v10_1) :=
  (W12_of m ρ c main_v10_1 (by decide)).trans <| (W11_of_ne m ρ c main_v10_1 (by decide)).trans <| (W10_of m ρ c main_v10_1 (by decide)).trans <|
    (W9_of_ne m ρ c main_v10_1 (by decide)).trans <| (W8_of_ne m ρ c main_v10_1 (by decide)).trans (W7_of m ρ c main_v10_1 (by decide))

/-! ## The host stretch before region 5, region 5, and the last reshape -/

theorem W10_v14 (c : Dev nD) : (W10 m ρ c (Proc.devRef .tc main_v14) : S16384x768.Idx → EReal) =
    shapeCast S16384x768 (W9 m ρ c (Proc.devRef .tc main_v12)) shapeCasts_S8x2048x768_S16384x768 := by
  dsimp only [W10, hostOps5]; after_results; rfl
theorem W10_v15 (c : Dev nD) : (W10 m ρ c (Proc.devRef .tc main_v15) : S16384x768.Idx → EReal) =
    shapeCast S16384x768 (W9 m ρ c (Proc.devRef .tc main_v13)) shapeCasts_S8x2048x768_S16384x768 := by
  dsimp only [W10, hostOps5]; after_results; rfl
theorem W10_v17 (c : Dev nD) : (W10 m ρ c (Proc.devRef .tc main_v17) : S768x768.Idx → EReal) =
    fun i => extractStridedSlice S768x768 ![0, 0] (m ((c : Thread nD τ).loc main_arg6)) slices_S768x1536_S768x768_0_0 i := by
  dsimp only [W10, hostOps5]; after_results; rw [W9_arg6 m ρ c]; rfl
theorem W10_v19 (c : Dev nD) : (W10 m ρ c (Proc.devRef .tc main_v19) : S768x768.Idx → EReal) =
    fun i => extractStridedSlice S768x768 ![0, 768] (m ((c : Thread nD τ).loc main_arg6)) slices_S768x1536_S768x768_0_768 i := by
  dsimp only [W10, hostOps5]; after_results; rw [W9_arg6 m ρ c]; rfl
theorem W10_v20 (c : Dev nD) : (W10 m ρ c (Proc.devRef .tc main_v20) : S1x768.Idx → EReal) =
    shapeCast S1x768 (m ((c : Thread nD τ).loc main_arg7)) shapeCasts_S768_S1x768 := by
  dsimp only [W10, hostOps5]; after_results; rw [W9_arg7 m ρ c]; rfl

/-- The left half of the output layer's weight matrix. -/
theorem W10_v17_at (c : Dev nD) (h k : Fin 768) : (W10 m ρ c (Proc.devRef .tc main_v17) : S768x768.Idx → EReal) (ix2 h k) = A6 m c h (Cert.Spec.colL k) := by
  rw [W10_v17]
  exact extractStridedSlice_apply _ _ _ _ (ix2 h (Cert.Spec.colL k)) (fun a => by
    match a with
    | ⟨0, _⟩ => show h.val = 0 + h.val; omega
    | ⟨1, _⟩ => show k.val = 0 + k.val; omega)
/-- The right half. -/
theorem W10_v19_at (c : Dev nD) (h k : Fin 768) : (W10 m ρ c (Proc.devRef .tc main_v19) : S768x768.Idx → EReal) (ix2 h k) = A6 m c h (Cert.Spec.colR k) := by
  rw [W10_v19]
  exact extractStridedSlice_apply _ _ _ _ (ix2 h (Cert.Spec.colR k)) (fun a => by
    match a with
    | ⟨0, _⟩ => show h.val = 0 + h.val; omega
    | ⟨1, _⟩ => show 768 + k.val = 768 + k.val; rfl)

/-- What region 5 reads of the two attended sums: region 3's and region 4's output arrays, by their coordinates. -/
abbrev UA (c : Dev nD) : Fin 8 → Fin 2048 → Fin 768 → EReal := fun b l k => (W9 m ρ c (Proc.devRef .tc main_v12) : S8x2048x768.Idx → EReal) (ix3 b l k)
abbrev UT (c : Dev nD) : Fin 8 → Fin 2048 → Fin 768 → EReal := fun b l k => (W9 m ρ c (Proc.devRef .tc main_v13) : S8x2048x768.Idx → EReal) (ix3 b l k)

/-- Region 5 leaves the output layer of the two attended sums in its output array. -/
theorem W11_v21_at (c : Dev nD) (b : Fin 8) (l : Fin 2048) (h : Fin 768) :
    (W11 m ρ c (Proc.devRef .tc main_v21) : S16384x768.Idx → EReal) (ix2 (rowOf b l) h) = Cert.Spec.outO (UA m ρ c) (UT m ρ c) (A6 m c) (B7 m c) b l h := by
  rw [show W11 m ρ c (Proc.devRef .tc main_v21) = _ from W11_arr m ρ c 5, final5 (U10 m ρ) c, G5_apply]
  rw [show U10 m ρ c (Pipeline.arrRef spec5 0) = _ from W10_v14 m ρ c, show U10 m ρ c (Pipeline.arrRef spec5 1) = _ from W10_v15 m ρ c,
    show U10 m ρ c (Pipeline.arrRef spec5 4) = _ from W10_v20 m ρ c]
  unfold Cert.Spec.outO
  refine congrArg₂ (· + ·) (congrArg₂ (· + ·) (Finset.sum_congr rfl fun k _ => ?_) (Finset.sum_congr rfl fun k _ => ?_)) ?_
  · exact congrArg₂ (· * ·) (flat_apply _ _ b l k) (W10_v17_at m ρ c h k)
  · exact congrArg₂ (· * ·) (flat_apply _ _ b l k) (W10_v19_at m ρ c h k)
  · exact shapeCast_a_1a_apply _ _ _ _

theorem W12_v22 (c : Dev nD) : (W12 m ρ c (Proc.devRef .tc main_v22) : S8x2048x768.Idx → EReal) =
    shapeCast S8x2048x768 (W11 m ρ c (Proc.devRef .tc main_v21)) shapeCasts_S16384x768_S8x2048x768 := by
  dsimp only [W12, hostOps6]; after_results; rfl
/-- The program's first result, over whatever regions 3 and 4 left. -/
theorem W12_v22_at (c : Dev nD) (b : Fin 8) (l : Fin 2048) (h : Fin 768) :
    (W12 m ρ c (Proc.devRef .tc main_v22) : S8x2048x768.Idx → EReal) (ix3 b l h) = Cert.Spec.outO (UA m ρ c) (UT m ρ c) (A6 m c) (B7 m c) b l h := by
  rw [W12_v22]; exact (unflat_apply _ _ b l h).trans (W11_v21_at m ρ c b l h)

/-! ## What regions 3 and 4 read -/

/-- Region 3 reads the weights (third copy) … -/
theorem U7_w_at (c : Dev nD) (b : Fin 8) (n k : Fin 2048) :
    (U7 m ρ c (Pipeline.arrRef spec3 0) : S8x2048x2048.Idx → EReal) (ix3 b n k) = SW m c b n k := by
  rw [show U7 m ρ c (Pipeline.arrRef spec3 0) = W6 m ρ c (Proc.devRef .tc main_v10_2) from W7_of m ρ c main_v10_2 (by decide)]
  exact W6_wB_at m ρ c b n k
/-- … and the first layer, which region 2 read and left in place. -/
theorem U7_a_at (c : Dev nD) (b : Fin 8) (n : Fin 2048) (h : Fin 768) :
    (U7 m ρ c (Pipeline.arrRef spec3 1) : S8x2048x768.Idx → EReal) (ix3 b n h) = Cert.Spec.amrT (X0 m c) (A2 m c) (B3 m c) b n h := by
  rw [show U7 m ρ c (Pipeline.arrRef spec3 1) = U5 m ρ c (Pipeline.arrRef spec2 0) from
    (W7_of m ρ c main_v8 (by decide)).trans ((W6_arr m ρ c 0).trans (Cert.KernelIdeal.Arr.kept2_0 (U5 m ρ) c))]
  exact W5_v8_at m ρ c b n h
/-- Region 4 reads the same weights, which region 3 read and left in place, … -/
theorem U8_w_at (c : Dev nD) (b : Fin 8) (n k : Fin 2048) :
    (U8 m ρ c (Pipeline.arrRef spec4 0) : S8x2048x2048.Idx → EReal) (ix3 b n k) = SW m c b n k := by
  rw [show U8 m ρ c (Pipeline.arrRef spec4 0) = U7 m ρ c (Pipeline.arrRef spec3 0) from
    (W8_arr m ρ c 0).trans (((dat3 (U7 m ρ) c).arrAt_in 0 rfl _).trans (A_eq3 (U7 m ρ) c 0))]
  exact U7_w_at m ρ c b n k
/-- … and the second input in the narrower format: the same extended reals. -/
theorem W7_v11 (c : Dev nD) : (W7 m ρ c (Proc.devRef .tc main_v11) : S8x2048x768.Idx → EReal) = fun i => m ((c : Thread nD τ).loc main_arg1) i := by
  dsimp only [W7, hostOps3]; after_results; rw [W6_arg1 m ρ c]; rfl
theorem U8_t_at (c : Dev nD) (b : Fin 8) (n : Fin 2048) (d : Fin 768) :
    (U8 m ρ c (Pipeline.arrRef spec4 1) : S8x2048x768.Idx → EReal) (ix3 b n d) = X1 m c b n d := by
  rw [show U8 m ρ c (Pipeline.arrRef spec4 1) = W7 m ρ c (Proc.devRef .tc main_v11) from W8_of_ne m ρ c main_v11 (by decide), W7_v11]
/-- Regions 3's output array is not touched by region 4. -/
theorem W9_v12 (c : Dev nD) : W9 m ρ c (Proc.devRef .tc main_v12) = (dat3 (U7 m ρ) c).arrAt 2 cfg3.N :=
  (W9_of_ne m ρ c main_v12 (by decide)).trans (W8_arr m ρ c 2)
theorem W9_v13 (c : Dev nD) : W9 m ρ c (Proc.devRef .tc main_v13) = (dat4 (U8 m ρ) c).arrAt 2 cfg4.N := W9_arr m ρ c 2

/-! ## Regions 3 and 4: the two attended sums, each accumulated over eight blocks of 256 of the contracted axis -/

/-- Region 3's output is the first attended sum. -/
theorem W9_v12_at (c : Dev nD) (b : Fin 8) (l : Fin 2048) (k : Fin 768) :
    UA m ρ c b l k = Cert.Spec.attA (SW m c) (Cert.Spec.amrT (X0 m c) (A2 m c) (B3 m c)) b l k := by
  have e1 : (W9 m ρ c (Proc.devRef .tc main_v12) : S8x2048x768.Idx → EReal) (ix3 b l k)
      = G3 (U7 m ρ c (Pipeline.arrRef spec3 0)) (U7 m ρ c (Pipeline.arrRef spec3 1)) (ix3 b l k) :=
    congrFun ((W9_v12 m ρ c).trans (final3 (U7 m ρ) c)) (ix3 b l k)
  refine e1.trans ((G3_apply_sum _ _ b l k).trans ?_)
  unfold Cert.Spec.attA
  exact Finset.sum_congr rfl fun n _ => congrArg₂ (· * ·) (U7_w_at m ρ c b n l) (U7_a_at m ρ c b n k)

/-- Region 4's output is the second attended sum. -/
theorem W9_v13_at (c : Dev nD) (b : Fin 8) (l : Fin 2048) (k : Fin 768) :
    UT m ρ c b l k = Cert.Spec.attT (SW m c) (X1 m c) b l k := by
  have e1 : (W9 m ρ c (Proc.devRef .tc main_v13) : S8x2048x768.Idx → EReal) (ix3 b l k)
      = G4 (U8 m ρ c (Pipeline.arrRef spec4 0)) (U8 m ρ c (Pipeline.arrRef spec4 1)) (ix3 b l k) :=
    congrFun ((W9_v13 m ρ c).trans (final4 (U8 m ρ) c)) (ix3 b l k)
  refine e1.trans ((G4_apply _ _ b l k).trans ?_)
  unfold Cert.Spec.attT
  exact Finset.sum_congr rfl fun n _ => congrArg₂ (· * ·) (U8_w_at m ρ c b l n) (U8_t_at m ρ c b n k)

/-! ## The three results are the specification's -/

/-- The output. -/
theorem W12_v22_spec (c : Dev nD) (b : Fin 8) (l : Fin 2048) (h : Fin 768) :
    (W12 m ρ c (Proc.devRef .tc main_v22) : S8x2048x768.Idx → EReal) (ix3 b l h)
      = Cert.Spec.O (X0 m c) (X1 m c) (A2 m c) (B3 m c) (A4 m c) (B5 m c) (A6 m c) (B7 m c) b l h := by
  rw [W12_v22_at]
  have hu : UA m ρ c = Cert.Spec.attA (SW m c) (Cert.Spec.amrT (X0 m c) (A2 m c) (B3 m c)) :=
    funext fun b => funext fun l => funext fun k => W9_v12_at m ρ c b l k
  have hv : UT m ρ c = Cert.Spec.attT (SW m c) (X1 m c) :=
    funext fun b => funext fun l => funext fun k => W9_v13_at m ρ c b l k
  rw [hu, hv]; rfl
/-- The weights. -/
theorem W12_w_spec (c : Dev nD) (b : Fin 8) (n k : Fin 2048) :
    (W12 m ρ c (Proc.devRef .tc main_v10_0) : S8x2048x2048.Idx → EReal) (ix3 b n k) = SW m c b n k := by
  rw [W12_v10_0]; exact W6_w_at m ρ c b n k
/-- The weights with the two row axes exchanged. -/
theorem W12_wT_spec (c : Dev nD) (b : Fin 8) (k n : Fin 2048) :
    (W12 m ρ c (Proc.devRef .tc main_v10_1) : S8x2048x2048.Idx → EReal) (ix3 b k n) = SW m c b n k := by
  rw [W12_v10_1]; exact W6_wT_at m ρ c b k n

end Cert.KernelIdeal.Fr
end
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KI.RefSpec.lean ====
/- The reference program read index by index at the ideal values: its two softmax weight arrays and its output are the
   specification's functions of the eight argument arrays read through their coordinates. Each stage of the program is
   read at an index built from literal coordinates, outermost stage last. -/
import proofs.«125380_j79173427134694_2_alg».proof.Proof.RefReadP
import proofs.«125380_j79173427134694_2_alg».proof.Proof.KI.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (x0 : (⟨S8x2048x1024, .f32⟩ : BufTy).Contents (Elt Ideal)) (x1 : (⟨S8x2048x768, .f32⟩ : BufTy).Contents (Elt Ideal))
  (x2 : (⟨S768x1024, .f32⟩ : BufTy).Contents (Elt Ideal)) (x3 : (⟨S768, .f32⟩ : BufTy).Contents (Elt Ideal))
  (x4 : (⟨S768x768, .f32⟩ : BufTy).Contents (Elt Ideal)) (x5 : (⟨S768, .f32⟩ : BufTy).Contents (Elt Ideal))
  (x6 : (⟨S768x1536, .f32⟩ : BufTy).Contents (Elt Ideal)) (x7 : (⟨S768, .f32⟩ : BufTy).Contents (Elt Ideal))

/-! ## The argument arrays read through their coordinates -/

abbrev X0 : Fin 8 → Fin 2048 → Fin 1024 → EReal := fun b n d => x0 (ix3 b n d)
abbrev X1 : Fin 8 → Fin 2048 → Fin 768 → EReal := fun b m d => x1 (ix3 b m d)
abbrev W2 : Fin 768 → Fin 1024 → EReal := fun h d => x2 (ix2 h d)
abbrev B3 : Fin 768 → EReal := fun h => x3 (ix1 h)
abbrev W4 : Fin 768 → Fin 768 → EReal := fun h d => x4 (ix2 h d)
abbrev B5 : Fin 768 → EReal := fun h => x5 (ix1 h)
abbrev W6 : Fin 768 → Fin 1536 → EReal := fun h c => x6 (ix2 h c)
abbrev B7 : Fin 768 → EReal := fun h => x7 (ix1 h)

/-- The two projections, as the specification names them. -/
abbrev A : Fin 8 → Fin 2048 → Fin 768 → EReal := Cert.Spec.amrT (X0 x0) (W2 x2) (B3 x3)
abbrev T : Fin 8 → Fin 2048 → Fin 768 → EReal := Cert.Spec.textT (X1 x1) (W4 x4) (B5 x5)

/-! ## The stages' operand indices at coordinate-built indices -/

theorem lidx0 (b : Fin 8) (n : Fin 2048) (h : Fin 768) (k : Fin 1024) : lidx_main_v0 (ix3 b n h) k = ix3 b n k :=
  funext fun a => Fin.ext (by match a with | ⟨0, _⟩ => rfl | ⟨1, _⟩ => rfl | ⟨2, _⟩ => rfl)
theorem ridx0 (b : Fin 8) (n : Fin 2048) (h : Fin 768) (k : Fin 1024) : ridx_main_v0 (ix3 b n h) k = ix2 h k :=
  funext fun a => Fin.ext (by match a with | ⟨0, _⟩ => rfl | ⟨1, _⟩ => rfl)
theorem bidx2 (b : Fin 8) (n : Fin 2048) (h : Fin 768) : idx_main_v1 (idx_main_v2 (ix3 b n h)) = ix1 h :=
  funext fun a => Fin.ext (by match a with | ⟨0, _⟩ => rfl)
theorem lidx4 (b : Fin 8) (m : Fin 2048) (h : Fin 768) (k : Fin 768) : lidx_main_v4 (ix3 b m h) k = ix3 b m k :=
  funext fun a => Fin.ext (by match a with | ⟨0, _⟩ => rfl | ⟨1, _⟩ => rfl | ⟨2, _⟩ => rfl)
theorem ridx4 (b : Fin 8) (m : Fin 2048) (h : Fin 768) (k : Fin 768) : ridx_main_v4 (ix3 b m h) k = ix2 h k :=
  funext fun a => Fin.ext (by match a with | ⟨0, _⟩ => rfl | ⟨1, _⟩ => rfl)
theorem bidx6 (b : Fin 8) (m : Fin 2048) (h : Fin 768) : idx_main_v5 (idx_main_v6 (ix3 b m h)) = ix1 h :=
  funext fun a => Fin.ext (by match a with | ⟨0, _⟩ => rfl)
theorem lidx8 (b : Fin 8) (n m : Fin 2048) (k : Fin 768) : lidx_main_v8 (ix3 b n m) k = ix3 b n k :=
  funext fun a => Fin.ext (by match a with | ⟨0, _⟩ => rfl | ⟨1, _⟩ => rfl | ⟨2, _⟩ => rfl)
theorem ridx8 (b : Fin 8) (n m : Fin 2048) (k : Fin 768) : ridx_main_v8 (ix3 b n m) k = ix3 b m k :=
  funext fun a => Fin.ext (by match a with | ⟨0, _⟩ => rfl | ⟨1, _⟩ => rfl | ⟨2, _⟩ => rfl)
theorem lidx20 (b : Fin 8) (m n : Fin 2048) (k : Fin 768) : lidx_main_v20 (ix3 b m n) k = ix3 b m k :=
  funext fun a => Fin.ext (by match a with | ⟨0, _⟩ => rfl | ⟨1, _⟩ => rfl | ⟨2, _⟩ => rfl)
theorem ridx20 (b : Fin 8) (m n : Fin 2048) (k : Fin 768) : ridx_main_v20 (ix3 b m n) k = ix3 b n k :=
  funext fun a => Fin.ext (by match a with | ⟨0, _⟩ => rfl | ⟨1, _⟩ => rfl | ⟨2, _⟩ => rfl)

/-! ## The two projections and the two score arrays -/

/-- The first projection at (b, n, h). -/
theorem v3_at (b : Fin 8) (n : Fin 2048) (h : Fin 768) :
    val_main_v3 (F := Ideal) x0 x2 x3 (ix3 b n h) = A x0 x2 x3 b n h := by
  rw [val_main_v3_apply, val_main_v0_apply, val_main_v2_apply, val_main_v1_apply, bidx2]
  simp only [lidx0, ridx0]
  rfl

/-- The second projection at (b, m, h). -/
theorem v7_at (b : Fin 8) (m : Fin 2048) (h : Fin 768) :
    val_main_v7 (F := Ideal) x1 x4 x5 (ix3 b m h) = T x1 x4 x5 b m h := by
  rw [val_main_v7_apply, val_main_v4_apply, val_main_v6_apply, val_main_v5_apply, bidx6]
  simp only [lidx4, ridx4]
  rfl

/-- The scores at (b, n, m). -/
theorem v8_at (b : Fin 8) (n m : Fin 2048) :
    val_main_v8 (F := Ideal) x0 x1 x2 x3 x4 x5 (ix3 b n m) = Cert.Spec.score (A x0 x2 x3) (T x1 x4 x5) b n m := by
  rw [val_main_v8_apply]
  simp only [lidx8, ridx8, v3_at, v7_at]
  rfl

/-- The scores with the two operands exchanged, at (b, m, n): the same sum, each product's factors exchanged. -/
theorem v20_at (b : Fin 8) (m n : Fin 2048) :
    val_main_v20 (F := Ideal) x0 x1 x2 x3 x4 x5 (ix3 b m n) = Cert.Spec.score (A x0 x2 x3) (T x1 x4 x5) b n m := by
  rw [val_main_v20_apply]
  simp only [lidx20, ridx20, v3_at, v7_at]
  exact Finset.sum_congr rfl fun h _ => mul_comm _ _

/-! ## Shared facts of the two softmaxes -/

/-- The batch axis is the one reduced. -/
theorem reduces8 : S8x2048x2048.Reduces [0] S2048x2048 := by decide

/-- The reduced index (p, q) with batch row k put back is (k, p, q). -/
theorem liftR (p q : Fin 2048) (k : Fin (S8x2048x2048.size 0)) :
    reduces8.lift (ix2 p q) k = ix3 (⟨k.val, k.isLt⟩ : Fin 8) p q := by
  funext c; apply Fin.ext
  match c with | ⟨0, _⟩ => rfl | ⟨1, _⟩ => rfl | ⟨2, _⟩ => rfl

/-- The word of minus infinity is the least element. -/
theorem max_negInf (y : Ideal .f32) : max (Ideal.ofBits .f32 0xFF800000#32) y = y := by
  simp [Ideal.ofBits, Ideal.ieee]

/-- The scores, and the scores with the two row axes exchanged. -/
abbrev Sc : Fin 8 → Fin 2048 → Fin 2048 → EReal := Cert.Spec.score (A x0 x2 x3) (T x1 x4 x5)
abbrev ScT : Fin 8 → Fin 2048 → Fin 2048 → EReal := fun b m n => Cert.Spec.score (A x0 x2 x3) (T x1 x4 x5) b n m

theorem v20_atT (b : Fin 8) (m n : Fin 2048) :
    val_main_v20 (F := Ideal) x0 x1 x2 x3 x4 x5 (ix3 b m n) = ScT x0 x1 x2 x3 x4 x5 b m n := v20_at x0 x1 x2 x3 x4 x5 b m n

/-! ## The softmax along the batch axis of the stage-8 scores -/

theorem bidx13 (b : Fin 8) (n m : Fin 2048) : idx_main_v12 (idx_main_v13 (ix3 b n m)) = ix2 n m :=
  funext fun a => Fin.ext (by match a with | ⟨0, _⟩ => rfl | ⟨1, _⟩ => rfl)
theorem bidx18 (b : Fin 8) (n m : Fin 2048) : idx_main_v17 (idx_main_v18 (ix3 b n m)) = ix2 n m :=
  funext fun a => Fin.ext (by match a with | ⟨0, _⟩ => rfl | ⟨1, _⟩ => rfl)
theorem idx16 (n m : Fin 2048) (k : Fin 8) : idx_main_v16 (ix2 n m) k = ix3 k n m :=
  funext fun a => Fin.ext (by match a with | ⟨0, _⟩ => rfl | ⟨1, _⟩ => rfl | ⟨2, _⟩ => rfl)

/-- The maximum over the batch axis, started from the word of minus infinity. -/
theorem v9_at (n m : Fin 2048) :
    val_main_v9 (F := Ideal) x0 x1 x2 x3 x4 x5 (ix2 n m) = Cert.Spec.colMax (Sc x0 x1 x2 x3 x4 x5) n m := by
  unfold val_main_v9
  rw [Host.reduce_eq_fold_single FloatOps.maximumf _ _ reducesTo_S8x2048x2048_S2048x2048_d0 reduces8 h_S_]
  have hf : (val_main_v8 (F := Ideal) x0 x1 x2 x3 x4 x5 ∘ reduces8.lift (ix2 n m)) = fun b' : Fin 8 => (Sc x0 x1 x2 x3 x4 x5) b' n m :=
    funext fun k => by
      show val_main_v8 (F := Ideal) x0 x1 x2 x3 x4 x5 (reduces8.lift (ix2 n m) k) = _
      rw [liftR, v8_at]
      rfl
  exact congrArg (fun f => Finset.fold max (Ideal.ofBits .f32 0xFF800000#32) f (Finset.univ : Finset (Fin 8))) hf

/-- The maximum of the minus-infinity splat and that maximum is that maximum. -/
theorem v11_at (n m : Fin 2048) :
    val_main_v11 (F := Ideal) x0 x1 x2 x3 x4 x5 (ix2 n m) = Cert.Spec.colMax (Sc x0 x1 x2 x3 x4 x5) n m := by
  rw [val_main_v11_apply, val_main_v10_apply, val_main_cst_0_apply, v9_at]
  exact max_negInf _

/-- The scores less their column's maximum. -/
theorem v14_at (b : Fin 8) (n m : Fin 2048) :
    val_main_v14 (F := Ideal) x0 x1 x2 x3 x4 x5 (ix3 b n m) = (Sc x0 x1 x2 x3 x4 x5) b n m - Cert.Spec.colMax (Sc x0 x1 x2 x3 x4 x5) n m := by
  rw [val_main_v14_apply, val_main_v13_apply, val_main_v12_apply, bidx13, v11_at, v8_at]
  rfl

/-- Their exponentials. -/
theorem v15_at (b : Fin 8) (n m : Fin 2048) :
    val_main_v15 (F := Ideal) x0 x1 x2 x3 x4 x5 (ix3 b n m) = Cert.Spec.expShift (Sc x0 x1 x2 x3 x4 x5) b n m := by
  rw [val_main_v15_apply, v14_at]
  rfl

/-- The exponentials summed over the batch axis from the zero word. -/
theorem v16_at (n m : Fin 2048) :
    val_main_v16 (F := Ideal) x0 x1 x2 x3 x4 x5 (ix2 n m) = ∑ b' : Fin 8, Cert.Spec.expShift (Sc x0 x1 x2 x3 x4 x5) b' n m := by
  rw [val_main_v16_apply, val_main_cst_1_apply]
  simp only [idx16, v15_at]
  show Ideal.ofBits .f32 0x00000000#32 + _ = _
  rw [Ideal.ofBits_zero_f32, zero_add]

/-- The weights. -/
theorem v19_w (b : Fin 8) (n m : Fin 2048) :
    val_main_v19 (F := Ideal) x0 x1 x2 x3 x4 x5 (ix3 b n m) = Cert.Spec.weight (Sc x0 x1 x2 x3 x4 x5) b n m := by
  rw [val_main_v19_apply, val_main_v18_apply, val_main_v17_apply, bidx18, v16_at, v15_at]
  rfl

/-! ## The softmax along the batch axis of the stage-20 scores -/

theorem bidx25 (b : Fin 8) (m n : Fin 2048) : idx_main_v24 (idx_main_v25 (ix3 b m n)) = ix2 m n :=
  funext fun a => Fin.ext (by match a with | ⟨0, _⟩ => rfl | ⟨1, _⟩ => rfl)
theorem bidx30 (b : Fin 8) (m n : Fin 2048) : idx_main_v29 (idx_main_v30 (ix3 b m n)) = ix2 m n :=
  funext fun a => Fin.ext (by match a with | ⟨0, _⟩ => rfl | ⟨1, _⟩ => rfl)
theorem idx28 (m n : Fin 2048) (k : Fin 8) : idx_main_v28 (ix2 m n) k = ix3 k m n :=
  funext fun a => Fin.ext (by match a with | ⟨0, _⟩ => rfl | ⟨1, _⟩ => rfl | ⟨2, _⟩ => rfl)

/-- The maximum over the batch axis, started from the word of minus infinity. -/
theorem v21_at (m n : Fin 2048) :
    val_main_v21 (F := Ideal) x0 x1 x2 x3 x4 x5 (ix2 m n) = Cert.Spec.colMax (ScT x0 x1 x2 x3 x4 x5) m n := by
  unfold val_main_v21
  rw [Host.reduce_eq_fold_single FloatOps.maximumf _ _ reducesTo_S8x2048x2048_S2048x2048_d0 reduces8 h_S_]
  have hf : (val_main_v20 (F := Ideal) x0 x1 x2 x3 x4 x5 ∘ reduces8.lift (ix2 m n)) = fun b' : Fin 8 => (ScT x0 x1 x2 x3 x4 x5) b' m n :=
    funext fun k => by
      show val_main_v20 (F := Ideal) x0 x1 x2 x3 x4 x5 (reduces8.lift (ix2 m n) k) = _
      rw [liftR, v20_atT]
      rfl
  exact congrArg (fun f => Finset.fold max (Ideal.ofBits .f32 0xFF800000#32) f (Finset.univ : Finset (Fin 8))) hf

/-- The maximum of the minus-infinity splat and that maximum is that maximum. -/
theorem v23_at (m n : Fin 2048) :
    val_main_v23 (F := Ideal) x0 x1 x2 x3 x4 x5 (ix2 m n) = Cert.Spec.colMax (ScT x0 x1 x2 x3 x4 x5) m n := by
  rw [val_main_v23_apply, val_main_v22_apply, val_main_cst_3_apply, v21_at]
  exact max_negInf _

/-- The scores less their column's maximum. -/
theorem v26_at (b : Fin 8) (m n : Fin 2048) :
    val_main_v26 (F := Ideal) x0 x1 x2 x3 x4 x5 (ix3 b m n) = (ScT x0 x1 x2 x3 x4 x5) b m n - Cert.Spec.colMax (ScT x0 x1 x2 x3 x4 x5) m n := by
  rw [val_main_v26_apply, val_main_v25_apply, val_main_v24_apply, bidx25, v23_at, v20_atT]
  rfl

/-- Their exponentials. -/
theorem v27_at (b : Fin 8) (m n : Fin 2048) :
    val_main_v27 (F := Ideal) x0 x1 x2 x3 x4 x5 (ix3 b m n) = Cert.Spec.expShift (ScT x0 x1 x2 x3 x4 x5) b m n := by
  rw [val_main_v27_apply, v26_at]
  rfl

/-- The exponentials summed over the batch axis from the zero word. -/
theorem v28_at (m n : Fin 2048) :
    val_main_v28 (F := Ideal) x0 x1 x2 x3 x4 x5 (ix2 m n) = ∑ b' : Fin 8, Cert.Spec.expShift (ScT x0 x1 x2 x3 x4 x5) b' m n := by
  rw [val_main_v28_apply, val_main_cst_4_apply]
  simp only [idx28, v27_at]
  show Ideal.ofBits .f32 0x00000000#32 + _ = _
  rw [Ideal.ofBits_zero_f32, zero_add]

/-- The weights. -/
theorem v31_w (b : Fin 8) (m n : Fin 2048) :
    val_main_v31 (F := Ideal) x0 x1 x2 x3 x4 x5 (ix3 b m n) = Cert.Spec.weight (ScT x0 x1 x2 x3 x4 x5) b m n := by
  rw [val_main_v31_apply, val_main_v30_apply, val_main_v29_apply, bidx30, v28_at, v27_at]
  rfl

/-! ## The two weight arrays -/

/-- The first returned weights at (b, n, m). -/
theorem v19_at (b : Fin 8) (n m : Fin 2048) :
    val_main_v19 (F := Ideal) x0 x1 x2 x3 x4 x5 (ix3 b n m) = Cert.Spec.W (X0 x0) (X1 x1) (W2 x2) (B3 x3) (W4 x4) (B5 x5) b n m :=
  v19_w x0 x1 x2 x3 x4 x5 b n m

/-- The second returned weights at (b, m, n): the first with the two row axes exchanged. -/
theorem v31_at (b : Fin 8) (m n : Fin 2048) :
    val_main_v31 (F := Ideal) x0 x1 x2 x3 x4 x5 (ix3 b m n) = Cert.Spec.W (X0 x0) (X1 x1) (W2 x2) (B3 x3) (W4 x4) (B5 x5) b n m :=
  (v31_w x0 x1 x2 x3 x4 x5 b m n).trans (Cert.Spec.weight_swap (Sc x0 x1 x2 x3 x4 x5) b n m)

/-! ## The two attended sums, their concatenation, the output layer -/

/-- The weights, as the specification names them. -/
abbrev Wt : Fin 8 → Fin 2048 → Fin 2048 → EReal := Cert.Spec.W (X0 x0) (X1 x1) (W2 x2) (B3 x3) (W4 x4) (B5 x5)

theorem lidx32 (b : Fin 8) (m : Fin 2048) (h : Fin 768) (k : Fin 2048) : lidx_main_v32 (ix3 b m h) k = ix3 b k m :=
  funext fun a => Fin.ext (by match a with | ⟨0, _⟩ => rfl | ⟨1, _⟩ => rfl | ⟨2, _⟩ => rfl)
theorem ridx32 (b : Fin 8) (m : Fin 2048) (h : Fin 768) (k : Fin 2048) : ridx_main_v32 (ix3 b m h) k = ix3 b k h :=
  funext fun a => Fin.ext (by match a with | ⟨0, _⟩ => rfl | ⟨1, _⟩ => rfl | ⟨2, _⟩ => rfl)
theorem lidx33 (b : Fin 8) (n : Fin 2048) (d : Fin 768) (k : Fin 2048) : lidx_main_v33 (ix3 b n d) k = ix3 b k n :=
  funext fun a => Fin.ext (by match a with | ⟨0, _⟩ => rfl | ⟨1, _⟩ => rfl | ⟨2, _⟩ => rfl)
theorem ridx33 (b : Fin 8) (n : Fin 2048) (d : Fin 768) (k : Fin 2048) : ridx_main_v33 (ix3 b n d) k = ix3 b k d :=
  funext fun a => Fin.ext (by match a with | ⟨0, _⟩ => rfl | ⟨1, _⟩ => rfl | ⟨2, _⟩ => rfl)
theorem lidx35 (b : Fin 8) (l : Fin 2048) (h : Fin 768) (c : Fin 1536) : lidx_main_v35 (ix3 b l h) c = ix3 b l c :=
  funext fun a => Fin.ext (by match a with | ⟨0, _⟩ => rfl | ⟨1, _⟩ => rfl | ⟨2, _⟩ => rfl)
theorem ridx35 (b : Fin 8) (l : Fin 2048) (h : Fin 768) (c : Fin 1536) : ridx_main_v35 (ix3 b l h) c = ix2 h c :=
  funext fun a => Fin.ext (by match a with | ⟨0, _⟩ => rfl | ⟨1, _⟩ => rfl)
theorem bidx37 (b : Fin 8) (l : Fin 2048) (h : Fin 768) : idx_main_v36 (idx_main_v37 (ix3 b l h)) = ix1 h :=
  funext fun a => Fin.ext (by match a with | ⟨0, _⟩ => rfl)

/-- The first attended sum at (b, m, h): over the first row axis of the weights. -/
theorem v32_at (b : Fin 8) (m : Fin 2048) (h : Fin 768) :
    val_main_v32 (F := Ideal) x0 x1 x2 x3 x4 x5 (ix3 b m h) = Cert.Spec.attA (Wt x0 x1 x2 x3 x4 x5) (A x0 x2 x3) b m h := by
  rw [val_main_v32_apply]
  simp only [lidx32, ridx32, v19_at, v3_at]
  rfl

/-- The second attended sum at (b, n, d): over the second row axis of the weights. -/
theorem v33_at (b : Fin 8) (n : Fin 2048) (d : Fin 768) :
    val_main_v33 (F := Ideal) x0 x1 x2 x3 x4 x5 (ix3 b n d) = Cert.Spec.attT (Wt x0 x1 x2 x3 x4 x5) (X1 x1) b n d := by
  rw [val_main_v33_apply]
  simp only [lidx33, ridx33, v31_at]
  rfl

/-- The concatenation along the last axis reads the first attended sum in its left 768 columns -/
theorem v34_left (b : Fin 8) (l : Fin 2048) (k : Fin 768) :
    val_main_v34 (F := Ideal) x0 x1 x2 x3 x4 x5 (ix3 b l (Cert.Spec.colL k)) = val_main_v32 (F := Ideal) x0 x1 x2 x3 x4 x5 (ix3 b l k) := by
  unfold val_main_v34
  exact concatenate_pair_apply_left (t := S8x2048x1536) (s₁ := S8x2048x768) (s₂ := S8x2048x768) 2
    (val_main_v32 (F := Ideal) x0 x1 x2 x3 x4 x5) (val_main_v33 (F := Ideal) x0 x1 x2 x3 x4 x5)
    concatenates_S8x2048x768_S8x2048x768_S8x2048x1536_d2 (ix3 b l (Cert.Spec.colL k)) rfl (ix3 b l k) fun a => by
      match a with | ⟨0, _⟩ => rfl | ⟨1, _⟩ => rfl | ⟨2, _⟩ => rfl

/-- and the second in its right 768 columns. -/
theorem v34_right (b : Fin 8) (l : Fin 2048) (k : Fin 768) :
    val_main_v34 (F := Ideal) x0 x1 x2 x3 x4 x5 (ix3 b l (Cert.Spec.colR k)) = val_main_v33 (F := Ideal) x0 x1 x2 x3 x4 x5 (ix3 b l k) := by
  unfold val_main_v34
  refine concatenate_pair_apply_right (t := S8x2048x1536) (s₁ := S8x2048x768) (s₂ := S8x2048x768) 2
    (val_main_v32 (F := Ideal) x0 x1 x2 x3 x4 x5) (val_main_v33 (F := Ideal) x0 x1 x2 x3 x4 x5)
    concatenates_S8x2048x768_S8x2048x768_S8x2048x1536_d2 (ix3 b l (Cert.Spec.colR k)) rfl rfl (ix3 b l k) (fun a ha => ?_) ?_
  · match a, ha with
    | ⟨0, _⟩, _ => rfl
    | ⟨1, _⟩, _ => rfl
    | ⟨2, _⟩, ha => exact absurd rfl ha
  · show k.val + 768 = 768 + k.val
    omega

/-- A sum over the 1536 columns is the sum over the left 768 plus the sum over the right 768. -/
theorem sum_cols (f : Fin 1536 → EReal) :
    ∑ c : Fin 1536, f c = (∑ k : Fin 768, f (Cert.Spec.colL k)) + ∑ k : Fin 768, f (Cert.Spec.colR k) :=
  Fin.sum_univ_add (a := 768) (b := 768) f

/-- The output at (b, l, h). -/
theorem v38_at (b : Fin 8) (l : Fin 2048) (h : Fin 768) :
    val_main_v38 (F := Ideal) x0 x1 x2 x3 x4 x5 x6 x7 (ix3 b l h)
      = Cert.Spec.O (X0 x0) (X1 x1) (W2 x2) (B3 x3) (W4 x4) (B5 x5) (W6 x6) (B7 x7) b l h := by
  rw [val_main_v38_apply, val_main_v35_apply, val_main_v37_apply, val_main_v36_apply, bidx37]
  simp only [lidx35, ridx35]
  rw [sum_cols]
  simp only [v34_left, v34_right, v32_at, v33_at]
  rfl

end Cert.ReferenceIdeal.RefSpec

end
-- ==== Proof.lean ====
/-
  The kernel against its reference, over the extended reals.

  Both programs compute, from eight argument arrays, two affine layers a = x0 · w2ᵀ + b3 and t = x1 · w4ᵀ + b5, the scores
  s[b,n,m] = Σ_h a[b,n,h] · t[b,m,h], their softmax ALONG THE BATCH AXIS w[b,n,m] (for every pair (n, m) separately), the two
  attended sums u[b,m,h] = Σ_n w[b,n,m] · a[b,n,h] and v[b,n,d] = Σ_m w[b,n,m] · x1[b,m,d], and the output layer
  o = [u, v] · w6ᵀ + b7; they return o, w, and w with its two row axes exchanged (Proof/KI/Spec.lean states these functions).
  The kernel does it in six pipelined regions: the layers row block by row block; the softmax on 256 × 256 tiles of (n, m)
  with the whole batch axis in one block; each attended sum accumulated over eight blocks of 256 of the contracted axis into
  a scratch buffer; the output layer as two products with the two column halves of w6. The reference computes the second
  weight array from the scores with the two factors exchanged, concatenates u and v, and contracts over all 1536 columns.
  The two agree because sums over the extended reals may be regrouped and reordered freely, and multiplication commutes:
  a sum over 2048 rows is the accumulation of its eight blocks, a sum over 1536 columns is the sum of its two halves, and
  the exchanged factors give the same scores, hence the same weights at exchanged row indices. No distributivity,
  cancellation or finiteness of an input is used.

  The frames: the kernel's run is the chain of its host stretches and its six regions (Proof/KI/Run.lean for the idealized
  program, Proof/KB/Run.lean, the same text, for the word-level one); it ends with every buffer at a named fold of the
  launch memory through the regions, which no step of writes an argument into. The reference is a line of host operations.
  The idealization rewrote nothing, so nothing is owed for it.
-/
import proofs.«125380_j79173427134694_2_alg».proof.Defs
import proofs.«125380_j79173427134694_2_alg».proof.Proof.Gen.Kernel
import proofs.«125380_j79173427134694_2_alg».proof.Proof.Gen.KernelIdeal
import proofs.«125380_j79173427134694_2_alg».proof.Proof.Gen.ReferenceIdeal
import proofs.«125380_j79173427134694_2_alg».proof.Proof.Gen.Pre_finite_inputs
import proofs.«125380_j79173427134694_2_alg».proof.Proof.KB.Run
import proofs.«125380_j79173427134694_2_alg».proof.Proof.KI.Chain
import proofs.«125380_j79173427134694_2_alg».proof.Proof.KI.RefSpec
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three frames and the idealization -/

theorem frame_kernel : Cert.frame_Kernel := fun m ρ _ => Cert.Kernel.Fr.frame m ρ
theorem frame_kernelIdeal : Cert.frame_KernelIdeal := fun m ρ _ => Cert.KernelIdeal.Fr.frame m ρ
/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)
/-- The idealized kernel is the kernel's own text read over the extended reals. -/
theorem preserves : Cert.preserves_Kernel_KernelIdeal := trivial

/-! ## The results agree -/

section Agree
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include h0 h1 h2 h3 h4 h5 h6 h7

/-- The reference's output is the kernel's: both are the specification's output of the same arguments. -/
theorem out_eq : Cert.ReferenceIdeal.Value.res_main_v38 m' c = Cert.KernelIdeal.Fr.W12 m ρ c (Proc.devRef .tc Cert.KernelIdeal.main_v22) := by
  rw [Cert.ReferenceIdeal.Read.val_main_v38_eq, h0, h1, h2, h3, h4, h5, h6, h7]
  funext j
  obtain ⟨b, l, h, rfl⟩ : ∃ (b : Fin 8) (l : Fin 2048) (h : Fin 768), j = ix3 b l h := ⟨j 0, j 1, j 2, eq_ix3 j⟩
  rw [Cert.ReferenceIdeal.RefSpec.v38_at]
  exact (Cert.KernelIdeal.Fr.W12_v22_spec m ρ c b l h).symm

omit h6 h7 in
/-- The reference's first weight array is the kernel's. -/
theorem w_eq : Cert.ReferenceIdeal.Read.val_main_v19 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    = Cert.KernelIdeal.Fr.W12 m ρ c (Proc.devRef .tc Cert.KernelIdeal.main_v10_0) := by
  rw [h0, h1, h2, h3, h4, h5]
  funext j
  obtain ⟨b, n, k, rfl⟩ : ∃ (b : Fin 8) (n k : Fin 2048), j = ix3 b n k := ⟨j 0, j 1, j 2, eq_ix3 j⟩
  rw [Cert.ReferenceIdeal.RefSpec.v19_at]
  exact (Cert.KernelIdeal.Fr.W12_w_spec m ρ c b n k).symm

omit h6 h7 in
/-- The reference's second weight array, computed from the scores with the factors exchanged, is the kernel's transposed tile by tile. -/
theorem wT_eq : Cert.ReferenceIdeal.Read.val_main_v31 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    = Cert.KernelIdeal.Fr.W12 m ρ c (Proc.devRef .tc Cert.KernelIdeal.main_v10_1) := by
  rw [h0, h1, h2, h3, h4, h5]
  funext j
  obtain ⟨b, k, n, rfl⟩ : ∃ (b : Fin 8) (k n : Fin 2048), j = ix3 b k n := ⟨j 0, j 1, j 2, eq_ix3 j⟩
  rw [Cert.ReferenceIdeal.RefSpec.v31_at]
  exact (Cert.KernelIdeal.Fr.W12_wT_spec m ρ c b k n).symm

end Agree

/-- From memories that agree on the arguments both programs run to the end with the same three results. -/
theorem algebraic : Cert.algebraic_KernelIdeal_ReferenceIdeal := by
  intro m ρ m' ρ' _ hagree
  refine ⟨fun c => Cert.KernelIdeal.Fr.W12 m ρ c (Proc.devRef .tc Cert.KernelIdeal.main_v22), fun c => Cert.KernelIdeal.Fr.W12 m ρ c (Proc.devRef .tc Cert.KernelIdeal.main_v10_0),
    fun c => Cert.KernelIdeal.Fr.W12 m ρ c (Proc.devRef .tc Cert.KernelIdeal.main_v10_1), ?_, ?_⟩
  · exact (θ_run Cert.KernelIdeal.defs _ _).mono (fun r h c =>
      ⟨h c _ (Cert.KernelIdeal.Fr.mem_uc Cert.KernelIdeal.main_v22 (by decide)), h c _ (Cert.KernelIdeal.Fr.mem_uc Cert.KernelIdeal.main_v10_0 (by decide)), h c _ (Cert.KernelIdeal.Fr.mem_uc Cert.KernelIdeal.main_v10_1 (by decide)),
        (h c _ (Cert.KernelIdeal.Fr.mem_uc Cert.KernelIdeal.main_arg0 (by decide))).trans (Cert.KernelIdeal.Fr.W12_main_arg0 m ρ c),
        (h c _ (Cert.KernelIdeal.Fr.mem_uc Cert.KernelIdeal.main_arg1 (by decide))).trans (Cert.KernelIdeal.Fr.W12_main_arg1 m ρ c),
        (h c _ (Cert.KernelIdeal.Fr.mem_uc Cert.KernelIdeal.main_arg2 (by decide))).trans (Cert.KernelIdeal.Fr.W12_main_arg2 m ρ c),
        (h c _ (Cert.KernelIdeal.Fr.mem_uc Cert.KernelIdeal.main_arg3 (by decide))).trans (Cert.KernelIdeal.Fr.W12_main_arg3 m ρ c),
        (h c _ (Cert.KernelIdeal.Fr.mem_uc Cert.KernelIdeal.main_arg4 (by decide))).trans (Cert.KernelIdeal.Fr.W12_main_arg4 m ρ c),
        (h c _ (Cert.KernelIdeal.Fr.mem_uc Cert.KernelIdeal.main_arg5 (by decide))).trans (Cert.KernelIdeal.Fr.W12_main_arg5 m ρ c),
        (h c _ (Cert.KernelIdeal.Fr.mem_uc Cert.KernelIdeal.main_arg6 (by decide))).trans (Cert.KernelIdeal.Fr.W12_main_arg6 m ρ c),
        (h c _ (Cert.KernelIdeal.Fr.mem_uc Cert.KernelIdeal.main_arg7 (by decide))).trans (Cert.KernelIdeal.Fr.W12_main_arg7 m ρ c)⟩)
      (Cert.KernelIdeal.Fr.run m ρ)
  · refine (θ_run Cert.ReferenceIdeal.defs _ _).mono (fun r h c => ?_) (Cert.ReferenceIdeal.Value.run (F := Ideal) m' ρ')
    obtain ⟨a0, a1, a2, a3, a4, a5, a6, a7⟩ := hagree c
    exact ⟨(h c).1.trans (out_eq m ρ m' c a0 a1 a2 a3 a4 a5 a6 a7),
      (h c).2.1.trans ((Cert.ReferenceIdeal.Read.val_main_v19_eq _ _ _ _ _ _).trans (w_eq m ρ m' c a0 a1 a2 a3 a4 a5)),
      (h c).2.2.1.trans ((Cert.ReferenceIdeal.Read.val_main_v31_eq _ _ _ _ _ _).trans (wT_eq m ρ m' c a0 a1 a2 a3 a4 a5)),
      (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
